-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S32x8192x128 : Shape := ⟨3, ![32, 8192, 128]⟩
abbrev S32x2048 : Shape := ⟨2, ![32, 2048]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel
  bcast_S_S32x2048 : S_.BroadcastsInDim S32x2048 (![] : Fin 0 → Fin S32x2048.rank)
  reducesTo_S32x2048_S_d0_1 : S32x2048.ReducesTo [0, 1] S_

variable [Facts]

def fn {F : FTy → Type} [FloatOps F] (main_arg0 : FVec F S32x8192x128 .f32) (main_arg1 : IVec S32x2048 32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  let main_c_0 : IVec S_ 32 := constantI S_ 32 0#32
  let main_v4 : IVec S32x2048 32 := broadcastInDim S32x2048 ![] bcast_S_S32x2048 main_c_0
  let main_v5 : IVec S32x2048 1 := cmpi .sge main_arg1 main_v4
  let main_c_1 : IVec S_ 32 := constantI S_ 32 8191#32
  let main_v6 : IVec S32x2048 32 := broadcastInDim S32x2048 ![] bcast_S_S32x2048 main_c_1
  let main_v7 : IVec S32x2048 1 := cmpi .sle main_arg1 main_v6
  let main_v8 : IVec S32x2048 1 := andi main_v5 main_v7
  let main_c_2 : IVec S_ 1 := constantI S_ 1 1#1
  let main_v9 : IVec S_ 1 := (fun x v => Host.reduce IntOp.andi x v reducesTo_S32x2048_S_d0_1 h_S_) main_v8 main_c_2
  let main_v10 : IVec S_ 1 := andi main_v3 main_v9
  main_v10
-- ==== Kernel.lean ====
abbrev S32x8192x128 : Shape := ⟨3, ![32, 8192, 128]⟩
abbrev S32x2048 : Shape := ⟨2, ![32, 2048]⟩
abbrev S32x2048x128 : Shape := ⟨3, ![32, 2048, 128]⟩
abbrev S2048 : Shape := ⟨1, ![2048]⟩
abbrev S6x128x128 : Shape := ⟨3, ![6, 128, 128]⟩
abbrev S_ : Shape := ⟨0, ![]⟩
abbrev S1x2048 : Shape := ⟨2, ![1, 2048]⟩
abbrev S1x128x128 : Shape := ⟨3, ![1, 128, 128]⟩
abbrev S128x128 : Shape := ⟨2, ![128, 128]⟩
abbrev S128 : Shape := ⟨1, ![128]⟩
abbrev S1x8192x128 : Shape := ⟨3, ![1, 8192, 128]⟩
abbrev S8192x128 : Shape := ⟨2, ![8192, 128]⟩

abbrev nBuf : Table → Nat
  | .hbm => 3
  | .local .scVector .vmem => 2
  | _ => 0

abbrev bufTy : (tb : Table) → Fin (nBuf tb) → BufTy
  | .hbm, ⟨0, _⟩ => ⟨S32x8192x128, .f32⟩
  | .hbm, ⟨1, _⟩ => ⟨S32x2048, .i32⟩
  | .hbm, ⟨2, _⟩ => ⟨S32x2048x128, .f32⟩
  | .local .scVector .vmem, ⟨0, _⟩ => ⟨S2048, .i32⟩
  | .local .scVector .vmem, ⟨1, _⟩ => ⟨S6x128x128, .f32⟩
  | _, _ => ⟨S32x8192x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_524_r0 : BitVec 32 := 0#32
  ![v1.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c0_i32_4 : BitVec 32 := 0#32
  ![v1.toNat, 0, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_37 : BitVec 32 := 0#32
  let c0_i32_38 : BitVec 32 := 0#32
  ![v1.toNat, 0, 0]
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_60 : BitVec 32 := 128#32
  let c0_i32_61 : BitVec 32 := 0#32
  ![v1.toNat, 128, 0]
def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_83 : BitVec 32 := 256#32
  let c0_i32_84 : BitVec 32 := 0#32
  ![v1.toNat, 256, 0]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32_116 : BitVec 32 := 384#32
  let c0_i32_117 : BitVec 32 := 0#32
  ![v1.toNat, 384, 0]
def k0_off7 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_149 : BitVec 32 := 512#32
  let c0_i32_150 : BitVec 32 := 0#32
  ![v1.toNat, 512, 0]
def k0_off8 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32_182 : BitVec 32 := 640#32
  let c0_i32_183 : BitVec 32 := 0#32
  ![v1.toNat, 640, 0]
def k0_off9 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c768_i32_215 : BitVec 32 := 768#32
  let c0_i32_216 : BitVec 32 := 0#32
  ![v1.toNat, 768, 0]
def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c896_i32_248 : BitVec 32 := 896#32
  let c0_i32_249 : BitVec 32 := 0#32
  ![v1.toNat, 896, 0]
def k0_off11 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_281 : BitVec 32 := 1024#32
  let c0_i32_282 : BitVec 32 := 0#32
  ![v1.toNat, 1024, 0]
def k0_off12 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1152_i32_314 : BitVec 32 := 1152#32
  let c0_i32_315 : BitVec 32 := 0#32
  ![v1.toNat, 1152, 0]
def k0_off13 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32_347 : BitVec 32 := 1280#32
  let c0_i32_348 : BitVec 32 := 0#32
  ![v1.toNat, 1280, 0]
def k0_off14 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32_380 : BitVec 32 := 1408#32
  let c0_i32_381 : BitVec 32 := 0#32
  ![v1.toNat, 1408, 0]
def k0_off15 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32_413 : BitVec 32 := 1536#32
  let c0_i32_414 : BitVec 32 := 0#32
  ![v1.toNat, 1536, 0]
def k0_off16 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32_430 : BitVec 32 := 1664#32
  let c0_i32_431 : BitVec 32 := 0#32
  ![v1.toNat, 1664, 0]
def k0_off17 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1792_i32_447 : BitVec 32 := 1792#32
  let c0_i32_448 : BitVec 32 := 0#32
  ![v1.toNat, 1792, 0]
def k0_off18 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1920_i32_464 : BitVec 32 := 1920#32
  let c0_i32_465 : BitVec 32 := 0#32
  ![v1.toNat, 1920, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x2048_S2048 : S1x2048.Squeezes S2048
  inb_S6x128x128_S1x128x128_0_0_0 : ∀ a, (![0, 0, 0] : Fin 3 → Nat) a + S1x128x128.size a ≤ S6x128x128.size a
  squeezes_S1x128x128_S128x128 : S1x128x128.Squeezes S128x128
  inb_S2048_S128_0 : ∀ a, (![0] : Fin 1 → Nat) a + S128.size a ≤ S2048.size a
  squeezes_S1x8192x128_S8192x128 : S1x8192x128.Squeezes S8192x128
  inb_S8192x128_S8192x128_0_0 : ∀ a, (![0, 0] : Fin 2 → Nat) a + S8192x128.size a ≤ S8192x128.size a
  gathers_S8192x128_S128x128 : S8192x128.Gathers 0 S128x128
  inb_S6x128x128_S1x128x128_1_0_0 : ∀ a, (![1, 0, 0] : Fin 3 → Nat) a + S1x128x128.size a ≤ S6x128x128.size a
  inb_S2048_S128_128 : ∀ a, (![128] : Fin 1 → Nat) a + S128.size a ≤ S2048.size a
  inb_S6x128x128_S1x128x128_2_0_0 : ∀ a, (![2, 0, 0] : Fin 3 → Nat) a + S1x128x128.size a ≤ S6x128x128.size a
  inb_S2048_S128_256 : ∀ a, (![256] : Fin 1 → Nat) a + S128.size a ≤ S2048.size a
  inb_S6x128x128_S1x128x128_3_0_0 : ∀ a, (![3, 0, 0] : Fin 3 → Nat) a + S1x128x128.size a ≤ S6x128x128.size a
  inb_S2048_S128_384 : ∀ a, (![384] : Fin 1 → Nat) a + S128.size a ≤ S2048.size a
  inb_S6x128x128_S1x128x128_4_0_0 : ∀ a, (![4, 0, 0] : Fin 3 → Nat) a + S1x128x128.size a ≤ S6x128x128.size a
  inb_S2048_S128_512 : ∀ a, (![512] : Fin 1 → Nat) a + S128.size a ≤ S2048.size a
  inb_S6x128x128_S1x128x128_5_0_0 : ∀ a, (![5, 0, 0] : Fin 3 → Nat) a + S1x128x128.size a ≤ S6x128x128.size a
  inb_S2048_S128_640 : ∀ a, (![640] : Fin 1 → Nat) a + S128.size a ≤ S2048.size a
  inb_S2048_S128_768 : ∀ a, (![768] : Fin 1 → Nat) a + S128.size a ≤ S2048.size a
  inb_S2048_S128_896 : ∀ a, (![896] : Fin 1 → Nat) a + S128.size a ≤ S2048.size a
  inb_S2048_S128_1024 : ∀ a, (![1024] : Fin 1 → Nat) a + S128.size a ≤ S2048.size a
  inb_S2048_S128_1152 : ∀ a, (![1152] : Fin 1 → Nat) a + S128.size a ≤ S2048.size a
  inb_S2048_S128_1280 : ∀ a, (![1280] : Fin 1 → Nat) a + S128.size a ≤ S2048.size a
  inb_S2048_S128_1408 : ∀ a, (![1408] : Fin 1 → Nat) a + S128.size a ≤ S2048.size a
  inb_S2048_S128_1536 : ∀ a, (![1536] : Fin 1 → Nat) a + S128.size a ≤ S2048.size a
  inb_S2048_S128_1664 : ∀ a, (![1664] : Fin 1 → Nat) a + S128.size a ≤ S2048.size a
  inb_S2048_S128_1792 : ∀ a, (![1792] : Fin 1 → Nat) a + S128.size a ≤ S2048.size a
  inb_S2048_S128_1920 : ∀ a, (![1920] : Fin 1 → Nat) a + S128.size a ≤ S2048.size a
  hcc0_scratch2 : 0 + S_.numel ≤ 13
  hcc0_scratch3 : 1 + S_.numel ≤ 13
  hcc0_scratch4 : 2 + S_.numel ≤ 13
  hcc0_scratch5 : 3 + S_.numel ≤ 13
  hcc0_scratch6 : 4 + S_.numel ≤ 13
  hcc0_scratch7 : 5 + S_.numel ≤ 13
  hcc0_scratch8 : 6 + S_.numel ≤ 13
  hcc0_scratch9 : 7 + S_.numel ≤ 13
  hcc0_scratch10 : 8 + S_.numel ≤ 13
  hcc0_scratch11 : 9 + S_.numel ≤ 13
  hcc0_scratch12 : 10 + S_.numel ≤ 13
  hcc0_scratch13 : 11 + S_.numel ≤ 13
  hcc0_scoped0 : 12 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x2048.size a ≤ S32x2048.size a
  k0_off2_inb : ∀ i : grid0.Coords, ∀ a, (k0_off2 i) a + S1x8192x128.size a ≤ S32x8192x128.size a
  k0_off3_inb : ∀ i : grid0.Coords, ∀ a, (k0_off3 i) a + S1x128x128.size a ≤ S32x2048x128.size a
  k0_off4_inb : ∀ i : grid0.Coords, ∀ a, (k0_off4 i) a + S1x128x128.size a ≤ S32x2048x128.size a
  k0_off5_inb : ∀ i : grid0.Coords, ∀ a, (k0_off5 i) a + S1x128x128.size a ≤ S32x2048x128.size a
  k0_off6_inb : ∀ i : grid0.Coords, ∀ a, (k0_off6 i) a + S1x128x128.size a ≤ S32x2048x128.size a
  k0_off7_inb : ∀ i : grid0.Coords, ∀ a, (k0_off7 i) a + S1x128x128.size a ≤ S32x2048x128.size a
  k0_off8_inb : ∀ i : grid0.Coords, ∀ a, (k0_off8 i) a + S1x128x128.size a ≤ S32x2048x128.size a
  k0_off9_inb : ∀ i : grid0.Coords, ∀ a, (k0_off9 i) a + S1x128x128.size a ≤ S32x2048x128.size a
  k0_off10_inb : ∀ i : grid0.Coords, ∀ a, (k0_off10 i) a + S1x128x128.size a ≤ S32x2048x128.size a
  k0_off11_inb : ∀ i : grid0.Coords, ∀ a, (k0_off11 i) a + S1x128x128.size a ≤ S32x2048x128.size a
  k0_off12_inb : ∀ i : grid0.Coords, ∀ a, (k0_off12 i) a + S1x128x128.size a ≤ S32x2048x128.size a
  k0_off13_inb : ∀ i : grid0.Coords, ∀ a, (k0_off13 i) a + S1x128x128.size a ≤ S32x2048x128.size a
  k0_off14_inb : ∀ i : grid0.Coords, ∀ a, (k0_off14 i) a + S1x128x128.size a ≤ S32x2048x128.size a
  k0_off15_inb : ∀ i : grid0.Coords, ∀ a, (k0_off15 i) a + S1x128x128.size a ≤ S32x2048x128.size a
  k0_off16_inb : ∀ i : grid0.Coords, ∀ a, (k0_off16 i) a + S1x128x128.size a ≤ S32x2048x128.size a
  k0_off17_inb : ∀ i : grid0.Coords, ∀ a, (k0_off17 i) a + S1x128x128.size a ≤ S32x2048x128.size a
  k0_off18_inb : ∀ i : grid0.Coords, ∀ a, (k0_off18 i) a + S1x128x128.size a ≤ S32x2048x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scratch10 : DmaSems sig S_ := SemArray.consecutive 8 S_ hcc0_scratch10
abbrev cc0_scratch11 : DmaSems sig S_ := SemArray.consecutive 9 S_ hcc0_scratch11
abbrev cc0_scratch12 : DmaSems sig S_ := SemArray.consecutive 10 S_ hcc0_scratch12
abbrev cc0_scratch13 : DmaSems sig S_ := SemArray.consecutive 11 S_ hcc0_scratch13
abbrev cc0_scoped0 : DmaSems sig S_ := SemArray.consecutive 12 S_ hcc0_scoped0

class Facts : Prop extends Facts₀ where

variable [Facts]
-- ==== ReferenceIdeal.lean ====
abbrev S32x8192x128 : Shape := ⟨3, ![32, 8192, 128]⟩
abbrev S32x2048 : Shape := ⟨2, ![32, 2048]⟩
abbrev S32x2048x1 : Shape := ⟨3, ![32, 2048, 1]⟩
abbrev S32x2048x128 : Shape := ⟨3, ![32, 2048, 128]⟩
abbrev S_ : Shape := ⟨0, ![]⟩
abbrev S32x2048x128x1 : Shape := ⟨4, ![32, 2048, 128, 1]⟩
abbrev S1 : Shape := ⟨1, ![1]⟩
abbrev S1x1x1x1 : Shape := ⟨4, ![1, 1, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S32x2048, .i32⟩
  | .hbm, ⟨2, _⟩ => ⟨S32x2048x1, .i32⟩
  | .hbm, ⟨3, _⟩ => ⟨S32x2048x128, .i32⟩
  | .hbm, ⟨4, _⟩ => ⟨S_, .i32⟩
  | .hbm, ⟨5, _⟩ => ⟨S32x2048x128, .i32⟩
  | .hbm, ⟨6, _⟩ => ⟨S32x2048x128, .i1⟩
  | .hbm, ⟨7, _⟩ => ⟨S_, .i32⟩
  | .hbm, ⟨8, _⟩ => ⟨S32x2048x128, .i32⟩
  | .hbm, ⟨9, _⟩ => ⟨S32x2048x128, .i32⟩
  | .hbm, ⟨10, _⟩ => ⟨S32x2048x128, .i32⟩
  | .hbm, ⟨11, _⟩ => ⟨S32x2048x128x1, .i32⟩
  | .hbm, ⟨12, _⟩ => ⟨S1, .i32⟩
  | .hbm, ⟨13, _⟩ => ⟨S_, .i32⟩
  | .hbm, ⟨14, _⟩ => ⟨S32x2048x128x1, .i32⟩
  | .hbm, ⟨15, _⟩ => ⟨S32x2048x128x1, .i1⟩
  | .hbm, ⟨16, _⟩ => ⟨S1x1x1x1, .i32⟩
  | .hbm, ⟨17, _⟩ => ⟨S32x2048x128x1, .i32⟩
  | .hbm, ⟨18, _⟩ => ⟨S32x2048x128x1, .i1⟩
  | .hbm, ⟨19, _⟩ => ⟨S32x2048x128x1, .i1⟩
  | .hbm, ⟨20, _⟩ => ⟨S_, .i1⟩
  | .hbm, ⟨21, _⟩ => ⟨S32x2048x128, .i1⟩
  | .hbm, ⟨22, _⟩ => ⟨S32x2048x128, .f32⟩
  | .hbm, ⟨23, _⟩ => ⟨S_, .f32⟩
  | .hbm, ⟨24, _⟩ => ⟨S32x2048x128, .f32⟩
  | .hbm, ⟨25, _⟩ => ⟨S32x2048x128, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v2 : Ref sig .tc := ⟨.hbm, 25, rfl⟩

abbrev nD : Nat := 1
abbrev τ : Topo := Topo.v7x

variable {F : FTy → Type} [FloatOps F]

class Facts₀ : Prop where
  shapeCasts_S32x2048_S32x2048x1 : S32x2048.ShapeCasts S32x2048x1
  bcast_S32x2048x1_S32x2048x128_0_1_2 : S32x2048x1.BroadcastsInDim S32x2048x128 (![0, 1, 2] : Fin 3 → Fin S32x2048x128.rank)
  bcast_S_S32x2048x128 : S_.BroadcastsInDim S32x2048x128 (![] : Fin 0 → Fin S32x2048x128.rank)
  shapeCasts_S32x2048x128_S32x2048x128x1 : S32x2048x128.ShapeCasts S32x2048x128x1
  bcast_S_S32x2048x128x1 : S_.BroadcastsInDim S32x2048x128x1 (![] : Fin 0 → Fin S32x2048x128x1.rank)
  bcast_S1_S1x1x1x1_3 : S1.BroadcastsInDim S1x1x1x1 (![3] : Fin 1 → Fin S1x1x1x1.rank)
  bcast_S1x1x1x1_S32x2048x128x1_0_1_2_3 : S1x1x1x1.BroadcastsInDim S32x2048x128x1 (![0, 1, 2, 3] : Fin 4 → Fin S32x2048x128x1.rank)
  reducesTo_S32x2048x128x1_S32x2048x128_d3 : S32x2048x128x1.ReducesTo [3] S32x2048x128
  h_S_ : 0 < S_.numel
  gather_S32x8192x128_S32x2048x128x1_S32x2048x128_n_1_02_02_1_3_111_wf : GatherDims.WF S32x8192x128 S32x2048x128x1 S32x2048x128 [] [1] [0, 2] [1] [0, 2] 3 ![1, 1, 1]

variable [Facts₀]

def gather_S32x8192x128_S32x2048x128x1_S32x2048x128_n_1_02_02_1_3_111 : GatherDims S32x8192x128 S32x2048x128x1 S32x2048x128 where
  offsetDims := []
  collapsedSliceDims := [1]
  operandBatchingDims := [0, 2]
  startIndicesBatchingDims := [0, 2]
  startIndexMap := [1]
  indexVectorDim := 3
  sliceSizes := ![1, 1, 1]
  wf := gather_S32x8192x128_S32x2048x128x1_S32x2048x128_n_1_02_02_1_3_111_wf

class Facts : Prop extends Facts₀ where

variable [Facts]
-- ==== Proof.KISetup.lean ====
import proofs.«219751_g11407433138865_week1_w4_400_13_alg».proof.Defs
import Idealize.ShloMosaic.Lib.SparseCore.Launch
import Idealize.ShloMosaic.Lib.StableHlo.Run
import Idealize.ShloMosaic.Lib.Pipeline.Kit
import Idealize.ShloMosaic.Lib.Tactic
import proofs.«219751_g11407433138865_week1_w4_400_13_alg».proof.Proof.Gen.KernelIdeal
import proofs.«219751_g11407433138865_week1_w4_400_13_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the memrefs, as the body spells them -/

abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

abbrev xV : Memref sig .scVector .hbm S32x8192x128 .f32 := Memref.whole main_arg0_scv
abbrev iV : Memref sig .scVector .hbm S32x2048 .i32 := Memref.whole main_arg1_scv
abbrev oV : Memref sig .scVector .hbm S32x2048x128 .f32 := Memref.whole main_v0_scv
abbrev sI : Memref sig .scVector .vmem S2048 .i32 := Memref.whole cc0_scratch0
abbrev sR : Memref sig .scVector .vmem S6x128x128 .f32 := Memref.whole cc0_scratch1

abbrev cV (L : grid0.Coords) : Fin τ.nSC := (L 0).castLE hcore0
abbrev jV (L : grid0.Coords) : Fin τ.nSub := (L 1).castLE hsub0

/-- Row `2·(L 1) + (L 0)` of the index array: the list one tile fetches. -/
abbrev iRow (L : grid0.Coords) : Memref sig .scVector .hbm S2048 .i32 :=
  ((iV : Memref sig .scVector .hbm S32x2048 .i32).slice (Rect.unit (s := S32x2048) (k0_off1 L) S1x2048.size (k0_off1_inb L)) (fun _ => rfl)).squeeze S2048 squeezes_S1x2048_S2048
/-- Batch `2·(L 1) + (L 0)` of the table: the rows one tile gathers from. -/
abbrev xB (L : grid0.Coords) : Memref sig .scVector .hbm S8192x128 .f32 :=
  (((xV : Memref sig .scVector .hbm S32x8192x128 .f32).slice (Rect.unit (s := S32x8192x128) (k0_off2 L) S1x8192x128.size (k0_off2_inb L)) (fun _ => rfl)).squeeze S8192x128 squeezes_S1x8192x128_S8192x128).slice
    (Rect.unit (s := S8192x128) ![0, 0] S8192x128.size inb_S8192x128_S8192x128_0_0) (fun _ => rfl)
/-- Chunk `k` (rows `128k … 128k+127`) of that batch of the result. -/
abbrev oCh0 (L : grid0.Coords) : Memref sig .scVector .hbm S128x128 .f32 :=
  ((oV : Memref sig .scVector .hbm S32x2048x128 .f32).slice (Rect.unit (s := S32x2048x128) (k0_off3 L) S1x128x128.size (k0_off3_inb L)) (fun _ => rfl)).squeeze S128x128 squeezes_S1x128x128_S128x128
abbrev oCh1 (L : grid0.Coords) : Memref sig .scVector .hbm S128x128 .f32 :=
  ((oV : Memref sig .scVector .hbm S32x2048x128 .f32).slice (Rect.unit (s := S32x2048x128) (k0_off4 L) S1x128x128.size (k0_off4_inb L)) (fun _ => rfl)).squeeze S128x128 squeezes_S1x128x128_S128x128
abbrev oCh2 (L : grid0.Coords) : Memref sig .scVector .hbm S128x128 .f32 :=
  ((oV : Memref sig .scVector .hbm S32x2048x128 .f32).slice (Rect.unit (s := S32x2048x128) (k0_off5 L) S1x128x128.size (k0_off5_inb L)) (fun _ => rfl)).squeeze S128x128 squeezes_S1x128x128_S128x128
abbrev oCh3 (L : grid0.Coords) : Memref sig .scVector .hbm S128x128 .f32 :=
  ((oV : Memref sig .scVector .hbm S32x2048x128 .f32).slice (Rect.unit (s := S32x2048x128) (k0_off6 L) S1x128x128.size (k0_off6_inb L)) (fun _ => rfl)).squeeze S128x128 squeezes_S1x128x128_S128x128
abbrev oCh4 (L : grid0.Coords) : Memref sig .scVector .hbm S128x128 .f32 :=
  ((oV : Memref sig .scVector .hbm S32x2048x128 .f32).slice (Rect.unit (s := S32x2048x128) (k0_off7 L) S1x128x128.size (k0_off7_inb L)) (fun _ => rfl)).squeeze S128x128 squeezes_S1x128x128_S128x128
abbrev oCh5 (L : grid0.Coords) : Memref sig .scVector .hbm S128x128 .f32 :=
  ((oV : Memref sig .scVector .hbm S32x2048x128 .f32).slice (Rect.unit (s := S32x2048x128) (k0_off8 L) S1x128x128.size (k0_off8_inb L)) (fun _ => rfl)).squeeze S128x128 squeezes_S1x128x128_S128x128
abbrev oCh6 (L : grid0.Coords) : Memref sig .scVector .hbm S128x128 .f32 :=
  ((oV : Memref sig .scVector .hbm S32x2048x128 .f32).slice (Rect.unit (s := S32x2048x128) (k0_off9 L) S1x128x128.size (k0_off9_inb L)) (fun _ => rfl)).squeeze S128x128 squeezes_S1x128x128_S128x128
abbrev oCh7 (L : grid0.Coords) : Memref sig .scVector .hbm S128x128 .f32 :=
  ((oV : Memref sig .scVector .hbm S32x2048x128 .f32).slice (Rect.unit (s := S32x2048x128) (k0_off10 L) S1x128x128.size (k0_off10_inb L)) (fun _ => rfl)).squeeze S128x128 squeezes_S1x128x128_S128x128
abbrev oCh8 (L : grid0.Coords) : Memref sig .scVector .hbm S128x128 .f32 :=
  ((oV : Memref sig .scVector .hbm S32x2048x128 .f32).slice (Rect.unit (s := S32x2048x128) (k0_off11 L) S1x128x128.size (k0_off11_inb L)) (fun _ => rfl)).squeeze S128x128 squeezes_S1x128x128_S128x128
abbrev oCh9 (L : grid0.Coords) : Memref sig .scVector .hbm S128x128 .f32 :=
  ((oV : Memref sig .scVector .hbm S32x2048x128 .f32).slice (Rect.unit (s := S32x2048x128) (k0_off12 L) S1x128x128.size (k0_off12_inb L)) (fun _ => rfl)).squeeze S128x128 squeezes_S1x128x128_S128x128
abbrev oCh10 (L : grid0.Coords) : Memref sig .scVector .hbm S128x128 .f32 :=
  ((oV : Memref sig .scVector .hbm S32x2048x128 .f32).slice (Rect.unit (s := S32x2048x128) (k0_off13 L) S1x128x128.size (k0_off13_inb L)) (fun _ => rfl)).squeeze S128x128 squeezes_S1x128x128_S128x128
abbrev oCh11 (L : grid0.Coords) : Memref sig .scVector .hbm S128x128 .f32 :=
  ((oV : Memref sig .scVector .hbm S32x2048x128 .f32).slice (Rect.unit (s := S32x2048x128) (k0_off14 L) S1x128x128.size (k0_off14_inb L)) (fun _ => rfl)).squeeze S128x128 squeezes_S1x128x128_S128x128
abbrev oCh12 (L : grid0.Coords) : Memref sig .scVector .hbm S128x128 .f32 :=
  ((oV : Memref sig .scVector .hbm S32x2048x128 .f32).slice (Rect.unit (s := S32x2048x128) (k0_off15 L) S1x128x128.size (k0_off15_inb L)) (fun _ => rfl)).squeeze S128x128 squeezes_S1x128x128_S128x128
abbrev oCh13 (L : grid0.Coords) : Memref sig .scVector .hbm S128x128 .f32 :=
  ((oV : Memref sig .scVector .hbm S32x2048x128 .f32).slice (Rect.unit (s := S32x2048x128) (k0_off16 L) S1x128x128.size (k0_off16_inb L)) (fun _ => rfl)).squeeze S128x128 squeezes_S1x128x128_S128x128
abbrev oCh14 (L : grid0.Coords) : Memref sig .scVector .hbm S128x128 .f32 :=
  ((oV : Memref sig .scVector .hbm S32x2048x128 .f32).slice (Rect.unit (s := S32x2048x128) (k0_off17 L) S1x128x128.size (k0_off17_inb L)) (fun _ => rfl)).squeeze S128x128 squeezes_S1x128x128_S128x128
abbrev oCh15 (L : grid0.Coords) : Memref sig .scVector .hbm S128x128 .f32 :=
  ((oV : Memref sig .scVector .hbm S32x2048x128 .f32).slice (Rect.unit (s := S32x2048x128) (k0_off18 L) S1x128x128.size (k0_off18_inb L)) (fun _ => rfl)).squeeze S128x128 squeezes_S1x128x128_S128x128

end Cert.Proof.KI

end
-- ==== Proof.LibLeadSets.lean ====
import Idealize.ShloMosaic.Shape
import Mathlib.Data.Finset.Basic
import Mathlib.Data.Fintype.Basic

/-!
# Index sets of an array cut along its leading axes

For an array whose leading axis has 32 entries: the indices whose leading coordinate is `b` (`lead`), the
indices whose leading coordinate has parity `c` (`leadPar`), and, for a second axis of 2048 entries, the
indices of leading coordinate `b` whose second coordinate lies in the `k`-th block of 128 (`chunk`).
Each family is pairwise disjoint, and: the two parity classes cover the array; the sixteen sets
`lead (2 j + c)` cover the parity class `c`; the sixteen blocks cover `lead b`.
-/

namespace Cert.Proof.LeadSets

open Idealize.ShloMosaic

variable {s : Shape}

/-- The indices whose leading coordinate is `b`. -/
def lead (h0 : 0 < s.rank) (b : ℕ) : Finset s.Idx := Finset.univ.filter fun i => (i ⟨0, h0⟩).val = b

/-- The indices whose leading coordinate has parity `c`. -/
def leadPar (h0 : 0 < s.rank) (c : ℕ) : Finset s.Idx := Finset.univ.filter fun i => (i ⟨0, h0⟩).val % 2 = c

/-- The indices of leading coordinate `b` whose second coordinate is in block `k` of 128. -/
def chunk (h1 : 1 < s.rank) (b k : ℕ) : Finset s.Idx :=
  Finset.univ.filter fun i => (i ⟨0, Nat.lt_trans Nat.zero_lt_one h1⟩).val = b ∧ (i ⟨1, h1⟩).val / 128 = k

theorem mem_lead {h0 : 0 < s.rank} {b : ℕ} {i : s.Idx} : i ∈ lead h0 b ↔ (i ⟨0, h0⟩).val = b := by
  simp [lead]
theorem mem_leadPar {h0 : 0 < s.rank} {c : ℕ} {i : s.Idx} : i ∈ leadPar h0 c ↔ (i ⟨0, h0⟩).val % 2 = c := by
  simp [leadPar]
theorem mem_chunk {h1 : 1 < s.rank} {b k : ℕ} {i : s.Idx} :
    i ∈ chunk h1 b k ↔ (i ⟨0, Nat.lt_trans Nat.zero_lt_one h1⟩).val = b ∧ (i ⟨1, h1⟩).val / 128 = k := by
  simp [chunk]

theorem lead_disjoint (h0 : 0 < s.rank) {b b' : ℕ} (h : b ≠ b') : Disjoint (lead (s := s) h0 b) (lead h0 b') :=
  Finset.disjoint_left.mpr fun _ hi hi' => h ((mem_lead.mp hi).symm.trans (mem_lead.mp hi'))

theorem leadPar_disjoint (h0 : 0 < s.rank) {c c' : ℕ} (h : c ≠ c') : Disjoint (leadPar (s := s) h0 c) (leadPar h0 c') :=
  Finset.disjoint_left.mpr fun _ hi hi' => h ((mem_leadPar.mp hi).symm.trans (mem_leadPar.mp hi'))

theorem chunk_disjoint (h1 : 1 < s.rank) (b : ℕ) {k k' : ℕ} (h : k ≠ k') : Disjoint (chunk (s := s) h1 b k) (chunk h1 b k') :=
  Finset.disjoint_left.mpr fun _ hi hi' => h ((mem_chunk.mp hi).2.symm.trans (mem_chunk.mp hi').2)

/-- The two parity classes cover the array. -/
theorem leadPar_cover (h0 : 0 < s.rank) :
    (Finset.univ : Finset (Fin 2)).biUnion (fun c => leadPar (s := s) h0 c.val) = Finset.univ := by
  ext i
  simp only [Finset.mem_biUnion, Finset.mem_univ, true_and, iff_true, mem_leadPar]
  exact ⟨⟨(i ⟨0, h0⟩).val % 2, Nat.mod_lt _ (by decide)⟩, rfl⟩

/-- With 32 leading entries, the sixteen sets `lead (2 j + c)` cover the parity class `c`. -/
theorem lead_cover (h0 : 0 < s.rank) (hs : s.size ⟨0, h0⟩ = 32) (c : Fin 2) :
    (Finset.univ : Finset (Fin 16)).biUnion (fun j => lead (s := s) h0 (2 * j.val + c.val)) = leadPar h0 c.val := by
  ext i
  simp only [Finset.mem_biUnion, Finset.mem_univ, true_and, mem_lead, mem_leadPar]
  have hc := c.isLt
  constructor
  · rintro ⟨j, hj⟩; omega
  · intro h
    have hi : (i ⟨0, h0⟩).val < 32 := hs ▸ (i ⟨0, h0⟩).isLt
    exact ⟨⟨(i ⟨0, h0⟩).val / 2, by omega⟩, by simp only; omega⟩

/-- With 2048 second entries, the sixteen blocks of 128 cover `lead b`. -/
theorem chunk_cover (h1 : 1 < s.rank) (hs : s.size ⟨1, h1⟩ = 2048) (b : ℕ) :
    (Finset.univ : Finset (Fin 16)).biUnion (fun k => chunk (s := s) h1 b k.val) = lead (Nat.lt_trans Nat.zero_lt_one h1) b := by
  ext i
  simp only [Finset.mem_biUnion, Finset.mem_univ, true_and, mem_lead, mem_chunk]
  constructor
  · rintro ⟨_, hb, _⟩; exact hb
  · intro h
    have hi : (i ⟨1, h1⟩).val < 2048 := hs ▸ (i ⟨1, h1⟩).isLt
    exact ⟨⟨(i ⟨1, h1⟩).val / 128, by omega⟩, h, rfl⟩

end Cert.Proof.LeadSets
-- ==== Proof.KIValue.lean ====
import proofs.«219751_g11407433138865_week1_w4_400_13_alg».proof.Proof.KISetup
import proofs.«219751_g11407433138865_week1_w4_400_13_alg».proof.Proof.LibLeadSets
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.Proof.LeadSets Idealize.ShloMosaic.ValueIdx

/-- The batch a tile works on: `2·(subcore) + (core)`. -/
abbrev bOf (L : grid0.Coords) : ℕ := 2 * (L 1).val + (L 0).val

theorem bOf_lt (L : grid0.Coords) : bOf L < 32 := by
  have h0 : (L 0).val < 2 := (L 0).isLt
  have h1 : (L 1).val < 16 := (L 1).isLt
  unfold bOf; omega

/-! ## Dropping a leading unit axis keeps the other coordinates -/

theorem sq_128x128 (h : S128x128.numel = S1x128x128.numel) (y : S128x128.Idx) :
    ((Shape.reshapeEquiv h y) 0).val = 0 ∧ ((Shape.reshapeEquiv h y) 1).val = (y 0).val ∧ ((Shape.reshapeEquiv h y) 2).val = (y 1).val := by
  have e := Shape.rowMajor_reshapeEquiv h y
  have e3 : (S1x128x128.rowMajor (Shape.reshapeEquiv h y)).val
      = (((Shape.reshapeEquiv h y) 0).val * 128 + ((Shape.reshapeEquiv h y) 1).val) * 128 + ((Shape.reshapeEquiv h y) 2).val :=
    Shape.rowMajor_val_three (d := ![1, 128, 128]) _
  have e2 : (S128x128.rowMajor y).val = (y 0).val * 128 + (y 1).val := Shape.rowMajor_val_two (d := ![128, 128]) _
  have h0 : ((Shape.reshapeEquiv h y) 0).val < 1 := ((Shape.reshapeEquiv h y) 0).isLt
  have h1 : ((Shape.reshapeEquiv h y) 1).val < 128 := ((Shape.reshapeEquiv h y) 1).isLt
  have h2 : ((Shape.reshapeEquiv h y) 2).val < 128 := ((Shape.reshapeEquiv h y) 2).isLt
  have hy0 : (y 0).val < 128 := (y 0).isLt
  have hy1 : (y 1).val < 128 := (y 1).isLt
  rw [e3, e2] at e
  omega

theorem sq_8192x128 (h : S8192x128.numel = S1x8192x128.numel) (y : S8192x128.Idx) :
    ((Shape.reshapeEquiv h y) 0).val = 0 ∧ ((Shape.reshapeEquiv h y) 1).val = (y 0).val ∧ ((Shape.reshapeEquiv h y) 2).val = (y 1).val := by
  have e := Shape.rowMajor_reshapeEquiv h y
  have e3 : (S1x8192x128.rowMajor (Shape.reshapeEquiv h y)).val
      = (((Shape.reshapeEquiv h y) 0).val * 8192 + ((Shape.reshapeEquiv h y) 1).val) * 128 + ((Shape.reshapeEquiv h y) 2).val :=
    Shape.rowMajor_val_three (d := ![1, 8192, 128]) _
  have e2 : (S8192x128.rowMajor y).val = (y 0).val * 128 + (y 1).val := Shape.rowMajor_val_two (d := ![8192, 128]) _
  have h0 : ((Shape.reshapeEquiv h y) 0).val < 1 := ((Shape.reshapeEquiv h y) 0).isLt
  have h1 : ((Shape.reshapeEquiv h y) 1).val < 8192 := ((Shape.reshapeEquiv h y) 1).isLt
  have h2 : ((Shape.reshapeEquiv h y) 2).val < 128 := ((Shape.reshapeEquiv h y) 2).isLt
  have hy0 : (y 0).val < 8192 := (y 0).isLt
  have hy1 : (y 1).val < 128 := (y 1).isLt
  rw [e3, e2] at e
  omega

theorem sq_2048 (h : S2048.numel = S1x2048.numel) (y : S2048.Idx) :
    ((Shape.reshapeEquiv h y) 0).val = 0 ∧ ((Shape.reshapeEquiv h y) 1).val = (y 0).val := by
  have e := Shape.rowMajor_reshapeEquiv h y
  have e3 : (S1x2048.rowMajor (Shape.reshapeEquiv h y)).val
      = ((Shape.reshapeEquiv h y) 0).val * 2048 + ((Shape.reshapeEquiv h y) 1).val :=
    Shape.rowMajor_val_two (d := ![1, 2048]) _
  have e2 : (S2048.rowMajor y).val = (y 0).val := Shape.rowMajor_val_one (d := ![2048]) _
  have h0 : ((Shape.reshapeEquiv h y) 0).val < 1 := ((Shape.reshapeEquiv h y) 0).isLt
  have h1 : ((Shape.reshapeEquiv h y) 1).val < 2048 := ((Shape.reshapeEquiv h y) 1).isLt
  rw [e3, e2] at e
  omega

/-! ## Where each view's indices land in its array -/

theorem iRow_emb (L : grid0.Coords) (y : S2048.Idx) :
    (((iRow L).view.emb y : S32x2048.Idx) 0).val = bOf L ∧ (((iRow L).view.emb y : S32x2048.Idx) 1).val = (y 0).val := by
  have hs := sq_2048 squeezes_S1x2048_S2048.numel_eq y
  have ho := k0_off1_eq L
  refine ⟨?_, ?_⟩
  · show k0_off1 L 0 + 1 * ((Shape.reshapeEquiv squeezes_S1x2048_S2048.numel_eq y) 0).val = bOf L
    rw [ho, hs.1]; rfl
  · show k0_off1 L 1 + 1 * ((Shape.reshapeEquiv squeezes_S1x2048_S2048.numel_eq y) 1).val = (y 0).val
    rw [ho, hs.2]; show 0 + 1 * (y 0).val = (y 0).val; omega

theorem xB_emb (L : grid0.Coords) (y : S8192x128.Idx) :
    (((xB L).view.emb y : S32x8192x128.Idx) 0).val = bOf L ∧ (((xB L).view.emb y : S32x8192x128.Idx) 1).val = (y 0).val
      ∧ (((xB L).view.emb y : S32x8192x128.Idx) 2).val = (y 1).val := by
  have hR : ∀ a, ((Rect.unit (s := S8192x128) ![0, 0] S8192x128.size inb_S8192x128_S8192x128_0_0).emb y a).val = (y a).val := by
    intro a; show (![0, 0] : Fin 2 → ℕ) a + 1 * (y a).val = (y a).val
    have h0 : (![0, 0] : Fin 2 → ℕ) a = 0 := by match a with | ⟨0, _⟩ => rfl | ⟨1, _⟩ => rfl
    rw [h0]; omega
  have hs := sq_8192x128 squeezes_S1x8192x128_S8192x128.numel_eq ((Rect.unit (s := S8192x128) ![0, 0] S8192x128.size inb_S8192x128_S8192x128_0_0).emb y)
  have ho := k0_off2_eq L
  refine ⟨?_, ?_, ?_⟩
  · show k0_off2 L 0 + 1 * ((Shape.reshapeEquiv squeezes_S1x8192x128_S8192x128.numel_eq _) 0).val = bOf L
    rw [ho, hs.1]; rfl
  · show k0_off2 L 1 + 1 * ((Shape.reshapeEquiv squeezes_S1x8192x128_S8192x128.numel_eq _) 1).val = (y 0).val
    rw [ho, hs.2.1, hR]; show 0 + 1 * (y 0).val = (y 0).val; omega
  · show k0_off2 L 2 + 1 * ((Shape.reshapeEquiv squeezes_S1x8192x128_S8192x128.numel_eq _) 2).val = (y 1).val
    rw [ho, hs.2.2, hR]; show 0 + 1 * (y 1).val = (y 1).val; omega

theorem oCh0_emb (L : grid0.Coords) (y : S128x128.Idx) :
    (((oCh0 L).view.emb y : S32x2048x128.Idx) 0).val = bOf L ∧ (((oCh0 L).view.emb y : S32x2048x128.Idx) 1).val = 0 + (y 0).val
      ∧ (((oCh0 L).view.emb y : S32x2048x128.Idx) 2).val = (y 1).val := by
  have hs := sq_128x128 squeezes_S1x128x128_S128x128.numel_eq y
  have ho := k0_off3_eq L
  refine ⟨?_, ?_, ?_⟩
  · show k0_off3 L 0 + 1 * ((Shape.reshapeEquiv squeezes_S1x128x128_S128x128.numel_eq y) 0).val = bOf L
    rw [ho, hs.1]; rfl
  · show k0_off3 L 1 + 1 * ((Shape.reshapeEquiv squeezes_S1x128x128_S128x128.numel_eq y) 1).val = 0 + (y 0).val
    rw [ho, hs.2.1]; show 0 + 1 * (y 0).val = _; omega
  · show k0_off3 L 2 + 1 * ((Shape.reshapeEquiv squeezes_S1x128x128_S128x128.numel_eq y) 2).val = (y 1).val
    rw [ho, hs.2.2]; show 0 + 1 * (y 1).val = _; omega

theorem oCh1_emb (L : grid0.Coords) (y : S128x128.Idx) :
    (((oCh1 L).view.emb y : S32x2048x128.Idx) 0).val = bOf L ∧ (((oCh1 L).view.emb y : S32x2048x128.Idx) 1).val = 128 + (y 0).val
      ∧ (((oCh1 L).view.emb y : S32x2048x128.Idx) 2).val = (y 1).val := by
  have hs := sq_128x128 squeezes_S1x128x128_S128x128.numel_eq y
  have ho := k0_off4_eq L
  refine ⟨?_, ?_, ?_⟩
  · show k0_off4 L 0 + 1 * ((Shape.reshapeEquiv squeezes_S1x128x128_S128x128.numel_eq y) 0).val = bOf L
    rw [ho, hs.1]; rfl
  · show k0_off4 L 1 + 1 * ((Shape.reshapeEquiv squeezes_S1x128x128_S128x128.numel_eq y) 1).val = 128 + (y 0).val
    rw [ho, hs.2.1]; show 128 + 1 * (y 0).val = _; omega
  · show k0_off4 L 2 + 1 * ((Shape.reshapeEquiv squeezes_S1x128x128_S128x128.numel_eq y) 2).val = (y 1).val
    rw [ho, hs.2.2]; show 0 + 1 * (y 1).val = _; omega

theorem oCh2_emb (L : grid0.Coords) (y : S128x128.Idx) :
    (((oCh2 L).view.emb y : S32x2048x128.Idx) 0).val = bOf L ∧ (((oCh2 L).view.emb y : S32x2048x128.Idx) 1).val = 256 + (y 0).val
      ∧ (((oCh2 L).view.emb y : S32x2048x128.Idx) 2).val = (y 1).val := by
  have hs := sq_128x128 squeezes_S1x128x128_S128x128.numel_eq y
  have ho := k0_off5_eq L
  refine ⟨?_, ?_, ?_⟩
  · show k0_off5 L 0 + 1 * ((Shape.reshapeEquiv squeezes_S1x128x128_S128x128.numel_eq y) 0).val = bOf L
    rw [ho, hs.1]; rfl
  · show k0_off5 L 1 + 1 * ((Shape.reshapeEquiv squeezes_S1x128x128_S128x128.numel_eq y) 1).val = 256 + (y 0).val
    rw [ho, hs.2.1]; show 256 + 1 * (y 0).val = _; omega
  · show k0_off5 L 2 + 1 * ((Shape.reshapeEquiv squeezes_S1x128x128_S128x128.numel_eq y) 2).val = (y 1).val
    rw [ho, hs.2.2]; show 0 + 1 * (y 1).val = _; omega

theorem oCh3_emb (L : grid0.Coords) (y : S128x128.Idx) :
    (((oCh3 L).view.emb y : S32x2048x128.Idx) 0).val = bOf L ∧ (((oCh3 L).view.emb y : S32x2048x128.Idx) 1).val = 384 + (y 0).val
      ∧ (((oCh3 L).view.emb y : S32x2048x128.Idx) 2).val = (y 1).val := by
  have hs := sq_128x128 squeezes_S1x128x128_S128x128.numel_eq y
  have ho := k0_off6_eq L
  refine ⟨?_, ?_, ?_⟩
  · show k0_off6 L 0 + 1 * ((Shape.reshapeEquiv squeezes_S1x128x128_S128x128.numel_eq y) 0).val = bOf L
    rw [ho, hs.1]; rfl
  · show k0_off6 L 1 + 1 * ((Shape.reshapeEquiv squeezes_S1x128x128_S128x128.numel_eq y) 1).val = 384 + (y 0).val
    rw [ho, hs.2.1]; show 384 + 1 * (y 0).val = _; omega
  · show k0_off6 L 2 + 1 * ((Shape.reshapeEquiv squeezes_S1x128x128_S128x128.numel_eq y) 2).val = (y 1).val
    rw [ho, hs.2.2]; show 0 + 1 * (y 1).val = _; omega

theorem oCh4_emb (L : grid0.Coords) (y : S128x128.Idx) :
    (((oCh4 L).view.emb y : S32x2048x128.Idx) 0).val = bOf L ∧ (((oCh4 L).view.emb y : S32x2048x128.Idx) 1).val = 512 + (y 0).val
      ∧ (((oCh4 L).view.emb y : S32x2048x128.Idx) 2).val = (y 1).val := by
  have hs := sq_128x128 squeezes_S1x128x128_S128x128.numel_eq y
  have ho := k0_off7_eq L
  refine ⟨?_, ?_, ?_⟩
  · show k0_off7 L 0 + 1 * ((Shape.reshapeEquiv squeezes_S1x128x128_S128x128.numel_eq y) 0).val = bOf L
    rw [ho, hs.1]; rfl
  · show k0_off7 L 1 + 1 * ((Shape.reshapeEquiv squeezes_S1x128x128_S128x128.numel_eq y) 1).val = 512 + (y 0).val
    rw [ho, hs.2.1]; show 512 + 1 * (y 0).val = _; omega
  · show k0_off7 L 2 + 1 * ((Shape.reshapeEquiv squeezes_S1x128x128_S128x128.numel_eq y) 2).val = (y 1).val
    rw [ho, hs.2.2]; show 0 + 1 * (y 1).val = _; omega

theorem oCh5_emb (L : grid0.Coords) (y : S128x128.Idx) :
    (((oCh5 L).view.emb y : S32x2048x128.Idx) 0).val = bOf L ∧ (((oCh5 L).view.emb y : S32x2048x128.Idx) 1).val = 640 + (y 0).val
      ∧ (((oCh5 L).view.emb y : S32x2048x128.Idx) 2).val = (y 1).val := by
  have hs := sq_128x128 squeezes_S1x128x128_S128x128.numel_eq y
  have ho := k0_off8_eq L
  refine ⟨?_, ?_, ?_⟩
  · show k0_off8 L 0 + 1 * ((Shape.reshapeEquiv squeezes_S1x128x128_S128x128.numel_eq y) 0).val = bOf L
    rw [ho, hs.1]; rfl
  · show k0_off8 L 1 + 1 * ((Shape.reshapeEquiv squeezes_S1x128x128_S128x128.numel_eq y) 1).val = 640 + (y 0).val
    rw [ho, hs.2.1]; show 640 + 1 * (y 0).val = _; omega
  · show k0_off8 L 2 + 1 * ((Shape.reshapeEquiv squeezes_S1x128x128_S128x128.numel_eq y) 2).val = (y 1).val
    rw [ho, hs.2.2]; show 0 + 1 * (y 1).val = _; omega

theorem oCh6_emb (L : grid0.Coords) (y : S128x128.Idx) :
    (((oCh6 L).view.emb y : S32x2048x128.Idx) 0).val = bOf L ∧ (((oCh6 L).view.emb y : S32x2048x128.Idx) 1).val = 768 + (y 0).val
      ∧ (((oCh6 L).view.emb y : S32x2048x128.Idx) 2).val = (y 1).val := by
  have hs := sq_128x128 squeezes_S1x128x128_S128x128.numel_eq y
  have ho := k0_off9_eq L
  refine ⟨?_, ?_, ?_⟩
  · show k0_off9 L 0 + 1 * ((Shape.reshapeEquiv squeezes_S1x128x128_S128x128.numel_eq y) 0).val = bOf L
    rw [ho, hs.1]; rfl
  · show k0_off9 L 1 + 1 * ((Shape.reshapeEquiv squeezes_S1x128x128_S128x128.numel_eq y) 1).val = 768 + (y 0).val
    rw [ho, hs.2.1]; show 768 + 1 * (y 0).val = _; omega
  · show k0_off9 L 2 + 1 * ((Shape.reshapeEquiv squeezes_S1x128x128_S128x128.numel_eq y) 2).val = (y 1).val
    rw [ho, hs.2.2]; show 0 + 1 * (y 1).val = _; omega

theorem oCh7_emb (L : grid0.Coords) (y : S128x128.Idx) :
    (((oCh7 L).view.emb y : S32x2048x128.Idx) 0).val = bOf L ∧ (((oCh7 L).view.emb y : S32x2048x128.Idx) 1).val = 896 + (y 0).val
      ∧ (((oCh7 L).view.emb y : S32x2048x128.Idx) 2).val = (y 1).val := by
  have hs := sq_128x128 squeezes_S1x128x128_S128x128.numel_eq y
  have ho := k0_off10_eq L
  refine ⟨?_, ?_, ?_⟩
  · show k0_off10 L 0 + 1 * ((Shape.reshapeEquiv squeezes_S1x128x128_S128x128.numel_eq y) 0).val = bOf L
    rw [ho, hs.1]; rfl
  · show k0_off10 L 1 + 1 * ((Shape.reshapeEquiv squeezes_S1x128x128_S128x128.numel_eq y) 1).val = 896 + (y 0).val
    rw [ho, hs.2.1]; show 896 + 1 * (y 0).val = _; omega
  · show k0_off10 L 2 + 1 * ((Shape.reshapeEquiv squeezes_S1x128x128_S128x128.numel_eq y) 2).val = (y 1).val
    rw [ho, hs.2.2]; show 0 + 1 * (y 1).val = _; omega

theorem oCh8_emb (L : grid0.Coords) (y : S128x128.Idx) :
    (((oCh8 L).view.emb y : S32x2048x128.Idx) 0).val = bOf L ∧ (((oCh8 L).view.emb y : S32x2048x128.Idx) 1).val = 1024 + (y 0).val
      ∧ (((oCh8 L).view.emb y : S32x2048x128.Idx) 2).val = (y 1).val := by
  have hs := sq_128x128 squeezes_S1x128x128_S128x128.numel_eq y
  have ho := k0_off11_eq L
  refine ⟨?_, ?_, ?_⟩
  · show k0_off11 L 0 + 1 * ((Shape.reshapeEquiv squeezes_S1x128x128_S128x128.numel_eq y) 0).val = bOf L
    rw [ho, hs.1]; rfl
  · show k0_off11 L 1 + 1 * ((Shape.reshapeEquiv squeezes_S1x128x128_S128x128.numel_eq y) 1).val = 1024 + (y 0).val
    rw [ho, hs.2.1]; show 1024 + 1 * (y 0).val = _; omega
  · show k0_off11 L 2 + 1 * ((Shape.reshapeEquiv squeezes_S1x128x128_S128x128.numel_eq y) 2).val = (y 1).val
    rw [ho, hs.2.2]; show 0 + 1 * (y 1).val = _; omega

theorem oCh9_emb (L : grid0.Coords) (y : S128x128.Idx) :
    (((oCh9 L).view.emb y : S32x2048x128.Idx) 0).val = bOf L ∧ (((oCh9 L).view.emb y : S32x2048x128.Idx) 1).val = 1152 + (y 0).val
      ∧ (((oCh9 L).view.emb y : S32x2048x128.Idx) 2).val = (y 1).val := by
  have hs := sq_128x128 squeezes_S1x128x128_S128x128.numel_eq y
  have ho := k0_off12_eq L
  refine ⟨?_, ?_, ?_⟩
  · show k0_off12 L 0 + 1 * ((Shape.reshapeEquiv squeezes_S1x128x128_S128x128.numel_eq y) 0).val = bOf L
    rw [ho, hs.1]; rfl
  · show k0_off12 L 1 + 1 * ((Shape.reshapeEquiv squeezes_S1x128x128_S128x128.numel_eq y) 1).val = 1152 + (y 0).val
    rw [ho, hs.2.1]; show 1152 + 1 * (y 0).val = _; omega
  · show k0_off12 L 2 + 1 * ((Shape.reshapeEquiv squeezes_S1x128x128_S128x128.numel_eq y) 2).val = (y 1).val
    rw [ho, hs.2.2]; show 0 + 1 * (y 1).val = _; omega

theorem oCh10_emb (L : grid0.Coords) (y : S128x128.Idx) :
    (((oCh10 L).view.emb y : S32x2048x128.Idx) 0).val = bOf L ∧ (((oCh10 L).view.emb y : S32x2048x128.Idx) 1).val = 1280 + (y 0).val
      ∧ (((oCh10 L).view.emb y : S32x2048x128.Idx) 2).val = (y 1).val := by
  have hs := sq_128x128 squeezes_S1x128x128_S128x128.numel_eq y
  have ho := k0_off13_eq L
  refine ⟨?_, ?_, ?_⟩
  · show k0_off13 L 0 + 1 * ((Shape.reshapeEquiv squeezes_S1x128x128_S128x128.numel_eq y) 0).val = bOf L
    rw [ho, hs.1]; rfl
  · show k0_off13 L 1 + 1 * ((Shape.reshapeEquiv squeezes_S1x128x128_S128x128.numel_eq y) 1).val = 1280 + (y 0).val
    rw [ho, hs.2.1]; show 1280 + 1 * (y 0).val = _; omega
  · show k0_off13 L 2 + 1 * ((Shape.reshapeEquiv squeezes_S1x128x128_S128x128.numel_eq y) 2).val = (y 1).val
    rw [ho, hs.2.2]; show 0 + 1 * (y 1).val = _; omega

theorem oCh11_emb (L : grid0.Coords) (y : S128x128.Idx) :
    (((oCh11 L).view.emb y : S32x2048x128.Idx) 0).val = bOf L ∧ (((oCh11 L).view.emb y : S32x2048x128.Idx) 1).val = 1408 + (y 0).val
      ∧ (((oCh11 L).view.emb y : S32x2048x128.Idx) 2).val = (y 1).val := by
  have hs := sq_128x128 squeezes_S1x128x128_S128x128.numel_eq y
  have ho := k0_off14_eq L
  refine ⟨?_, ?_, ?_⟩
  · show k0_off14 L 0 + 1 * ((Shape.reshapeEquiv squeezes_S1x128x128_S128x128.numel_eq y) 0).val = bOf L
    rw [ho, hs.1]; rfl
  · show k0_off14 L 1 + 1 * ((Shape.reshapeEquiv squeezes_S1x128x128_S128x128.numel_eq y) 1).val = 1408 + (y 0).val
    rw [ho, hs.2.1]; show 1408 + 1 * (y 0).val = _; omega
  · show k0_off14 L 2 + 1 * ((Shape.reshapeEquiv squeezes_S1x128x128_S128x128.numel_eq y) 2).val = (y 1).val
    rw [ho, hs.2.2]; show 0 + 1 * (y 1).val = _; omega

theorem oCh12_emb (L : grid0.Coords) (y : S128x128.Idx) :
    (((oCh12 L).view.emb y : S32x2048x128.Idx) 0).val = bOf L ∧ (((oCh12 L).view.emb y : S32x2048x128.Idx) 1).val = 1536 + (y 0).val
      ∧ (((oCh12 L).view.emb y : S32x2048x128.Idx) 2).val = (y 1).val := by
  have hs := sq_128x128 squeezes_S1x128x128_S128x128.numel_eq y
  have ho := k0_off15_eq L
  refine ⟨?_, ?_, ?_⟩
  · show k0_off15 L 0 + 1 * ((Shape.reshapeEquiv squeezes_S1x128x128_S128x128.numel_eq y) 0).val = bOf L
    rw [ho, hs.1]; rfl
  · show k0_off15 L 1 + 1 * ((Shape.reshapeEquiv squeezes_S1x128x128_S128x128.numel_eq y) 1).val = 1536 + (y 0).val
    rw [ho, hs.2.1]; show 1536 + 1 * (y 0).val = _; omega
  · show k0_off15 L 2 + 1 * ((Shape.reshapeEquiv squeezes_S1x128x128_S128x128.numel_eq y) 2).val = (y 1).val
    rw [ho, hs.2.2]; show 0 + 1 * (y 1).val = _; omega

theorem oCh13_emb (L : grid0.Coords) (y : S128x128.Idx) :
    (((oCh13 L).view.emb y : S32x2048x128.Idx) 0).val = bOf L ∧ (((oCh13 L).view.emb y : S32x2048x128.Idx) 1).val = 1664 + (y 0).val
      ∧ (((oCh13 L).view.emb y : S32x2048x128.Idx) 2).val = (y 1).val := by
  have hs := sq_128x128 squeezes_S1x128x128_S128x128.numel_eq y
  have ho := k0_off16_eq L
  refine ⟨?_, ?_, ?_⟩
  · show k0_off16 L 0 + 1 * ((Shape.reshapeEquiv squeezes_S1x128x128_S128x128.numel_eq y) 0).val = bOf L
    rw [ho, hs.1]; rfl
  · show k0_off16 L 1 + 1 * ((Shape.reshapeEquiv squeezes_S1x128x128_S128x128.numel_eq y) 1).val = 1664 + (y 0).val
    rw [ho, hs.2.1]; show 1664 + 1 * (y 0).val = _; omega
  · show k0_off16 L 2 + 1 * ((Shape.reshapeEquiv squeezes_S1x128x128_S128x128.numel_eq y) 2).val = (y 1).val
    rw [ho, hs.2.2]; show 0 + 1 * (y 1).val = _; omega

theorem oCh14_emb (L : grid0.Coords) (y : S128x128.Idx) :
    (((oCh14 L).view.emb y : S32x2048x128.Idx) 0).val = bOf L ∧ (((oCh14 L).view.emb y : S32x2048x128.Idx) 1).val = 1792 + (y 0).val
      ∧ (((oCh14 L).view.emb y : S32x2048x128.Idx) 2).val = (y 1).val := by
  have hs := sq_128x128 squeezes_S1x128x128_S128x128.numel_eq y
  have ho := k0_off17_eq L
  refine ⟨?_, ?_, ?_⟩
  · show k0_off17 L 0 + 1 * ((Shape.reshapeEquiv squeezes_S1x128x128_S128x128.numel_eq y) 0).val = bOf L
    rw [ho, hs.1]; rfl
  · show k0_off17 L 1 + 1 * ((Shape.reshapeEquiv squeezes_S1x128x128_S128x128.numel_eq y) 1).val = 1792 + (y 0).val
    rw [ho, hs.2.1]; show 1792 + 1 * (y 0).val = _; omega
  · show k0_off17 L 2 + 1 * ((Shape.reshapeEquiv squeezes_S1x128x128_S128x128.numel_eq y) 2).val = (y 1).val
    rw [ho, hs.2.2]; show 0 + 1 * (y 1).val = _; omega

theorem oCh15_emb (L : grid0.Coords) (y : S128x128.Idx) :
    (((oCh15 L).view.emb y : S32x2048x128.Idx) 0).val = bOf L ∧ (((oCh15 L).view.emb y : S32x2048x128.Idx) 1).val = 1920 + (y 0).val
      ∧ (((oCh15 L).view.emb y : S32x2048x128.Idx) 2).val = (y 1).val := by
  have hs := sq_128x128 squeezes_S1x128x128_S128x128.numel_eq y
  have ho := k0_off18_eq L
  refine ⟨?_, ?_, ?_⟩
  · show k0_off18 L 0 + 1 * ((Shape.reshapeEquiv squeezes_S1x128x128_S128x128.numel_eq y) 0).val = bOf L
    rw [ho, hs.1]; rfl
  · show k0_off18 L 1 + 1 * ((Shape.reshapeEquiv squeezes_S1x128x128_S128x128.numel_eq y) 1).val = 1920 + (y 0).val
    rw [ho, hs.2.1]; show 1920 + 1 * (y 0).val = _; omega
  · show k0_off18 L 2 + 1 * ((Shape.reshapeEquiv squeezes_S1x128x128_S128x128.numel_eq y) 2).val = (y 1).val
    rw [ho, hs.2.2]; show 0 + 1 * (y 1).val = _; omega

/-! ## Each view's elements, as a set of indices of its array -/

theorem set_iRow (L : grid0.Coords) : (iRow L).view.set = lead (s := S32x2048) (by decide) (bOf L) := by
  refine Finset.ext fun (i : S32x2048.Idx) => ?_
  rw [mem_lead]
  constructor
  · intro h
    obtain ⟨y, -, rfl⟩ := Finset.mem_map.mp h
    exact (iRow_emb L y).1
  · intro hb
    have hb' : (i 0).val = bOf L := hb
    have h1 : (i 1).val < 2048 := (i 1).isLt
    refine Finset.mem_map.mpr ⟨ix1 ⟨(i 1).val, h1⟩, Finset.mem_univ _, ?_⟩
    have e := iRow_emb L (ix1 ⟨(i 1).val, h1⟩)
    funext a
    match a with
    | ⟨0, _⟩ => exact Fin.ext (e.1.trans hb'.symm)
    | ⟨1, _⟩ => exact Fin.ext e.2

theorem set_xB (L : grid0.Coords) : (xB L).view.set = lead (s := S32x8192x128) (by decide) (bOf L) := by
  refine Finset.ext fun (i : S32x8192x128.Idx) => ?_
  rw [mem_lead]
  constructor
  · intro h
    obtain ⟨y, -, rfl⟩ := Finset.mem_map.mp h
    exact (xB_emb L y).1
  · intro hb
    have hb' : (i 0).val = bOf L := hb
    have h1 : (i 1).val < 8192 := (i 1).isLt
    have h2 : (i 2).val < 128 := (i 2).isLt
    refine Finset.mem_map.mpr ⟨ix2 ⟨(i 1).val, h1⟩ ⟨(i 2).val, h2⟩, Finset.mem_univ _, ?_⟩
    have e := xB_emb L (ix2 ⟨(i 1).val, h1⟩ ⟨(i 2).val, h2⟩)
    funext a
    match a with
    | ⟨0, _⟩ => exact Fin.ext (e.1.trans hb'.symm)
    | ⟨1, _⟩ => exact Fin.ext e.2.1
    | ⟨2, _⟩ => exact Fin.ext e.2.2

theorem set_oCh0 (L : grid0.Coords) : (oCh0 L).view.set = chunk (s := S32x2048x128) (by decide) (bOf L) 0 := by
  refine Finset.ext fun (i : S32x2048x128.Idx) => ?_
  rw [mem_chunk]
  constructor
  · intro h
    obtain ⟨y, -, rfl⟩ := Finset.mem_map.mp h
    have e := oCh0_emb L y
    have hy : (y 0).val < 128 := (y 0).isLt
    refine ⟨e.1, ?_⟩
    show (((oCh0 L).view.emb y : S32x2048x128.Idx) 1).val / 128 = 0
    rw [e.2.1]; omega
  · rintro ⟨hb, hk⟩
    have hb' : (i 0).val = bOf L := hb
    have hk' : (i 1).val / 128 = 0 := hk
    have h1 : (i 1).val < 2048 := (i 1).isLt
    have h2 : (i 2).val < 128 := (i 2).isLt
    have hlt : (i 1).val - 0 < 128 := by omega
    refine Finset.mem_map.mpr ⟨ix2 ⟨(i 1).val - 0, hlt⟩ ⟨(i 2).val, h2⟩, Finset.mem_univ _, ?_⟩
    have e := oCh0_emb L (ix2 ⟨(i 1).val - 0, hlt⟩ ⟨(i 2).val, h2⟩)
    funext a
    match a with
    | ⟨0, _⟩ => exact Fin.ext (e.1.trans hb'.symm)
    | ⟨1, _⟩ => exact Fin.ext (e.2.1.trans (show 0 + ((i 1).val - 0) = (i 1).val by omega))
    | ⟨2, _⟩ => exact Fin.ext e.2.2

theorem set_oCh1 (L : grid0.Coords) : (oCh1 L).view.set = chunk (s := S32x2048x128) (by decide) (bOf L) 1 := by
  refine Finset.ext fun (i : S32x2048x128.Idx) => ?_
  rw [mem_chunk]
  constructor
  · intro h
    obtain ⟨y, -, rfl⟩ := Finset.mem_map.mp h
    have e := oCh1_emb L y
    have hy : (y 0).val < 128 := (y 0).isLt
    refine ⟨e.1, ?_⟩
    show (((oCh1 L).view.emb y : S32x2048x128.Idx) 1).val / 128 = 1
    rw [e.2.1]; omega
  · rintro ⟨hb, hk⟩
    have hb' : (i 0).val = bOf L := hb
    have hk' : (i 1).val / 128 = 1 := hk
    have h1 : (i 1).val < 2048 := (i 1).isLt
    have h2 : (i 2).val < 128 := (i 2).isLt
    have hlt : (i 1).val - 128 < 128 := by omega
    refine Finset.mem_map.mpr ⟨ix2 ⟨(i 1).val - 128, hlt⟩ ⟨(i 2).val, h2⟩, Finset.mem_univ _, ?_⟩
    have e := oCh1_emb L (ix2 ⟨(i 1).val - 128, hlt⟩ ⟨(i 2).val, h2⟩)
    funext a
    match a with
    | ⟨0, _⟩ => exact Fin.ext (e.1.trans hb'.symm)
    | ⟨1, _⟩ => exact Fin.ext (e.2.1.trans (show 128 + ((i 1).val - 128) = (i 1).val by omega))
    | ⟨2, _⟩ => exact Fin.ext e.2.2

theorem set_oCh2 (L : grid0.Coords) : (oCh2 L).view.set = chunk (s := S32x2048x128) (by decide) (bOf L) 2 := by
  refine Finset.ext fun (i : S32x2048x128.Idx) => ?_
  rw [mem_chunk]
  constructor
  · intro h
    obtain ⟨y, -, rfl⟩ := Finset.mem_map.mp h
    have e := oCh2_emb L y
    have hy : (y 0).val < 128 := (y 0).isLt
    refine ⟨e.1, ?_⟩
    show (((oCh2 L).view.emb y : S32x2048x128.Idx) 1).val / 128 = 2
    rw [e.2.1]; omega
  · rintro ⟨hb, hk⟩
    have hb' : (i 0).val = bOf L := hb
    have hk' : (i 1).val / 128 = 2 := hk
    have h1 : (i 1).val < 2048 := (i 1).isLt
    have h2 : (i 2).val < 128 := (i 2).isLt
    have hlt : (i 1).val - 256 < 128 := by omega
    refine Finset.mem_map.mpr ⟨ix2 ⟨(i 1).val - 256, hlt⟩ ⟨(i 2).val, h2⟩, Finset.mem_univ _, ?_⟩
    have e := oCh2_emb L (ix2 ⟨(i 1).val - 256, hlt⟩ ⟨(i 2).val, h2⟩)
    funext a
    match a with
    | ⟨0, _⟩ => exact Fin.ext (e.1.trans hb'.symm)
    | ⟨1, _⟩ => exact Fin.ext (e.2.1.trans (show 256 + ((i 1).val - 256) = (i 1).val by omega))
    | ⟨2, _⟩ => exact Fin.ext e.2.2

theorem set_oCh3 (L : grid0.Coords) : (oCh3 L).view.set = chunk (s := S32x2048x128) (by decide) (bOf L) 3 := by
  refine Finset.ext fun (i : S32x2048x128.Idx) => ?_
  rw [mem_chunk]
  constructor
  · intro h
    obtain ⟨y, -, rfl⟩ := Finset.mem_map.mp h
    have e := oCh3_emb L y
    have hy : (y 0).val < 128 := (y 0).isLt
    refine ⟨e.1, ?_⟩
    show (((oCh3 L).view.emb y : S32x2048x128.Idx) 1).val / 128 = 3
    rw [e.2.1]; omega
  · rintro ⟨hb, hk⟩
    have hb' : (i 0).val = bOf L := hb
    have hk' : (i 1).val / 128 = 3 := hk
    have h1 : (i 1).val < 2048 := (i 1).isLt
    have h2 : (i 2).val < 128 := (i 2).isLt
    have hlt : (i 1).val - 384 < 128 := by omega
    refine Finset.mem_map.mpr ⟨ix2 ⟨(i 1).val - 384, hlt⟩ ⟨(i 2).val, h2⟩, Finset.mem_univ _, ?_⟩
    have e := oCh3_emb L (ix2 ⟨(i 1).val - 384, hlt⟩ ⟨(i 2).val, h2⟩)
    funext a
    match a with
    | ⟨0, _⟩ => exact Fin.ext (e.1.trans hb'.symm)
    | ⟨1, _⟩ => exact Fin.ext (e.2.1.trans (show 384 + ((i 1).val - 384) = (i 1).val by omega))
    | ⟨2, _⟩ => exact Fin.ext e.2.2

theorem set_oCh4 (L : grid0.Coords) : (oCh4 L).view.set = chunk (s := S32x2048x128) (by decide) (bOf L) 4 := by
  refine Finset.ext fun (i : S32x2048x128.Idx) => ?_
  rw [mem_chunk]
  constructor
  · intro h
    obtain ⟨y, -, rfl⟩ := Finset.mem_map.mp h
    have e := oCh4_emb L y
    have hy : (y 0).val < 128 := (y 0).isLt
    refine ⟨e.1, ?_⟩
    show (((oCh4 L).view.emb y : S32x2048x128.Idx) 1).val / 128 = 4
    rw [e.2.1]; omega
  · rintro ⟨hb, hk⟩
    have hb' : (i 0).val = bOf L := hb
    have hk' : (i 1).val / 128 = 4 := hk
    have h1 : (i 1).val < 2048 := (i 1).isLt
    have h2 : (i 2).val < 128 := (i 2).isLt
    have hlt : (i 1).val - 512 < 128 := by omega
    refine Finset.mem_map.mpr ⟨ix2 ⟨(i 1).val - 512, hlt⟩ ⟨(i 2).val, h2⟩, Finset.mem_univ _, ?_⟩
    have e := oCh4_emb L (ix2 ⟨(i 1).val - 512, hlt⟩ ⟨(i 2).val, h2⟩)
    funext a
    match a with
    | ⟨0, _⟩ => exact Fin.ext (e.1.trans hb'.symm)
    | ⟨1, _⟩ => exact Fin.ext (e.2.1.trans (show 512 + ((i 1).val - 512) = (i 1).val by omega))
    | ⟨2, _⟩ => exact Fin.ext e.2.2

theorem set_oCh5 (L : grid0.Coords) : (oCh5 L).view.set = chunk (s := S32x2048x128) (by decide) (bOf L) 5 := by
  refine Finset.ext fun (i : S32x2048x128.Idx) => ?_
  rw [mem_chunk]
  constructor
  · intro h
    obtain ⟨y, -, rfl⟩ := Finset.mem_map.mp h
    have e := oCh5_emb L y
    have hy : (y 0).val < 128 := (y 0).isLt
    refine ⟨e.1, ?_⟩
    show (((oCh5 L).view.emb y : S32x2048x128.Idx) 1).val / 128 = 5
    rw [e.2.1]; omega
  · rintro ⟨hb, hk⟩
    have hb' : (i 0).val = bOf L := hb
    have hk' : (i 1).val / 128 = 5 := hk
    have h1 : (i 1).val < 2048 := (i 1).isLt
    have h2 : (i 2).val < 128 := (i 2).isLt
    have hlt : (i 1).val - 640 < 128 := by omega
    refine Finset.mem_map.mpr ⟨ix2 ⟨(i 1).val - 640, hlt⟩ ⟨(i 2).val, h2⟩, Finset.mem_univ _, ?_⟩
    have e := oCh5_emb L (ix2 ⟨(i 1).val - 640, hlt⟩ ⟨(i 2).val, h2⟩)
    funext a
    match a with
    | ⟨0, _⟩ => exact Fin.ext (e.1.trans hb'.symm)
    | ⟨1, _⟩ => exact Fin.ext (e.2.1.trans (show 640 + ((i 1).val - 640) = (i 1).val by omega))
    | ⟨2, _⟩ => exact Fin.ext e.2.2

theorem set_oCh6 (L : grid0.Coords) : (oCh6 L).view.set = chunk (s := S32x2048x128) (by decide) (bOf L) 6 := by
  refine Finset.ext fun (i : S32x2048x128.Idx) => ?_
  rw [mem_chunk]
  constructor
  · intro h
    obtain ⟨y, -, rfl⟩ := Finset.mem_map.mp h
    have e := oCh6_emb L y
    have hy : (y 0).val < 128 := (y 0).isLt
    refine ⟨e.1, ?_⟩
    show (((oCh6 L).view.emb y : S32x2048x128.Idx) 1).val / 128 = 6
    rw [e.2.1]; omega
  · rintro ⟨hb, hk⟩
    have hb' : (i 0).val = bOf L := hb
    have hk' : (i 1).val / 128 = 6 := hk
    have h1 : (i 1).val < 2048 := (i 1).isLt
    have h2 : (i 2).val < 128 := (i 2).isLt
    have hlt : (i 1).val - 768 < 128 := by omega
    refine Finset.mem_map.mpr ⟨ix2 ⟨(i 1).val - 768, hlt⟩ ⟨(i 2).val, h2⟩, Finset.mem_univ _, ?_⟩
    have e := oCh6_emb L (ix2 ⟨(i 1).val - 768, hlt⟩ ⟨(i 2).val, h2⟩)
    funext a
    match a with
    | ⟨0, _⟩ => exact Fin.ext (e.1.trans hb'.symm)
    | ⟨1, _⟩ => exact Fin.ext (e.2.1.trans (show 768 + ((i 1).val - 768) = (i 1).val by omega))
    | ⟨2, _⟩ => exact Fin.ext e.2.2

theorem set_oCh7 (L : grid0.Coords) : (oCh7 L).view.set = chunk (s := S32x2048x128) (by decide) (bOf L) 7 := by
  refine Finset.ext fun (i : S32x2048x128.Idx) => ?_
  rw [mem_chunk]
  constructor
  · intro h
    obtain ⟨y, -, rfl⟩ := Finset.mem_map.mp h
    have e := oCh7_emb L y
    have hy : (y 0).val < 128 := (y 0).isLt
    refine ⟨e.1, ?_⟩
    show (((oCh7 L).view.emb y : S32x2048x128.Idx) 1).val / 128 = 7
    rw [e.2.1]; omega
  · rintro ⟨hb, hk⟩
    have hb' : (i 0).val = bOf L := hb
    have hk' : (i 1).val / 128 = 7 := hk
    have h1 : (i 1).val < 2048 := (i 1).isLt
    have h2 : (i 2).val < 128 := (i 2).isLt
    have hlt : (i 1).val - 896 < 128 := by omega
    refine Finset.mem_map.mpr ⟨ix2 ⟨(i 1).val - 896, hlt⟩ ⟨(i 2).val, h2⟩, Finset.mem_univ _, ?_⟩
    have e := oCh7_emb L (ix2 ⟨(i 1).val - 896, hlt⟩ ⟨(i 2).val, h2⟩)
    funext a
    match a with
    | ⟨0, _⟩ => exact Fin.ext (e.1.trans hb'.symm)
    | ⟨1, _⟩ => exact Fin.ext (e.2.1.trans (show 896 + ((i 1).val - 896) = (i 1).val by omega))
    | ⟨2, _⟩ => exact Fin.ext e.2.2

theorem set_oCh8 (L : grid0.Coords) : (oCh8 L).view.set = chunk (s := S32x2048x128) (by decide) (bOf L) 8 := by
  refine Finset.ext fun (i : S32x2048x128.Idx) => ?_
  rw [mem_chunk]
  constructor
  · intro h
    obtain ⟨y, -, rfl⟩ := Finset.mem_map.mp h
    have e := oCh8_emb L y
    have hy : (y 0).val < 128 := (y 0).isLt
    refine ⟨e.1, ?_⟩
    show (((oCh8 L).view.emb y : S32x2048x128.Idx) 1).val / 128 = 8
    rw [e.2.1]; omega
  · rintro ⟨hb, hk⟩
    have hb' : (i 0).val = bOf L := hb
    have hk' : (i 1).val / 128 = 8 := hk
    have h1 : (i 1).val < 2048 := (i 1).isLt
    have h2 : (i 2).val < 128 := (i 2).isLt
    have hlt : (i 1).val - 1024 < 128 := by omega
    refine Finset.mem_map.mpr ⟨ix2 ⟨(i 1).val - 1024, hlt⟩ ⟨(i 2).val, h2⟩, Finset.mem_univ _, ?_⟩
    have e := oCh8_emb L (ix2 ⟨(i 1).val - 1024, hlt⟩ ⟨(i 2).val, h2⟩)
    funext a
    match a with
    | ⟨0, _⟩ => exact Fin.ext (e.1.trans hb'.symm)
    | ⟨1, _⟩ => exact Fin.ext (e.2.1.trans (show 1024 + ((i 1).val - 1024) = (i 1).val by omega))
    | ⟨2, _⟩ => exact Fin.ext e.2.2

theorem set_oCh9 (L : grid0.Coords) : (oCh9 L).view.set = chunk (s := S32x2048x128) (by decide) (bOf L) 9 := by
  refine Finset.ext fun (i : S32x2048x128.Idx) => ?_
  rw [mem_chunk]
  constructor
  · intro h
    obtain ⟨y, -, rfl⟩ := Finset.mem_map.mp h
    have e := oCh9_emb L y
    have hy : (y 0).val < 128 := (y 0).isLt
    refine ⟨e.1, ?_⟩
    show (((oCh9 L).view.emb y : S32x2048x128.Idx) 1).val / 128 = 9
    rw [e.2.1]; omega
  · rintro ⟨hb, hk⟩
    have hb' : (i 0).val = bOf L := hb
    have hk' : (i 1).val / 128 = 9 := hk
    have h1 : (i 1).val < 2048 := (i 1).isLt
    have h2 : (i 2).val < 128 := (i 2).isLt
    have hlt : (i 1).val - 1152 < 128 := by omega
    refine Finset.mem_map.mpr ⟨ix2 ⟨(i 1).val - 1152, hlt⟩ ⟨(i 2).val, h2⟩, Finset.mem_univ _, ?_⟩
    have e := oCh9_emb L (ix2 ⟨(i 1).val - 1152, hlt⟩ ⟨(i 2).val, h2⟩)
    funext a
    match a with
    | ⟨0, _⟩ => exact Fin.ext (e.1.trans hb'.symm)
    | ⟨1, _⟩ => exact Fin.ext (e.2.1.trans (show 1152 + ((i 1).val - 1152) = (i 1).val by omega))
    | ⟨2, _⟩ => exact Fin.ext e.2.2

theorem set_oCh10 (L : grid0.Coords) : (oCh10 L).view.set = chunk (s := S32x2048x128) (by decide) (bOf L) 10 := by
  refine Finset.ext fun (i : S32x2048x128.Idx) => ?_
  rw [mem_chunk]
  constructor
  · intro h
    obtain ⟨y, -, rfl⟩ := Finset.mem_map.mp h
    have e := oCh10_emb L y
    have hy : (y 0).val < 128 := (y 0).isLt
    refine ⟨e.1, ?_⟩
    show (((oCh10 L).view.emb y : S32x2048x128.Idx) 1).val / 128 = 10
    rw [e.2.1]; omega
  · rintro ⟨hb, hk⟩
    have hb' : (i 0).val = bOf L := hb
    have hk' : (i 1).val / 128 = 10 := hk
    have h1 : (i 1).val < 2048 := (i 1).isLt
    have h2 : (i 2).val < 128 := (i 2).isLt
    have hlt : (i 1).val - 1280 < 128 := by omega
    refine Finset.mem_map.mpr ⟨ix2 ⟨(i 1).val - 1280, hlt⟩ ⟨(i 2).val, h2⟩, Finset.mem_univ _, ?_⟩
    have e := oCh10_emb L (ix2 ⟨(i 1).val - 1280, hlt⟩ ⟨(i 2).val, h2⟩)
    funext a
    match a with
    | ⟨0, _⟩ => exact Fin.ext (e.1.trans hb'.symm)
    | ⟨1, _⟩ => exact Fin.ext (e.2.1.trans (show 1280 + ((i 1).val - 1280) = (i 1).val by omega))
    | ⟨2, _⟩ => exact Fin.ext e.2.2

theorem set_oCh11 (L : grid0.Coords) : (oCh11 L).view.set = chunk (s := S32x2048x128) (by decide) (bOf L) 11 := by
  refine Finset.ext fun (i : S32x2048x128.Idx) => ?_
  rw [mem_chunk]
  constructor
  · intro h
    obtain ⟨y, -, rfl⟩ := Finset.mem_map.mp h
    have e := oCh11_emb L y
    have hy : (y 0).val < 128 := (y 0).isLt
    refine ⟨e.1, ?_⟩
    show (((oCh11 L).view.emb y : S32x2048x128.Idx) 1).val / 128 = 11
    rw [e.2.1]; omega
  · rintro ⟨hb, hk⟩
    have hb' : (i 0).val = bOf L := hb
    have hk' : (i 1).val / 128 = 11 := hk
    have h1 : (i 1).val < 2048 := (i 1).isLt
    have h2 : (i 2).val < 128 := (i 2).isLt
    have hlt : (i 1).val - 1408 < 128 := by omega
    refine Finset.mem_map.mpr ⟨ix2 ⟨(i 1).val - 1408, hlt⟩ ⟨(i 2).val, h2⟩, Finset.mem_univ _, ?_⟩
    have e := oCh11_emb L (ix2 ⟨(i 1).val - 1408, hlt⟩ ⟨(i 2).val, h2⟩)
    funext a
    match a with
    | ⟨0, _⟩ => exact Fin.ext (e.1.trans hb'.symm)
    | ⟨1, _⟩ => exact Fin.ext (e.2.1.trans (show 1408 + ((i 1).val - 1408) = (i 1).val by omega))
    | ⟨2, _⟩ => exact Fin.ext e.2.2

theorem set_oCh12 (L : grid0.Coords) : (oCh12 L).view.set = chunk (s := S32x2048x128) (by decide) (bOf L) 12 := by
  refine Finset.ext fun (i : S32x2048x128.Idx) => ?_
  rw [mem_chunk]
  constructor
  · intro h
    obtain ⟨y, -, rfl⟩ := Finset.mem_map.mp h
    have e := oCh12_emb L y
    have hy : (y 0).val < 128 := (y 0).isLt
    refine ⟨e.1, ?_⟩
    show (((oCh12 L).view.emb y : S32x2048x128.Idx) 1).val / 128 = 12
    rw [e.2.1]; omega
  · rintro ⟨hb, hk⟩
    have hb' : (i 0).val = bOf L := hb
    have hk' : (i 1).val / 128 = 12 := hk
    have h1 : (i 1).val < 2048 := (i 1).isLt
    have h2 : (i 2).val < 128 := (i 2).isLt
    have hlt : (i 1).val - 1536 < 128 := by omega
    refine Finset.mem_map.mpr ⟨ix2 ⟨(i 1).val - 1536, hlt⟩ ⟨(i 2).val, h2⟩, Finset.mem_univ _, ?_⟩
    have e := oCh12_emb L (ix2 ⟨(i 1).val - 1536, hlt⟩ ⟨(i 2).val, h2⟩)
    funext a
    match a with
    | ⟨0, _⟩ => exact Fin.ext (e.1.trans hb'.symm)
    | ⟨1, _⟩ => exact Fin.ext (e.2.1.trans (show 1536 + ((i 1).val - 1536) = (i 1).val by omega))
    | ⟨2, _⟩ => exact Fin.ext e.2.2

theorem set_oCh13 (L : grid0.Coords) : (oCh13 L).view.set = chunk (s := S32x2048x128) (by decide) (bOf L) 13 := by
  refine Finset.ext fun (i : S32x2048x128.Idx) => ?_
  rw [mem_chunk]
  constructor
  · intro h
    obtain ⟨y, -, rfl⟩ := Finset.mem_map.mp h
    have e := oCh13_emb L y
    have hy : (y 0).val < 128 := (y 0).isLt
    refine ⟨e.1, ?_⟩
    show (((oCh13 L).view.emb y : S32x2048x128.Idx) 1).val / 128 = 13
    rw [e.2.1]; omega
  · rintro ⟨hb, hk⟩
    have hb' : (i 0).val = bOf L := hb
    have hk' : (i 1).val / 128 = 13 := hk
    have h1 : (i 1).val < 2048 := (i 1).isLt
    have h2 : (i 2).val < 128 := (i 2).isLt
    have hlt : (i 1).val - 1664 < 128 := by omega
    refine Finset.mem_map.mpr ⟨ix2 ⟨(i 1).val - 1664, hlt⟩ ⟨(i 2).val, h2⟩, Finset.mem_univ _, ?_⟩
    have e := oCh13_emb L (ix2 ⟨(i 1).val - 1664, hlt⟩ ⟨(i 2).val, h2⟩)
    funext a
    match a with
    | ⟨0, _⟩ => exact Fin.ext (e.1.trans hb'.symm)
    | ⟨1, _⟩ => exact Fin.ext (e.2.1.trans (show 1664 + ((i 1).val - 1664) = (i 1).val by omega))
    | ⟨2, _⟩ => exact Fin.ext e.2.2

theorem set_oCh14 (L : grid0.Coords) : (oCh14 L).view.set = chunk (s := S32x2048x128) (by decide) (bOf L) 14 := by
  refine Finset.ext fun (i : S32x2048x128.Idx) => ?_
  rw [mem_chunk]
  constructor
  · intro h
    obtain ⟨y, -, rfl⟩ := Finset.mem_map.mp h
    have e := oCh14_emb L y
    have hy : (y 0).val < 128 := (y 0).isLt
    refine ⟨e.1, ?_⟩
    show (((oCh14 L).view.emb y : S32x2048x128.Idx) 1).val / 128 = 14
    rw [e.2.1]; omega
  · rintro ⟨hb, hk⟩
    have hb' : (i 0).val = bOf L := hb
    have hk' : (i 1).val / 128 = 14 := hk
    have h1 : (i 1).val < 2048 := (i 1).isLt
    have h2 : (i 2).val < 128 := (i 2).isLt
    have hlt : (i 1).val - 1792 < 128 := by omega
    refine Finset.mem_map.mpr ⟨ix2 ⟨(i 1).val - 1792, hlt⟩ ⟨(i 2).val, h2⟩, Finset.mem_univ _, ?_⟩
    have e := oCh14_emb L (ix2 ⟨(i 1).val - 1792, hlt⟩ ⟨(i 2).val, h2⟩)
    funext a
    match a with
    | ⟨0, _⟩ => exact Fin.ext (e.1.trans hb'.symm)
    | ⟨1, _⟩ => exact Fin.ext (e.2.1.trans (show 1792 + ((i 1).val - 1792) = (i 1).val by omega))
    | ⟨2, _⟩ => exact Fin.ext e.2.2

theorem set_oCh15 (L : grid0.Coords) : (oCh15 L).view.set = chunk (s := S32x2048x128) (by decide) (bOf L) 15 := by
  refine Finset.ext fun (i : S32x2048x128.Idx) => ?_
  rw [mem_chunk]
  constructor
  · intro h
    obtain ⟨y, -, rfl⟩ := Finset.mem_map.mp h
    have e := oCh15_emb L y
    have hy : (y 0).val < 128 := (y 0).isLt
    refine ⟨e.1, ?_⟩
    show (((oCh15 L).view.emb y : S32x2048x128.Idx) 1).val / 128 = 15
    rw [e.2.1]; omega
  · rintro ⟨hb, hk⟩
    have hb' : (i 0).val = bOf L := hb
    have hk' : (i 1).val / 128 = 15 := hk
    have h1 : (i 1).val < 2048 := (i 1).isLt
    have h2 : (i 2).val < 128 := (i 2).isLt
    have hlt : (i 1).val - 1920 < 128 := by omega
    refine Finset.mem_map.mpr ⟨ix2 ⟨(i 1).val - 1920, hlt⟩ ⟨(i 2).val, h2⟩, Finset.mem_univ _, ?_⟩
    have e := oCh15_emb L (ix2 ⟨(i 1).val - 1920, hlt⟩ ⟨(i 2).val, h2⟩)
    funext a
    match a with
    | ⟨0, _⟩ => exact Fin.ext (e.1.trans hb'.symm)
    | ⟨1, _⟩ => exact Fin.ext (e.2.1.trans (show 1920 + ((i 1).val - 1920) = (i 1).val by omega))
    | ⟨2, _⟩ => exact Fin.ext e.2.2

/-! ## A view written whole with what it reads of `g` holds `g` on its elements -/

theorem pts_fill {c : Thread nD τ} {sp : Space} {s : Shape} {e : EltTy} (v : View sig c.2.kind sp s e) (q : PosShare TreeShare)
    (fo g : Buf (Elt F) (v.loc c)) (pay : s.Idx → Elt F e) (h : ∀ y, pay y = v.read (Elt F) g y) :
    ((v.loc c ↦[v.set]{q} v.writes (Elt F) fo [⟨Rect.whole s, pay⟩] : sProp (MT nD τ sig (HIx 1) (Elt F) ℕ UU ℕ)))
      = (v.loc c ↦[v.set]{q} g) := by
  refine pointsTo_congr fun i hi => ?_
  obtain ⟨y, -, rfl⟩ := Finset.mem_map.mp hi
  have hw : v.writes (Elt F) fo [⟨Rect.whole s, pay⟩] = v.write (Elt F) fo pay Finset.univ :=
    (View.write_univ_eq_writes_whole (Val := Elt F) v fo [] pay).symm
  rw [hw, View.write_emb_of_mem _ _ (Finset.mem_univ y), h y, View.read_apply]
  simp

/-! ## The function both programs compute, and one gathered chunk as a piece of it -/

/-- Row `j` of batch `b` of the result is row `index[b, j]` of batch `b` of the table. -/
def G (fx : S32x8192x128.Idx → Elt F .f32) (fi : S32x2048.Idx → Elt F .i32) : S32x2048x128.Idx → Elt F .f32 :=
  fun i => fx (ix3 (i 0) ⟨(BitVec.toNat (fi (ix2 (i 0) (i 1)))) % 8192, Nat.mod_lt _ (by decide)⟩ (i 2))

/-- The `k`-th window of 128 entries of the fetched list. -/
abbrev listW (o : ℕ) (inb : ∀ a, (![o] : Fin 1 → ℕ) a + S128.size a ≤ S2048.size a) : Memref sig .scVector .vmem S128 .i32 :=
  (sI : Memref sig .scVector .vmem S2048 .i32).slice (Rect.unit (s := S2048) ![o] S128.size inb) (fun _ => rfl)

theorem gather_val (L : grid0.Coords) (fx : S32x8192x128.Idx → Elt F .f32) (fi : S32x2048.Idx → Elt F .i32) (fs : S2048.Idx → Elt F .i32)
    (o : ℕ) (inb : ∀ a, (![o] : Fin 1 → ℕ) a + S128.size a ≤ S2048.size a)
    (hn : S128.numel = S128x128.size gathers_S8192x128_S128x128.axis')
    (hr : ∀ x, BitVec.toNat (View.read (Elt F) (listW o inb).view
        (View.write (Elt F) (sI : Memref sig .scVector .vmem S2048 .i32).view fs (ReadAs.same.apply (View.read (Elt F) (iRow L).view fi)) Finset.univ) x)
          < S8192x128.size gathers_S8192x128_S128x128.axis)
    (y : S128x128.Idx) (i : S32x2048x128.Idx) (hi0 : (i 0).val = bOf L) (hi1 : (i 1).val = o + (y 0).val) (hi2 : (i 2).val = (y 1).val) :
    SparseCore.gatherPayload gathers_S8192x128_S128x128 (View.read (Elt F) (xB L).view fx)
        (SparseCore.rows (View.read (Elt F) (listW o inb).view
          (View.write (Elt F) (sI : Memref sig .scVector .vmem S2048 .i32).view fs (ReadAs.same.apply (View.read (Elt F) (iRow L).view fi)) Finset.univ)) hn hr) y
      = G fx fi i := by
  -- the list entry that names the row: entry `y 0` of the window, i.e. entry `o + y 0` of the fetched list
  let z : S128.Idx := S128.rowMajor.symm ((y gathers_S8192x128_S128x128.axis').cast hn.symm)
  have hz : (z 0).val = (y 0).val := by
    have e1 : (S128.rowMajor z).val = (z 0).val := Shape.rowMajor_val_one (d := ![128]) z
    have e2 : S128.rowMajor z = (y gathers_S8192x128_S128x128.axis').cast hn.symm := Equiv.apply_symm_apply _ _
    rw [e2] at e1
    exact e1.symm
  have hw : (((listW o inb).view.emb z : S2048.Idx) 0).val = o + (z 0).val := by
    show (![o] : Fin 1 → ℕ) 0 + 1 * (z 0).val = o + (z 0).val
    show o + 1 * (z 0).val = o + (z 0).val; omega
  have hI := iRow_emb L ((listW o inb).view.emb z)
  have hfill : View.write (Elt F) (sI : Memref sig .scVector .vmem S2048 .i32).view fs (ReadAs.same.apply (View.read (Elt F) (iRow L).view fi)) Finset.univ
      = View.read (Elt F) (iRow L).view fi := View.write_whole_univ _ _ _
  have hrow : (View.read (Elt F) (listW o inb).view
        (View.write (Elt F) (sI : Memref sig .scVector .vmem S2048 .i32).view fs (ReadAs.same.apply (View.read (Elt F) (iRow L).view fi)) Finset.univ) z)
      = fi (ix2 (i 0) (i 1)) := by
    rw [hfill]
    show fi ((iRow L).view.emb ((listW o inb).view.emb z)) = fi (ix2 (i 0) (i 1))
    congr 1
    funext a
    match a with
    | ⟨0, _⟩ => exact Fin.ext (hI.1.trans hi0.symm)
    | ⟨1, _⟩ => exact Fin.ext (hI.2.trans (by rw [hw, hz, hi1]))
  -- the source index of element `y`
  let r := SparseCore.rows (View.read (Elt F) (listW o inb).view
      (View.write (Elt F) (sI : Memref sig .scVector .vmem S2048 .i32).view fs (ReadAs.same.apply (View.read (Elt F) (iRow L).view fi)) Finset.univ)) hn hr
  let j : S8192x128.Idx := gathers_S8192x128_S128x128.idx r y
  have hj0 : (j 0).val = BitVec.toNat (fi (ix2 (i 0) (i 1))) := by
    have e := Shape.Gathers.idx_axis gathers_S8192x128_S128x128 r y
    have e' : (j 0).val = (r (y gathers_S8192x128_S128x128.axis')).val := congrArg Fin.val e
    rw [e']
    show BitVec.toNat (View.read (Elt F) (listW o inb).view _ z) = _
    rw [hrow]
  have hj1 : (j 1).val = (y 1).val :=
    Shape.Gathers.idx_of_ne gathers_S8192x128_S128x128 r y ⟨1, by decide⟩ (by decide)
  have hlt : (j 0).val < 8192 := (j 0).isLt
  have hE := xB_emb L j
  show fx ((xB L).view.emb j) = fx (ix3 (i 0) ⟨(BitVec.toNat (fi (ix2 (i 0) (i 1)))) % 8192, Nat.mod_lt _ (by decide)⟩ (i 2))
  congr 1
  funext a
  match a with
  | ⟨0, _⟩ => exact Fin.ext (hE.1.trans hi0.symm)
  | ⟨1, _⟩ =>
    refine Fin.ext (hE.2.1.trans ?_)
    show (j 0).val = (BitVec.toNat (fi (ix2 (i 0) (i 1)))) % 8192
    rw [← hj0, Nat.mod_eq_of_lt hlt]
  | ⟨2, _⟩ => exact Fin.ext (hE.2.2.trans (hj1.trans hi2.symm))

/-! ## Reading one slot of the row scratch through a write of another slot -/

/-- Slot `o` of the six 128×128 slots of the row scratch. -/
abbrev slotR (o : ℕ) (inb : ∀ a, (![o, 0, 0] : Fin 3 → ℕ) a + S1x128x128.size a ≤ S6x128x128.size a) : Memref sig .scVector .vmem S128x128 .f32 :=
  ((sR : Memref sig .scVector .vmem S6x128x128 .f32).slice (Rect.unit (s := S6x128x128) ![o, 0, 0] S1x128x128.size inb) (fun _ => rfl)).squeeze S128x128 squeezes_S1x128x128_S128x128

theorem slotR_emb (o : ℕ) (inb : ∀ a, (![o, 0, 0] : Fin 3 → ℕ) a + S1x128x128.size a ≤ S6x128x128.size a) (y : S128x128.Idx) :
    (((slotR o inb).view.emb y : S6x128x128.Idx) 0).val = o := by
  have hs := sq_128x128 squeezes_S1x128x128_S128x128.numel_eq y
  show (![o, 0, 0] : Fin 3 → ℕ) 0 + 1 * ((Shape.reshapeEquiv squeezes_S1x128x128_S128x128.numel_eq y) 0).val = o
  rw [hs.1]; show o + 1 * 0 = o; omega

/-- A write of slot `o'` does not change what slot `o ≠ o'` reads. -/
theorem read_slot_write_ne {o o' : ℕ} (inb : ∀ a, (![o, 0, 0] : Fin 3 → ℕ) a + S1x128x128.size a ≤ S6x128x128.size a)
    (inb' : ∀ a, (![o', 0, 0] : Fin 3 → ℕ) a + S1x128x128.size a ≤ S6x128x128.size a) (h : o ≠ o')
    (f : S6x128x128.Idx → Elt F .f32) (w : S128x128.Idx → Elt F .f32) :
    View.read (Elt F) (slotR o inb).view (View.write (Elt F) (slotR o' inb').view f w Finset.univ) = View.read (Elt F) (slotR o inb).view f := by
  funext y
  rw [View.read_apply, View.read_apply]
  congr 1
  refine View.write_of_not_mem _ _ _ fun hm => ?_
  obtain ⟨y', -, e⟩ := Finset.mem_map.mp hm
  have e0 : (((slotR o' inb').view.emb y' : S6x128x128.Idx) 0).val = (((slotR o inb).view.emb y : S6x128x128.Idx) 0).val :=
    congrArg (fun (t : S6x128x128.Idx) => (t 0).val) e
  rw [slotR_emb, slotR_emb] at e0
  exact h e0.symm

/-! ## Finite products of resources, spelt out -/

theorem bigSep_fin6 (Φ : Fin 6 → sProp (MT nD τ sig (HIx 1) (Elt F) ℕ UU ℕ)) :
    bigSep Finset.univ Φ = iprop(Φ 0 ∗ Φ 1 ∗ Φ 2 ∗ Φ 3 ∗ Φ 4 ∗ Φ 5) := by
  rw [show (Finset.univ : Finset (Fin 6)) = {0, 1, 2, 3, 4, 5} by decide]
  rw [SparseCore.bigSep_insert' (by decide), SparseCore.bigSep_insert' (by decide), SparseCore.bigSep_insert' (by decide), SparseCore.bigSep_insert' (by decide), SparseCore.bigSep_insert' (by decide), bigSep_singleton]

theorem bigSep_fin13 (Φ : Fin 13 → sProp (MT nD τ sig (HIx 1) (Elt F) ℕ UU ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := by
  rw [show (Finset.univ : Finset (Fin 13)) = {0, 1, 2, 3, 4, 5, 6, 7, 8, 9, 10, 11, 12} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem bigSep_fin16 (Φ : Fin 16 → sProp (MT nD τ sig (HIx 1) (Elt F) ℕ UU ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The arrays' parts: per SparseCore, per tile -/

abbrev xC (c : ℕ) : Finset S32x8192x128.Idx := leadPar (s := S32x8192x128) (by decide) c
abbrev xT (b : ℕ) : Finset S32x8192x128.Idx := lead (s := S32x8192x128) (by decide) b
abbrev iC (c : ℕ) : Finset S32x2048.Idx := leadPar (s := S32x2048) (by decide) c
abbrev iT (b : ℕ) : Finset S32x2048.Idx := lead (s := S32x2048) (by decide) b
abbrev oC (c : ℕ) : Finset S32x2048x128.Idx := leadPar (s := S32x2048x128) (by decide) c
abbrev oT (b : ℕ) : Finset S32x2048x128.Idx := lead (s := S32x2048x128) (by decide) b

end Cert.Proof.KI

end
-- ==== Proof.KIBody.lean ====
import proofs.«219751_g11407433138865_week1_w4_400_13_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.Proof.LeadSets Idealize.ShloMosaic.ValueIdx

local notation "𝕄" => MT nD τ sig (HIx 1) (Elt F) ℕ UU ℕ

variable (m : (ℓ : Loc nD τ sig) → Buf (Elt F) ℓ)

/-- Every entry of the index array names a row of the table. -/
def PreOK : Prop := ∀ (d : Dev nD) (j : S32x2048.Idx), BitVec.toNat (m (iLoc d) j) < 8192

/-- The result array the kernel leaves: the whole-array gather of the launch contents. -/
def Gm (d : Dev nD) : Buf (Elt F) (oLoc d) := G (m (xLoc d)) (m (iLoc d))

section Tile

variable (d : Dev nD) (L : grid0.Coords)

/-! ## A tile's own storage: two scratch buffers and thirteen DMA semaphores -/

theorem ownCells_V (c : Fin τ.nSC) (i : Fin τ.nSub) :
    (ownCells (V d c i) : Finset (GSem nD τ sig))
      = (Finset.univ : Finset (DmaSem sig)).map ⟨fun s => ((V d c i : Thread nD τ), SemLoc.dma s), fun a b e => SemLoc.dma.inj (Prod.mk.inj e).2⟩ := by
  have hreg : ∀ s : Sem sig, (SemLoc.reg s : SemLoc sig).isScoped .scVector = false := by decide
  have hdma : ∀ s : DmaSem sig, (SemLoc.dma s : SemLoc sig).isScoped .scVector = true := by decide
  ext g
  obtain ⟨t, sl⟩ := g
  rw [mem_ownCells, Finset.mem_map]
  constructor
  · rintro ⟨ht, hs⟩
    have ht' : t = V d c i := ht
    subst ht'
    cases sl with
    | reg s =>
      exfalso
      have hs' : (SemLoc.reg s : SemLoc sig).isScoped .scVector = true := hs
      rw [hreg s] at hs'
      exact Bool.false_ne_true hs'
    | dma s => exact ⟨s, Finset.mem_univ _, rfl⟩
  · rintro ⟨s, -, e⟩
    have e1 : (V d c i : Thread nD τ) = t := (Prod.mk.inj e).1
    have e2 : SemLoc.dma s = sl := (Prod.mk.inj e).2
    subst e1; subst e2
    exact ⟨rfl, hdma s⟩

theorem ownSems0_V :
    (ownSems0 (V d (cV L) (jV L)) : sProp 𝕄)
      = iprop(semVal ((V d (cV L) (jV L)), SemLoc.dma (0 : DmaSem sig)) 0
          ∗ semVal ((V d (cV L) (jV L)), SemLoc.dma (1 : DmaSem sig)) 0
          ∗ semVal ((V d (cV L) (jV L)), SemLoc.dma (2 : DmaSem sig)) 0
          ∗ semVal ((V d (cV L) (jV L)), SemLoc.dma (3 : DmaSem sig)) 0
          ∗ semVal ((V d (cV L) (jV L)), SemLoc.dma (4 : DmaSem sig)) 0
          ∗ semVal ((V d (cV L) (jV L)), SemLoc.dma (5 : DmaSem sig)) 0
          ∗ semVal ((V d (cV L) (jV L)), SemLoc.dma (6 : DmaSem sig)) 0
          ∗ semVal ((V d (cV L) (jV L)), SemLoc.dma (7 : DmaSem sig)) 0
          ∗ semVal ((V d (cV L) (jV L)), SemLoc.dma (8 : DmaSem sig)) 0
          ∗ semVal ((V d (cV L) (jV L)), SemLoc.dma (9 : DmaSem sig)) 0
          ∗ semVal ((V d (cV L) (jV L)), SemLoc.dma (10 : DmaSem sig)) 0
          ∗ semVal ((V d (cV L) (jV L)), SemLoc.dma (11 : DmaSem sig)) 0
          ∗ semVal ((V d (cV L) (jV L)), SemLoc.dma (12 : DmaSem sig)) 0) := by
  unfold SparseCore.Cfg.ownSems0
  rw [ownCells_V, BI.bigSep_map]
  exact bigSep_fin13 (F := F) (fun s : Fin 13 => semVal (((V d (cV L) (jV L)) : Thread nD τ), SemLoc.dma s) 0)

/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The tile's parts of the arrays, as its memrefs address them -/

theorem pts_xB (q : PosShare TreeShare) (f : Buf (Elt F) (xLoc d)) :
    ((xB L).view.loc (V d (cV L) (jV L)) ↦[(xB L).view.set]{q} f : sProp 𝕄) = (xLoc d ↦[xT (bOf L)]{q} f) := by
  rw [set_xB]
theorem pts_iRow (q : PosShare TreeShare) (f : Buf (Elt F) (iLoc d)) :
    ((iRow L).view.loc (V d (cV L) (jV L)) ↦[(iRow L).view.set]{q} f : sProp 𝕄) = (iLoc d ↦[iT (bOf L)]{q} f) := by
  rw [set_iRow]

/-- One read share of the table's batch per gather semaphore, and the remainder. -/
theorem toks6 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 6} f)
      ∗ (ℓ ↦[S]{Transfers.shareTok q 6 0} f) ∗ (ℓ ↦[S]{Transfers.shareTok q 6 1} f) ∗ (ℓ ↦[S]{Transfers.shareTok q 6 2} f) ∗ (ℓ ↦[S]{Transfers.shareTok q 6 3} f) ∗ (ℓ ↦[S]{Transfers.shareTok q 6 4} f) ∗ (ℓ ↦[S]{Transfers.shareTok q 6 5} f)) := by
  have h : (ℓ ↦[S]{q} f : sProp 𝕄) ⊣⊢ _ := Transfers.pointsTo_toks (ℓ := ℓ) (S := S) (f := f) q 6
  rw [bigSep_fin6 (F := F) (fun i : Fin 6 => (ℓ ↦[S]{Transfers.shareTok q 6 i} f : sProp 𝕄))] at h
  exact h

/-- The tile's rows of the result are its sixteen chunks. -/
theorem o_split (f : Buf (Elt F) (oLoc d)) :
    (oLoc d ↦[oT (bOf L)]{fullShare} f : sProp 𝕄)
      = iprop(((oCh0 L).view.loc (V d (cV L) (jV L)) ↦[(oCh0 L).view.set]{fullShare} f)
          ∗ ((oCh1 L).view.loc (V d (cV L) (jV L)) ↦[(oCh1 L).view.set]{fullShare} f)
          ∗ ((oCh2 L).view.loc (V d (cV L) (jV L)) ↦[(oCh2 L).view.set]{fullShare} f)
          ∗ ((oCh3 L).view.loc (V d (cV L) (jV L)) ↦[(oCh3 L).view.set]{fullShare} f)
          ∗ ((oCh4 L).view.loc (V d (cV L) (jV L)) ↦[(oCh4 L).view.set]{fullShare} f)
          ∗ ((oCh5 L).view.loc (V d (cV L) (jV L)) ↦[(oCh5 L).view.set]{fullShare} f)
          ∗ ((oCh6 L).view.loc (V d (cV L) (jV L)) ↦[(oCh6 L).view.set]{fullShare} f)
          ∗ ((oCh7 L).view.loc (V d (cV L) (jV L)) ↦[(oCh7 L).view.set]{fullShare} f)
          ∗ ((oCh8 L).view.loc (V d (cV L) (jV L)) ↦[(oCh8 L).view.set]{fullShare} f)
          ∗ ((oCh9 L).view.loc (V d (cV L) (jV L)) ↦[(oCh9 L).view.set]{fullShare} f)
          ∗ ((oCh10 L).view.loc (V d (cV L) (jV L)) ↦[(oCh10 L).view.set]{fullShare} f)
          ∗ ((oCh11 L).view.loc (V d (cV L) (jV L)) ↦[(oCh11 L).view.set]{fullShare} f)
          ∗ ((oCh12 L).view.loc (V d (cV L) (jV L)) ↦[(oCh12 L).view.set]{fullShare} f)
          ∗ ((oCh13 L).view.loc (V d (cV L) (jV L)) ↦[(oCh13 L).view.set]{fullShare} f)
          ∗ ((oCh14 L).view.loc (V d (cV L) (jV L)) ↦[(oCh14 L).view.set]{fullShare} f)
          ∗ ((oCh15 L).view.loc (V d (cV L) (jV L)) ↦[(oCh15 L).view.set]{fullShare} f)) := by
  rw [set_oCh0, set_oCh1, set_oCh2, set_oCh3, set_oCh4, set_oCh5, set_oCh6, set_oCh7, set_oCh8, set_oCh9, set_oCh10, set_oCh11, set_oCh12, set_oCh13, set_oCh14, set_oCh15]
  rw [show oT (bOf L) = (Finset.univ : Finset (Fin 16)).biUnion (fun k => chunk (s := S32x2048x128) (by decide) (bOf L) k.val) from
    (chunk_cover (s := S32x2048x128) (by decide) rfl (bOf L)).symm]
  rw [pointsTo_biUnion Finset.univ (ℓ := oLoc d) (fun k : Fin 16 => chunk (s := S32x2048x128) (by decide) (bOf L) k.val)
    (fun a _ b _ h => chunk_disjoint (s := S32x2048x128) (by decide) (bOf L) (fun e => h (Fin.ext e)))]
  rw [bigSep_fin16 (F := F)]
  rfl

/-- The waits a task records beyond those it found are at the kernels' index. -/
theorem wok_refl (W : Waits sig (HIx 1)) : ∀ p ∈ W, p ∈ W ∨ p.2 = none := fun _ h => .inl h
theorem wok_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

variable [FloatOps F]

/-! ## The task -/

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ ((xLoc d ↦[xT (bOf L)]{fullShare} m (xLoc d)) ∗ (iLoc d ↦[iT (bOf L)]{fullShare} m (iLoc d)) ∗ (oLoc d ↦[oT (bOf L)]{fullShare} m (oLoc d)))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0_run L xV (Memref.isWhole_whole _) iV (Memref.isWhole_whole _) oV (Memref.isWhole_whole _) sI (Memref.isWhole_whole _) sR (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scoped0)
          fun _ => iprop(((xLoc d ↦[xT (bOf L)]{fullShare} m (xLoc d)) ∗ (iLoc d ↦[iT (bOf L)]{fullShare} m (iLoc d)) ∗ (oLoc d ↦[oT (bOf L)]{fullShare} Gm m d))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V,
    o_split (F := F) d L (m (oLoc d)), o_split (F := F) d L (Gm m d)]
  iintro ⟨#Hlv, -, ⟨Hx, Hi, Ho0, Ho1, Ho2, Ho3, Ho4, Ho5, Ho6, Ho7, Ho8, Ho9, Ho10, Ho11, Ho12, Ho13, Ho14, Ho15⟩, ⟨⟨%fs, HsI⟩, ⟨%fr, HsR⟩, Hbufs⟩,
    ⟨Hm0, Hm1, Hm2, Hm3, Hm4, Hm5, Hm6, Hm7, Hm8, Hm9, Hm10, Hm11, Hm12⟩, HO⟩
  ihave Hmw := ((K (F := F)).mayWaits_none (thr := (V d (cV L) (jV L))) hO) $$ Hlv
  -- the table's batch, as the gathers address it, one read share per gather semaphore
  ihave Hx' := (Entails.of_eq (pts_xB (F := F) d L fullShare (m (xLoc d))).symm) $$ Hx
  ihave Hx'' := (toks6 (F := F) (ℓ := (xB L).view.loc (V d (cV L) (jV L))) (S := (xB L).view.set) (f := m (xLoc d)) fullShare).1 $$ Hx'
  icases Hx'' with ⟨Hxd, Hx0, Hx1, Hx2, Hx3, Hx4, Hx5⟩
  ihave Hi' := (Entails.of_eq (pts_iRow (F := F) d L fullShare (m (iLoc d))).symm) $$ Hi
  -- every entry of the fetched list names a row of the table
  have hin : ∀ (off : Fin 1 → ℕ) (inb : ∀ a, off a + S128.size a ≤ S2048.size a) (x : S128.Idx),
      BitVec.toNat (View.read (Elt F) ((sI : Memref sig .scVector .vmem S2048 .i32).slice (Rect.unit (s := S2048) off S128.size inb) (fun _ => rfl)).view
        (View.write (Elt F) (sI : Memref sig .scVector .vmem S2048 .i32).view fs (ReadAs.same.apply ((iRow L).view.read (Elt F) (m (iLoc d)))) Finset.univ) x) < 8192 := by
    intro off inb x
    rw [show View.write (Elt F) (sI : Memref sig .scVector .vmem S2048 .i32).view fs (ReadAs.same.apply ((iRow L).view.read (Elt F) (m (iLoc d)))) Finset.univ
        = ReadAs.same.apply ((iRow L).view.read (Elt F) (m (iLoc d))) from View.write_whole_univ _ _ _]
    exact hpre d _
  ihave HsI' := (Entails.of_eq (show ((V d (cV L) (jV L)).loc cc0_scratch0 ↦{fullShare} fs : sProp 𝕄)
      = ((sI : Memref sig .scVector .vmem S2048 .i32).view.loc (V d (cV L) (jV L)) ↦{fullShare} fs) from rfl)) $$ HsI
  ihave HsR' := (Entails.of_eq (show ((V d (cV L) (jV L)).loc cc0_scratch1 ↦{fullShare} fr : sProp 𝕄)
      = ((sR : Memref sig .scVector .vmem S6x128x128 .f32).view.loc (V d (cV L) (jV L)) ↦{fullShare} fr) from rfl)) $$ HsR
  sl_unfold [cc0_run]
  sl_exec
  sl_step
  -- what each chunk of the result was written with is that chunk of the whole-array gather
  have hv0 : ∀ y, tile_body.sl.dma0_1 m d L fs fr hin y
      = View.read (Elt F) (oCh0 L).view (Gm m d) y := by
    intro y
    have e := oCh0_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 0 _ _ _ y _ e.1 e.2.1 e.2.2
  have hv1 : ∀ y, tile_body.sl.dma0_2 m d L fs fr hin y
      = View.read (Elt F) (oCh1 L).view (Gm m d) y := by
    intro y
    have e := oCh1_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 128 _ _ _ y _ e.1 e.2.1 e.2.2
  have hv2 : ∀ y, tile_body.sl.dma0_3 m d L fs fr hin y
      = View.read (Elt F) (oCh2 L).view (Gm m d) y := by
    intro y
    have e := oCh2_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 256 _ _ _ y _ e.1 e.2.1 e.2.2
  have hv3 : ∀ y, tile_body.sl.dma0_4 m d L fs fr hin y
      = View.read (Elt F) (oCh3 L).view (Gm m d) y := by
    intro y
    have e := oCh3_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 384 _ _ _ y _ e.1 e.2.1 e.2.2
  have hv4 : ∀ y, tile_body.sl.dma0_5 m d L fs fr hin y
      = View.read (Elt F) (oCh4 L).view (Gm m d) y := by
    intro y
    have e := oCh4_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 512 _ _ _ y _ e.1 e.2.1 e.2.2
  have hv5 : ∀ y, tile_body.sl.dma0_6 m d L fs fr hin y
      = View.read (Elt F) (oCh5 L).view (Gm m d) y := by
    intro y
    have e := oCh5_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 640 _ _ _ y _ e.1 e.2.1 e.2.2
  have hv6 : ∀ y, tile_body.sl.dma0_7 m d L fs fr hin y
      = View.read (Elt F) (oCh6 L).view (Gm m d) y := by
    intro y
    have e := oCh6_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 768 _ _ _ y _ e.1 e.2.1 e.2.2
  have hv7 : ∀ y, tile_body.sl.dma0_8 m d L fs fr hin y
      = View.read (Elt F) (oCh7 L).view (Gm m d) y := by
    intro y
    have e := oCh7_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 896 _ _ _ y _ e.1 e.2.1 e.2.2
  have hv8 : ∀ y, tile_body.sl.dma0_9 m d L fs fr hin y
      = View.read (Elt F) (oCh8 L).view (Gm m d) y := by
    intro y
    have e := oCh8_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1024 _ _ _ y _ e.1 e.2.1 e.2.2
  have hv9 : ∀ y, tile_body.sl.dma0_10 m d L fs fr hin y
      = View.read (Elt F) (oCh9 L).view (Gm m d) y := by
    intro y
    have e := oCh9_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1152 _ _ _ y _ e.1 e.2.1 e.2.2
  have hv10 : ∀ y, tile_body.sl.dma0_11 m d L fs fr hin y
      = View.read (Elt F) (oCh10 L).view (Gm m d) y := by
    intro y
    have e := oCh10_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1280 _ _ _ y _ e.1 e.2.1 e.2.2
  have hv11 : ∀ y, tile_body.sl.dma0_12 m d L fs fr hin y
      = View.read (Elt F) (oCh11 L).view (Gm m d) y := by
    intro y
    have e := oCh11_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1408 _ _ _ y _ e.1 e.2.1 e.2.2
  have hv12 : ∀ y, tile_body.sl.dma0_13 m d L fs fr hin y
      = View.read (Elt F) (oCh12 L).view (Gm m d) y := by
    intro y
    have e := oCh12_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1536 _ _ _ y _ e.1 e.2.1 e.2.2
  have hv13 : ∀ y, tile_body.sl.dma0_14 m d L fs fr hin y
      = View.read (Elt F) (oCh13 L).view (Gm m d) y := by
    intro y
    have e := oCh13_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1664 _ _ _ y _ e.1 e.2.1 e.2.2
  have hv14 : ∀ y, tile_body.sl.dma0_15 m d L fs fr hin y
      = View.read (Elt F) (oCh14 L).view (Gm m d) y := by
    intro y
    have e := oCh14_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1792 _ _ _ y _ e.1 e.2.1 e.2.2
  have hv15 : ∀ y, tile_body.sl.dma0_16 m d L fs fr hin y
      = View.read (Elt F) (oCh15 L).view (Gm m d) y := by
    intro y
    have e := oCh15_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1920 _ _ _ y _ e.1 e.2.1 e.2.2
  isplitl [Hxd Hx0 Hx1 Hx2 Hx3 Hx4 Hx5 Hi' Ho0 Ho1 Ho2 Ho3 Ho4 Ho5 Ho6 Ho7 Ho8 Ho9 Ho10 Ho11 Ho12 Ho13 Ho14 Ho15]
  · isplitl [Hxd Hx0 Hx1 Hx2 Hx3 Hx4 Hx5]
    · iapply (Entails.of_eq (pts_xB (F := F) d L fullShare (m (xLoc d))))
      iapply (toks6 (F := F) (ℓ := (xB L).view.loc (V d (cV L) (jV L))) (S := (xB L).view.set) (f := m (xLoc d)) fullShare).2
      isplitl [Hxd]; · iexact Hxd
      isplitl [Hx0]; · iexact Hx0
      isplitl [Hx1]; · iexact Hx1
      isplitl [Hx2]; · iexact Hx2
      isplitl [Hx3]; · iexact Hx3
      isplitl [Hx4]; · iexact Hx4
      iexact Hx5
    isplitl [Hi']
    · iapply (Entails.of_eq (pts_iRow (F := F) d L fullShare (m (iLoc d)))); iexact Hi'
    isplitl [Ho0]
    · iapply (Entails.of_eq (pts_fill (F := F) (c := (V d (cV L) (jV L))) (oCh0 L).view fullShare (m (oLoc d)) (Gm m d) _ hv0)); iexact Ho0
    isplitl [Ho1]
    · iapply (Entails.of_eq (pts_fill (F := F) (c := (V d (cV L) (jV L))) (oCh1 L).view fullShare (m (oLoc d)) (Gm m d) _ hv1)); iexact Ho1
    isplitl [Ho2]
    · iapply (Entails.of_eq (pts_fill (F := F) (c := (V d (cV L) (jV L))) (oCh2 L).view fullShare (m (oLoc d)) (Gm m d) _ hv2)); iexact Ho2
    isplitl [Ho3]
    · iapply (Entails.of_eq (pts_fill (F := F) (c := (V d (cV L) (jV L))) (oCh3 L).view fullShare (m (oLoc d)) (Gm m d) _ hv3)); iexact Ho3
    isplitl [Ho4]
    · iapply (Entails.of_eq (pts_fill (F := F) (c := (V d (cV L) (jV L))) (oCh4 L).view fullShare (m (oLoc d)) (Gm m d) _ hv4)); iexact Ho4
    isplitl [Ho5]
    · iapply (Entails.of_eq (pts_fill (F := F) (c := (V d (cV L) (jV L))) (oCh5 L).view fullShare (m (oLoc d)) (Gm m d) _ hv5)); iexact Ho5
    isplitl [Ho6]
    · iapply (Entails.of_eq (pts_fill (F := F) (c := (V d (cV L) (jV L))) (oCh6 L).view fullShare (m (oLoc d)) (Gm m d) _ hv6)); iexact Ho6
    isplitl [Ho7]
    · iapply (Entails.of_eq (pts_fill (F := F) (c := (V d (cV L) (jV L))) (oCh7 L).view fullShare (m (oLoc d)) (Gm m d) _ hv7)); iexact Ho7
    isplitl [Ho8]
    · iapply (Entails.of_eq (pts_fill (F := F) (c := (V d (cV L) (jV L))) (oCh8 L).view fullShare (m (oLoc d)) (Gm m d) _ hv8)); iexact Ho8
    isplitl [Ho9]
    · iapply (Entails.of_eq (pts_fill (F := F) (c := (V d (cV L) (jV L))) (oCh9 L).view fullShare (m (oLoc d)) (Gm m d) _ hv9)); iexact Ho9
    isplitl [Ho10]
    · iapply (Entails.of_eq (pts_fill (F := F) (c := (V d (cV L) (jV L))) (oCh10 L).view fullShare (m (oLoc d)) (Gm m d) _ hv10)); iexact Ho10
    isplitl [Ho11]
    · iapply (Entails.of_eq (pts_fill (F := F) (c := (V d (cV L) (jV L))) (oCh11 L).view fullShare (m (oLoc d)) (Gm m d) _ hv11)); iexact Ho11
    isplitl [Ho12]
    · iapply (Entails.of_eq (pts_fill (F := F) (c := (V d (cV L) (jV L))) (oCh12 L).view fullShare (m (oLoc d)) (Gm m d) _ hv12)); iexact Ho12
    isplitl [Ho13]
    · iapply (Entails.of_eq (pts_fill (F := F) (c := (V d (cV L) (jV L))) (oCh13 L).view fullShare (m (oLoc d)) (Gm m d) _ hv13)); iexact Ho13
    isplitl [Ho14]
    · iapply (Entails.of_eq (pts_fill (F := F) (c := (V d (cV L) (jV L))) (oCh14 L).view fullShare (m (oLoc d)) (Gm m d) _ hv14)); iexact Ho14
    iapply (Entails.of_eq (pts_fill (F := F) (c := (V d (cV L) (jV L))) (oCh15 L).view fullShare (m (oLoc d)) (Gm m d) _ hv15)); iexact Ho15
  isplitl [HsI' HsR' Hbufs]
  · isplitl [HsI']; · iexists _; iexact HsI'
    isplitl [HsR']; · iexists _; iexact HsR'
    iexact Hbufs
  isplitl [Hm0 Hm1 Hm2 Hm3 Hm4 Hm5 Hm6 Hm7 Hm8 Hm9 Hm10 Hm11 Hm12]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    iexact Hm12
  iexists _; isplitr
  swap
  · iexact HO
  · ipureintro
    repeat (first | exact wok_refl _ | apply wok_insert)

end Tile

end Cert.Proof.KI

end
-- ==== Proof.KILaunch.lean ====
import proofs.«219751_g11407433138865_week1_w4_400_13_alg».proof.Proof.KIBody
import proofs.«219751_g11407433138865_week1_w4_400_13_alg».proof.Proof.Gen.Pre_input_domain
import Idealize.ShloMosaic.Lib.ReduceAll

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.Proof.LeadSets Idealize.ShloMosaic.ValueIdx
open Idealize.ShloMosaic.StableHlo (held held_split held_sdiff_result wp_hlo_within)

local notation "𝕄" => MT nD τ sig (HIx 1) (Elt F) ℕ UU ℕ

variable (m : (ℓ : Loc nD τ sig) → Buf (Elt F) ℓ) (ρ : Dev nD → PrngReg)

/-! ## What the handshakes carry: each SparseCore the batches of its parity, each tile its batch -/

def P : (K (F := F)).Pay (nD := nD) (Val := Elt F) (Name := ℕ) (U := UU) where
  st := fun q d c => match q with | 0 => iprop((xLoc d ↦[xC c.val]{fullShare} m (xLoc d)) ∗ (iLoc d ↦[iC c.val]{fullShare} m (iLoc d)) ∗ (oLoc d ↦[oC c.val]{fullShare} m (oLoc d)))
  dn := fun q d c => match q with | 0 => iprop((xLoc d ↦[xC c.val]{fullShare} m (xLoc d)) ∗ (iLoc d ↦[iC c.val]{fullShare} m (iLoc d)) ∗ (oLoc d ↦[oC c.val]{fullShare} Gm m d))
  go := fun q d c i => match q with | 0 => iprop((xLoc d ↦[xT (2 * i.val + c.val)]{fullShare} m (xLoc d)) ∗ (iLoc d ↦[iT (2 * i.val + c.val)]{fullShare} m (iLoc d)) ∗ (oLoc d ↦[oT (2 * i.val + c.val)]{fullShare} m (oLoc d)))
  td := fun q d c i => match q with | 0 => iprop((xLoc d ↦[xT (2 * i.val + c.val)]{fullShare} m (xLoc d)) ∗ (iLoc d ↦[iT (2 * i.val + c.val)]{fullShare} m (iLoc d)) ∗ (oLoc d ↦[oT (2 * i.val + c.val)]{fullShare} Gm m d))
  x := fun _ _ => iprop(emp)

instance P_storable : (P (F := F) m).IsStorable where
  st q d c := match q with | 0 => (inferInstance : BI.Storable (upEmb : UEmb _ 𝕄) iprop((xLoc d ↦[xC c.val]{fullShare} m (xLoc d)) ∗ (iLoc d ↦[iC c.val]{fullShare} m (iLoc d)) ∗ (oLoc d ↦[oC c.val]{fullShare} m (oLoc d))))
  dn q d c := match q with | 0 => (inferInstance : BI.Storable (upEmb : UEmb _ 𝕄) iprop((xLoc d ↦[xC c.val]{fullShare} m (xLoc d)) ∗ (iLoc d ↦[iC c.val]{fullShare} m (iLoc d)) ∗ (oLoc d ↦[oC c.val]{fullShare} Gm m d)))
  go q d c i := match q with | 0 => (inferInstance : BI.Storable (upEmb : UEmb _ 𝕄) iprop((xLoc d ↦[xT (2 * i.val + c.val)]{fullShare} m (xLoc d)) ∗ (iLoc d ↦[iT (2 * i.val + c.val)]{fullShare} m (iLoc d)) ∗ (oLoc d ↦[oT (2 * i.val + c.val)]{fullShare} m (oLoc d))))
  td q d c i := match q with | 0 => (inferInstance : BI.Storable (upEmb : UEmb _ 𝕄) iprop((xLoc d ↦[xT (2 * i.val + c.val)]{fullShare} m (xLoc d)) ∗ (iLoc d ↦[iT (2 * i.val + c.val)]{fullShare} m (iLoc d)) ∗ (oLoc d ↦[oT (2 * i.val + c.val)]{fullShare} Gm m d)))

/-! ## The arrays cut per SparseCore and per tile -/

theorem x_cores (d : Dev nD) (f : Buf (Elt F) (xLoc d)) :
    (xLoc d ↦{fullShare} f : sProp 𝕄) = bigSep Finset.univ fun c : Fin 2 => xLoc d ↦[xC c.val]{fullShare} f := by
  rw [← pointsTo_biUnion Finset.univ (ℓ := xLoc d) (fun c : Fin 2 => xC c.val)
    (fun a _ b _ h => leadPar_disjoint (s := S32x8192x128) (by decide) (fun e => h (Fin.ext e))), leadPar_cover]; try rfl
theorem x_tiles (d : Dev nD) (c : Fin 2) (f : Buf (Elt F) (xLoc d)) :
    (xLoc d ↦[xC c.val]{fullShare} f : sProp 𝕄) = bigSep Finset.univ fun i : Fin 16 => xLoc d ↦[xT (2 * i.val + c.val)]{fullShare} f := by
  rw [← pointsTo_biUnion Finset.univ (ℓ := xLoc d) (fun i : Fin 16 => xT (2 * i.val + c.val))
    (fun a _ b _ h => lead_disjoint (s := S32x8192x128) (by decide) (fun e => h (Fin.ext (by omega)))), lead_cover (s := S32x8192x128) (by decide) rfl c]
theorem i_cores (d : Dev nD) (f : Buf (Elt F) (iLoc d)) :
    (iLoc d ↦{fullShare} f : sProp 𝕄) = bigSep Finset.univ fun c : Fin 2 => iLoc d ↦[iC c.val]{fullShare} f := by
  rw [← pointsTo_biUnion Finset.univ (ℓ := iLoc d) (fun c : Fin 2 => iC c.val)
    (fun a _ b _ h => leadPar_disjoint (s := S32x2048) (by decide) (fun e => h (Fin.ext e))), leadPar_cover]; try rfl
theorem i_tiles (d : Dev nD) (c : Fin 2) (f : Buf (Elt F) (iLoc d)) :
    (iLoc d ↦[iC c.val]{fullShare} f : sProp 𝕄) = bigSep Finset.univ fun i : Fin 16 => iLoc d ↦[iT (2 * i.val + c.val)]{fullShare} f := by
  rw [← pointsTo_biUnion Finset.univ (ℓ := iLoc d) (fun i : Fin 16 => iT (2 * i.val + c.val))
    (fun a _ b _ h => lead_disjoint (s := S32x2048) (by decide) (fun e => h (Fin.ext (by omega)))), lead_cover (s := S32x2048) (by decide) rfl c]
theorem o_cores (d : Dev nD) (f : Buf (Elt F) (oLoc d)) :
    (oLoc d ↦{fullShare} f : sProp 𝕄) = bigSep Finset.univ fun c : Fin 2 => oLoc d ↦[oC c.val]{fullShare} f := by
  rw [← pointsTo_biUnion Finset.univ (ℓ := oLoc d) (fun c : Fin 2 => oC c.val)
    (fun a _ b _ h => leadPar_disjoint (s := S32x2048x128) (by decide) (fun e => h (Fin.ext e))), leadPar_cover]; try rfl
theorem o_tiles (d : Dev nD) (c : Fin 2) (f : Buf (Elt F) (oLoc d)) :
    (oLoc d ↦[oC c.val]{fullShare} f : sProp 𝕄) = bigSep Finset.univ fun i : Fin 16 => oLoc d ↦[oT (2 * i.val + c.val)]{fullShare} f := by
  rw [← pointsTo_biUnion Finset.univ (ℓ := oLoc d) (fun i : Fin 16 => oT (2 * i.val + c.val))
    (fun a _ b _ h => lead_disjoint (s := S32x2048x128) (by decide) (fun e => h (Fin.ext (by omega)))), lead_cover (s := S32x2048x128) (by decide) rfl c]

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_run (coordsV c s)
          xV (Memref.isWhole_whole _) iV (Memref.isWhole_whole _) oV (Memref.isWhole_whole _)
          sI (Memref.isWhole_whole _) sR (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

theorem vecSplit : (K (F := F)).VecSplit' (P m) 0 := by
  intro d c
  show iprop((xLoc d ↦[xC c.val]{fullShare} m (xLoc d)) ∗ (iLoc d ↦[iC c.val]{fullShare} m (iLoc d)) ∗ (oLoc d ↦[oC c.val]{fullShare} m (oLoc d))) ⊢ |={Set.univ}=> iprop(
      (bigSep Finset.univ fun i : Fin 16 => iprop((xLoc d ↦[xT (2 * i.val + c.val)]{fullShare} m (xLoc d)) ∗ (iLoc d ↦[iT (2 * i.val + c.val)]{fullShare} m (iLoc d)) ∗ (oLoc d ↦[oT (2 * i.val + c.val)]{fullShare} m (oLoc d))))
      ∗ ((bigSep Finset.univ fun i : Fin 16 => iprop((xLoc d ↦[xT (2 * i.val + c.val)]{fullShare} m (xLoc d)) ∗ (iLoc d ↦[iT (2 * i.val + c.val)]{fullShare} m (iLoc d)) ∗ (oLoc d ↦[oT (2 * i.val + c.val)]{fullShare} Gm m d))) -∗ iprop((xLoc d ↦[xC c.val]{fullShare} m (xLoc d)) ∗ (iLoc d ↦[iC c.val]{fullShare} m (iLoc d)) ∗ (oLoc d ↦[oC c.val]{fullShare} Gm m d))))
  rw [bigSep_sep', bigSep_sep', bigSep_sep', bigSep_sep']
  rw [x_tiles (F := F) d c, i_tiles (F := F) d c, o_tiles (F := F) d c (m (oLoc d)), o_tiles (F := F) d c (Gm m d)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = iprop((xLoc d ↦{fullShare} m (xLoc d)) ∗ (iLoc d ↦{fullShare} m (iLoc d)) ∗ (oLoc d ↦{fullShare} m (oLoc d))) := by
  show (bigSep (Finset.univ : Finset (Fin 2)) fun c => iprop((xLoc d ↦[xC c.val]{fullShare} m (xLoc d)) ∗ (iLoc d ↦[iC c.val]{fullShare} m (iLoc d)) ∗ (oLoc d ↦[oC c.val]{fullShare} m (oLoc d)))) = _
  rw [bigSep_sep', bigSep_sep', ← x_cores, ← i_cores, ← o_cores]
theorem dn0_eq (d : Dev nD) : (bigSep Finset.univ fun c : Fin ((K (F := F)).nCore 0) => (P m).dn 0 d c)
    = iprop((xLoc d ↦{fullShare} m (xLoc d)) ∗ (iLoc d ↦{fullShare} m (iLoc d)) ∗ (oLoc d ↦{fullShare} Gm m d)) := by
  show (bigSep (Finset.univ : Finset (Fin 2)) fun c => iprop((xLoc d ↦[xC c.val]{fullShare} m (xLoc d)) ∗ (iLoc d ↦[iC c.val]{fullShare} m (iLoc d)) ∗ (oLoc d ↦[oC c.val]{fullShare} Gm m d))) = _
  rw [bigSep_sep', bigSep_sep', ← x_cores, ← i_cores, ← o_cores]

/-- What @main leaves the claim: the arguments at their launch contents, the result at the gather of them. -/
abbrev FIN (d : Dev nD) : sProp 𝕄 := iprop((xLoc d ↦{fullShare} m (xLoc d)) ∗ (iLoc d ↦{fullShare} m (iLoc d)) ∗ (oLoc d ↦{fullShare} Gm m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hi, Ho⟩, -, -⟩, -⟩
  iapply ((K (F := F)).wp_run (D (F := F)) 𝒱 (EH := EH) (P := P m) κ d 0) $$ [Hst Hx Hi Ho]
  isplitr; · iexact Hctx
  isplitl [Hst]; · iexact Hst
  isplitl [Hx Hi Ho]
  · rw [st0_eq]
    isplitl [Hx]; · iexact Hx
    isplitl [Hi]; · iexact Hi
    iexact Ho
  iintro ⟨Hst, Hdn⟩
  ihave Hdn' := (Entails.of_eq (dn0_eq m d)) $$ Hdn
  icases Hdn' with ⟨Hx, Hi, Ho⟩
  imodintro
  isplitl [Hst]; · iexact Hst
  isplitl [Hx]; · iexact Hx
  isplitl [Hi]; · iexact Hi
  iexact Ho

def fq (d : Dev nD) (s' : Phys nD τ sig (Elt F)) : Prop :=
  s'.mem.mem (oLoc d) = Gm m d ∧ s'.mem.mem (xLoc d) = m (xLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := Gm m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Gm m c ∧ r.2.mem (xLoc c) = m (xLoc c) ∧ r.2.mem (iLoc c) = m (iLoc c)

/-- Every weakly fair execution of the device's threads ends, nothing faulting, the arguments unchanged and the result
    the gather of them. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The precondition gives the index range -/

instance : Subsingleton Cert.Pre_input_domain.S_.Idx := ⟨fun a b => funext fun d => d.elim0⟩

theorem idx_of_pre [Cert.Pre_input_domain.Facts] (fx : FVec F Cert.Pre_input_domain.S32x8192x128 .f32) (fi : IVec Cert.Pre_input_domain.S32x2048 32)
    (h : Cert.Pre_input_domain.fn (F := F) fx fi = fun _ => 1#1) (j : Cert.Pre_input_domain.S32x2048.Idx) : BitVec.toNat (fi j) < 8192 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .sle v 8191#32) = 1#1 → v.toNat < 8192 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h ix0
  dsimp only [Cert.Pre_input_domain.fn] at e
  have e2 := (IntOp.andi_eq_one.mp e).2
  have e3 := Host.reduce_andi_all _ _ _ _ _ e2 j
  simp only [andi, cmpi, broadcastInDim, constantI] at e3
  exact key _ e3

end Cert.Proof.KI

end
-- ==== Proof.KBSetup.lean ====
import proofs.«219751_g11407433138865_week1_w4_400_13_alg».proof.Defs
import Idealize.ShloMosaic.Lib.SparseCore.Launch
import Idealize.ShloMosaic.Lib.StableHlo.Run
import Idealize.ShloMosaic.Lib.Pipeline.Kit
import Idealize.ShloMosaic.Lib.Tactic
import proofs.«219751_g11407433138865_week1_w4_400_13_alg».proof.Proof.Gen.Kernel
import proofs.«219751_g11407433138865_week1_w4_400_13_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the memrefs, as the body spells them -/

abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

abbrev xV : Memref sig .scVector .hbm S32x8192x128 .f32 := Memref.whole main_arg0_scv
abbrev iV : Memref sig .scVector .hbm S32x2048 .i32 := Memref.whole main_arg1_scv
abbrev oV : Memref sig .scVector .hbm S32x2048x128 .f32 := Memref.whole main_v0_scv
abbrev sI : Memref sig .scVector .vmem S2048 .i32 := Memref.whole cc0_scratch0
abbrev sR : Memref sig .scVector .vmem S6x128x128 .f32 := Memref.whole cc0_scratch1

abbrev cV (L : grid0.Coords) : Fin τ.nSC := (L 0).castLE hcore0
abbrev jV (L : grid0.Coords) : Fin τ.nSub := (L 1).castLE hsub0

/-- Row `2·(L 1) + (L 0)` of the index array: the list one tile fetches. -/
abbrev iRow (L : grid0.Coords) : Memref sig .scVector .hbm S2048 .i32 :=
  ((iV : Memref sig .scVector .hbm S32x2048 .i32).slice (Rect.unit (s := S32x2048) (k0_off1 L) S1x2048.size (k0_off1_inb L)) (fun _ => rfl)).squeeze S2048 squeezes_S1x2048_S2048
/-- Batch `2·(L 1) + (L 0)` of the table: the rows one tile gathers from. -/
abbrev xB (L : grid0.Coords) : Memref sig .scVector .hbm S8192x128 .f32 :=
  (((xV : Memref sig .scVector .hbm S32x8192x128 .f32).slice (Rect.unit (s := S32x8192x128) (k0_off2 L) S1x8192x128.size (k0_off2_inb L)) (fun _ => rfl)).squeeze S8192x128 squeezes_S1x8192x128_S8192x128).slice
    (Rect.unit (s := S8192x128) ![0, 0] S8192x128.size inb_S8192x128_S8192x128_0_0) (fun _ => rfl)
/-- Chunk `k` (rows `128k … 128k+127`) of that batch of the result. -/
abbrev oCh0 (L : grid0.Coords) : Memref sig .scVector .hbm S128x128 .f32 :=
  ((oV : Memref sig .scVector .hbm S32x2048x128 .f32).slice (Rect.unit (s := S32x2048x128) (k0_off3 L) S1x128x128.size (k0_off3_inb L)) (fun _ => rfl)).squeeze S128x128 squeezes_S1x128x128_S128x128
abbrev oCh1 (L : grid0.Coords) : Memref sig .scVector .hbm S128x128 .f32 :=
  ((oV : Memref sig .scVector .hbm S32x2048x128 .f32).slice (Rect.unit (s := S32x2048x128) (k0_off4 L) S1x128x128.size (k0_off4_inb L)) (fun _ => rfl)).squeeze S128x128 squeezes_S1x128x128_S128x128
abbrev oCh2 (L : grid0.Coords) : Memref sig .scVector .hbm S128x128 .f32 :=
  ((oV : Memref sig .scVector .hbm S32x2048x128 .f32).slice (Rect.unit (s := S32x2048x128) (k0_off5 L) S1x128x128.size (k0_off5_inb L)) (fun _ => rfl)).squeeze S128x128 squeezes_S1x128x128_S128x128
abbrev oCh3 (L : grid0.Coords) : Memref sig .scVector .hbm S128x128 .f32 :=
  ((oV : Memref sig .scVector .hbm S32x2048x128 .f32).slice (Rect.unit (s := S32x2048x128) (k0_off6 L) S1x128x128.size (k0_off6_inb L)) (fun _ => rfl)).squeeze S128x128 squeezes_S1x128x128_S128x128
abbrev oCh4 (L : grid0.Coords) : Memref sig .scVector .hbm S128x128 .f32 :=
  ((oV : Memref sig .scVector .hbm S32x2048x128 .f32).slice (Rect.unit (s := S32x2048x128) (k0_off7 L) S1x128x128.size (k0_off7_inb L)) (fun _ => rfl)).squeeze S128x128 squeezes_S1x128x128_S128x128
abbrev oCh5 (L : grid0.Coords) : Memref sig .scVector .hbm S128x128 .f32 :=
  ((oV : Memref sig .scVector .hbm S32x2048x128 .f32).slice (Rect.unit (s := S32x2048x128) (k0_off8 L) S1x128x128.size (k0_off8_inb L)) (fun _ => rfl)).squeeze S128x128 squeezes_S1x128x128_S128x128
abbrev oCh6 (L : grid0.Coords) : Memref sig .scVector .hbm S128x128 .f32 :=
  ((oV : Memref sig .scVector .hbm S32x2048x128 .f32).slice (Rect.unit (s := S32x2048x128) (k0_off9 L) S1x128x128.size (k0_off9_inb L)) (fun _ => rfl)).squeeze S128x128 squeezes_S1x128x128_S128x128
abbrev oCh7 (L : grid0.Coords) : Memref sig .scVector .hbm S128x128 .f32 :=
  ((oV : Memref sig .scVector .hbm S32x2048x128 .f32).slice (Rect.unit (s := S32x2048x128) (k0_off10 L) S1x128x128.size (k0_off10_inb L)) (fun _ => rfl)).squeeze S128x128 squeezes_S1x128x128_S128x128
abbrev oCh8 (L : grid0.Coords) : Memref sig .scVector .hbm S128x128 .f32 :=
  ((oV : Memref sig .scVector .hbm S32x2048x128 .f32).slice (Rect.unit (s := S32x2048x128) (k0_off11 L) S1x128x128.size (k0_off11_inb L)) (fun _ => rfl)).squeeze S128x128 squeezes_S1x128x128_S128x128
abbrev oCh9 (L : grid0.Coords) : Memref sig .scVector .hbm S128x128 .f32 :=
  ((oV : Memref sig .scVector .hbm S32x2048x128 .f32).slice (Rect.unit (s := S32x2048x128) (k0_off12 L) S1x128x128.size (k0_off12_inb L)) (fun _ => rfl)).squeeze S128x128 squeezes_S1x128x128_S128x128
abbrev oCh10 (L : grid0.Coords) : Memref sig .scVector .hbm S128x128 .f32 :=
  ((oV : Memref sig .scVector .hbm S32x2048x128 .f32).slice (Rect.unit (s := S32x2048x128) (k0_off13 L) S1x128x128.size (k0_off13_inb L)) (fun _ => rfl)).squeeze S128x128 squeezes_S1x128x128_S128x128
abbrev oCh11 (L : grid0.Coords) : Memref sig .scVector .hbm S128x128 .f32 :=
  ((oV : Memref sig .scVector .hbm S32x2048x128 .f32).slice (Rect.unit (s := S32x2048x128) (k0_off14 L) S1x128x128.size (k0_off14_inb L)) (fun _ => rfl)).squeeze S128x128 squeezes_S1x128x128_S128x128
abbrev oCh12 (L : grid0.Coords) : Memref sig .scVector .hbm S128x128 .f32 :=
  ((oV : Memref sig .scVector .hbm S32x2048x128 .f32).slice (Rect.unit (s := S32x2048x128) (k0_off15 L) S1x128x128.size (k0_off15_inb L)) (fun _ => rfl)).squeeze S128x128 squeezes_S1x128x128_S128x128
abbrev oCh13 (L : grid0.Coords) : Memref sig .scVector .hbm S128x128 .f32 :=
  ((oV : Memref sig .scVector .hbm S32x2048x128 .f32).slice (Rect.unit (s := S32x2048x128) (k0_off16 L) S1x128x128.size (k0_off16_inb L)) (fun _ => rfl)).squeeze S128x128 squeezes_S1x128x128_S128x128
abbrev oCh14 (L : grid0.Coords) : Memref sig .scVector .hbm S128x128 .f32 :=
  ((oV : Memref sig .scVector .hbm S32x2048x128 .f32).slice (Rect.unit (s := S32x2048x128) (k0_off17 L) S1x128x128.size (k0_off17_inb L)) (fun _ => rfl)).squeeze S128x128 squeezes_S1x128x128_S128x128
abbrev oCh15 (L : grid0.Coords) : Memref sig .scVector .hbm S128x128 .f32 :=
  ((oV : Memref sig .scVector .hbm S32x2048x128 .f32).slice (Rect.unit (s := S32x2048x128) (k0_off18 L) S1x128x128.size (k0_off18_inb L)) (fun _ => rfl)).squeeze S128x128 squeezes_S1x128x128_S128x128

end Cert.Proof.KB

end
-- ==== Proof.KBValue.lean ====
import proofs.«219751_g11407433138865_week1_w4_400_13_alg».proof.Proof.KBSetup
import proofs.«219751_g11407433138865_week1_w4_400_13_alg».proof.Proof.LibLeadSets
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.Proof.LeadSets Idealize.ShloMosaic.ValueIdx

/-- The batch a tile works on: `2·(subcore) + (core)`. -/
abbrev bOf (L : grid0.Coords) : ℕ := 2 * (L 1).val + (L 0).val

theorem bOf_lt (L : grid0.Coords) : bOf L < 32 := by
  have h0 : (L 0).val < 2 := (L 0).isLt
  have h1 : (L 1).val < 16 := (L 1).isLt
  unfold bOf; omega

/-! ## Dropping a leading unit axis keeps the other coordinates -/

theorem sq_128x128 (h : S128x128.numel = S1x128x128.numel) (y : S128x128.Idx) :
    ((Shape.reshapeEquiv h y) 0).val = 0 ∧ ((Shape.reshapeEquiv h y) 1).val = (y 0).val ∧ ((Shape.reshapeEquiv h y) 2).val = (y 1).val := by
  have e := Shape.rowMajor_reshapeEquiv h y
  have e3 : (S1x128x128.rowMajor (Shape.reshapeEquiv h y)).val
      = (((Shape.reshapeEquiv h y) 0).val * 128 + ((Shape.reshapeEquiv h y) 1).val) * 128 + ((Shape.reshapeEquiv h y) 2).val :=
    Shape.rowMajor_val_three (d := ![1, 128, 128]) _
  have e2 : (S128x128.rowMajor y).val = (y 0).val * 128 + (y 1).val := Shape.rowMajor_val_two (d := ![128, 128]) _
  have h0 : ((Shape.reshapeEquiv h y) 0).val < 1 := ((Shape.reshapeEquiv h y) 0).isLt
  have h1 : ((Shape.reshapeEquiv h y) 1).val < 128 := ((Shape.reshapeEquiv h y) 1).isLt
  have h2 : ((Shape.reshapeEquiv h y) 2).val < 128 := ((Shape.reshapeEquiv h y) 2).isLt
  have hy0 : (y 0).val < 128 := (y 0).isLt
  have hy1 : (y 1).val < 128 := (y 1).isLt
  rw [e3, e2] at e
  omega

theorem sq_8192x128 (h : S8192x128.numel = S1x8192x128.numel) (y : S8192x128.Idx) :
    ((Shape.reshapeEquiv h y) 0).val = 0 ∧ ((Shape.reshapeEquiv h y) 1).val = (y 0).val ∧ ((Shape.reshapeEquiv h y) 2).val = (y 1).val := by
  have e := Shape.rowMajor_reshapeEquiv h y
  have e3 : (S1x8192x128.rowMajor (Shape.reshapeEquiv h y)).val
      = (((Shape.reshapeEquiv h y) 0).val * 8192 + ((Shape.reshapeEquiv h y) 1).val) * 128 + ((Shape.reshapeEquiv h y) 2).val :=
    Shape.rowMajor_val_three (d := ![1, 8192, 128]) _
  have e2 : (S8192x128.rowMajor y).val = (y 0).val * 128 + (y 1).val := Shape.rowMajor_val_two (d := ![8192, 128]) _
  have h0 : ((Shape.reshapeEquiv h y) 0).val < 1 := ((Shape.reshapeEquiv h y) 0).isLt
  have h1 : ((Shape.reshapeEquiv h y) 1).val < 8192 := ((Shape.reshapeEquiv h y) 1).isLt
  have h2 : ((Shape.reshapeEquiv h y) 2).val < 128 := ((Shape.reshapeEquiv h y) 2).isLt
  have hy0 : (y 0).val < 8192 := (y 0).isLt
  have hy1 : (y 1).val < 128 := (y 1).isLt
  rw [e3, e2] at e
  omega

theorem sq_2048 (h : S2048.numel = S1x2048.numel) (y : S2048.Idx) :
    ((Shape.reshapeEquiv h y) 0).val = 0 ∧ ((Shape.reshapeEquiv h y) 1).val = (y 0).val := by
  have e := Shape.rowMajor_reshapeEquiv h y
  have e3 : (S1x2048.rowMajor (Shape.reshapeEquiv h y)).val
      = ((Shape.reshapeEquiv h y) 0).val * 2048 + ((Shape.reshapeEquiv h y) 1).val :=
    Shape.rowMajor_val_two (d := ![1, 2048]) _
  have e2 : (S2048.rowMajor y).val = (y 0).val := Shape.rowMajor_val_one (d := ![2048]) _
  have h0 : ((Shape.reshapeEquiv h y) 0).val < 1 := ((Shape.reshapeEquiv h y) 0).isLt
  have h1 : ((Shape.reshapeEquiv h y) 1).val < 2048 := ((Shape.reshapeEquiv h y) 1).isLt
  rw [e3, e2] at e
  omega

/-! ## Where each view's indices land in its array -/

theorem iRow_emb (L : grid0.Coords) (y : S2048.Idx) :
    (((iRow L).view.emb y : S32x2048.Idx) 0).val = bOf L ∧ (((iRow L).view.emb y : S32x2048.Idx) 1).val = (y 0).val := by
  have hs := sq_2048 squeezes_S1x2048_S2048.numel_eq y
  have ho := k0_off1_eq L
  refine ⟨?_, ?_⟩
  · show k0_off1 L 0 + 1 * ((Shape.reshapeEquiv squeezes_S1x2048_S2048.numel_eq y) 0).val = bOf L
    rw [ho, hs.1]; rfl
  · show k0_off1 L 1 + 1 * ((Shape.reshapeEquiv squeezes_S1x2048_S2048.numel_eq y) 1).val = (y 0).val
    rw [ho, hs.2]; show 0 + 1 * (y 0).val = (y 0).val; omega

theorem xB_emb (L : grid0.Coords) (y : S8192x128.Idx) :
    (((xB L).view.emb y : S32x8192x128.Idx) 0).val = bOf L ∧ (((xB L).view.emb y : S32x8192x128.Idx) 1).val = (y 0).val
      ∧ (((xB L).view.emb y : S32x8192x128.Idx) 2).val = (y 1).val := by
  have hR : ∀ a, ((Rect.unit (s := S8192x128) ![0, 0] S8192x128.size inb_S8192x128_S8192x128_0_0).emb y a).val = (y a).val := by
    intro a; show (![0, 0] : Fin 2 → ℕ) a + 1 * (y a).val = (y a).val
    have h0 : (![0, 0] : Fin 2 → ℕ) a = 0 := by match a with | ⟨0, _⟩ => rfl | ⟨1, _⟩ => rfl
    rw [h0]; omega
  have hs := sq_8192x128 squeezes_S1x8192x128_S8192x128.numel_eq ((Rect.unit (s := S8192x128) ![0, 0] S8192x128.size inb_S8192x128_S8192x128_0_0).emb y)
  have ho := k0_off2_eq L
  refine ⟨?_, ?_, ?_⟩
  · show k0_off2 L 0 + 1 * ((Shape.reshapeEquiv squeezes_S1x8192x128_S8192x128.numel_eq _) 0).val = bOf L
    rw [ho, hs.1]; rfl
  · show k0_off2 L 1 + 1 * ((Shape.reshapeEquiv squeezes_S1x8192x128_S8192x128.numel_eq _) 1).val = (y 0).val
    rw [ho, hs.2.1, hR]; show 0 + 1 * (y 0).val = (y 0).val; omega
  · show k0_off2 L 2 + 1 * ((Shape.reshapeEquiv squeezes_S1x8192x128_S8192x128.numel_eq _) 2).val = (y 1).val
    rw [ho, hs.2.2, hR]; show 0 + 1 * (y 1).val = (y 1).val; omega

theorem oCh0_emb (L : grid0.Coords) (y : S128x128.Idx) :
    (((oCh0 L).view.emb y : S32x2048x128.Idx) 0).val = bOf L ∧ (((oCh0 L).view.emb y : S32x2048x128.Idx) 1).val = 0 + (y 0).val
      ∧ (((oCh0 L).view.emb y : S32x2048x128.Idx) 2).val = (y 1).val := by
  have hs := sq_128x128 squeezes_S1x128x128_S128x128.numel_eq y
  have ho := k0_off3_eq L
  refine ⟨?_, ?_, ?_⟩
  · show k0_off3 L 0 + 1 * ((Shape.reshapeEquiv squeezes_S1x128x128_S128x128.numel_eq y) 0).val = bOf L
    rw [ho, hs.1]; rfl
  · show k0_off3 L 1 + 1 * ((Shape.reshapeEquiv squeezes_S1x128x128_S128x128.numel_eq y) 1).val = 0 + (y 0).val
    rw [ho, hs.2.1]; show 0 + 1 * (y 0).val = _; omega
  · show k0_off3 L 2 + 1 * ((Shape.reshapeEquiv squeezes_S1x128x128_S128x128.numel_eq y) 2).val = (y 1).val
    rw [ho, hs.2.2]; show 0 + 1 * (y 1).val = _; omega

theorem oCh1_emb (L : grid0.Coords) (y : S128x128.Idx) :
    (((oCh1 L).view.emb y : S32x2048x128.Idx) 0).val = bOf L ∧ (((oCh1 L).view.emb y : S32x2048x128.Idx) 1).val = 128 + (y 0).val
      ∧ (((oCh1 L).view.emb y : S32x2048x128.Idx) 2).val = (y 1).val := by
  have hs := sq_128x128 squeezes_S1x128x128_S128x128.numel_eq y
  have ho := k0_off4_eq L
  refine ⟨?_, ?_, ?_⟩
  · show k0_off4 L 0 + 1 * ((Shape.reshapeEquiv squeezes_S1x128x128_S128x128.numel_eq y) 0).val = bOf L
    rw [ho, hs.1]; rfl
  · show k0_off4 L 1 + 1 * ((Shape.reshapeEquiv squeezes_S1x128x128_S128x128.numel_eq y) 1).val = 128 + (y 0).val
    rw [ho, hs.2.1]; show 128 + 1 * (y 0).val = _; omega
  · show k0_off4 L 2 + 1 * ((Shape.reshapeEquiv squeezes_S1x128x128_S128x128.numel_eq y) 2).val = (y 1).val
    rw [ho, hs.2.2]; show 0 + 1 * (y 1).val = _; omega

theorem oCh2_emb (L : grid0.Coords) (y : S128x128.Idx) :
    (((oCh2 L).view.emb y : S32x2048x128.Idx) 0).val = bOf L ∧ (((oCh2 L).view.emb y : S32x2048x128.Idx) 1).val = 256 + (y 0).val
      ∧ (((oCh2 L).view.emb y : S32x2048x128.Idx) 2).val = (y 1).val := by
  have hs := sq_128x128 squeezes_S1x128x128_S128x128.numel_eq y
  have ho := k0_off5_eq L
  refine ⟨?_, ?_, ?_⟩
  · show k0_off5 L 0 + 1 * ((Shape.reshapeEquiv squeezes_S1x128x128_S128x128.numel_eq y) 0).val = bOf L
    rw [ho, hs.1]; rfl
  · show k0_off5 L 1 + 1 * ((Shape.reshapeEquiv squeezes_S1x128x128_S128x128.numel_eq y) 1).val = 256 + (y 0).val
    rw [ho, hs.2.1]; show 256 + 1 * (y 0).val = _; omega
  · show k0_off5 L 2 + 1 * ((Shape.reshapeEquiv squeezes_S1x128x128_S128x128.numel_eq y) 2).val = (y 1).val
    rw [ho, hs.2.2]; show 0 + 1 * (y 1).val = _; omega

theorem oCh3_emb (L : grid0.Coords) (y : S128x128.Idx) :
    (((oCh3 L).view.emb y : S32x2048x128.Idx) 0).val = bOf L ∧ (((oCh3 L).view.emb y : S32x2048x128.Idx) 1).val = 384 + (y 0).val
      ∧ (((oCh3 L).view.emb y : S32x2048x128.Idx) 2).val = (y 1).val := by
  have hs := sq_128x128 squeezes_S1x128x128_S128x128.numel_eq y
  have ho := k0_off6_eq L
  refine ⟨?_, ?_, ?_⟩
  · show k0_off6 L 0 + 1 * ((Shape.reshapeEquiv squeezes_S1x128x128_S128x128.numel_eq y) 0).val = bOf L
    rw [ho, hs.1]; rfl
  · show k0_off6 L 1 + 1 * ((Shape.reshapeEquiv squeezes_S1x128x128_S128x128.numel_eq y) 1).val = 384 + (y 0).val
    rw [ho, hs.2.1]; show 384 + 1 * (y 0).val = _; omega
  · show k0_off6 L 2 + 1 * ((Shape.reshapeEquiv squeezes_S1x128x128_S128x128.numel_eq y) 2).val = (y 1).val
    rw [ho, hs.2.2]; show 0 + 1 * (y 1).val = _; omega

theorem oCh4_emb (L : grid0.Coords) (y : S128x128.Idx) :
    (((oCh4 L).view.emb y : S32x2048x128.Idx) 0).val = bOf L ∧ (((oCh4 L).view.emb y : S32x2048x128.Idx) 1).val = 512 + (y 0).val
      ∧ (((oCh4 L).view.emb y : S32x2048x128.Idx) 2).val = (y 1).val := by
  have hs := sq_128x128 squeezes_S1x128x128_S128x128.numel_eq y
  have ho := k0_off7_eq L
  refine ⟨?_, ?_, ?_⟩
  · show k0_off7 L 0 + 1 * ((Shape.reshapeEquiv squeezes_S1x128x128_S128x128.numel_eq y) 0).val = bOf L
    rw [ho, hs.1]; rfl
  · show k0_off7 L 1 + 1 * ((Shape.reshapeEquiv squeezes_S1x128x128_S128x128.numel_eq y) 1).val = 512 + (y 0).val
    rw [ho, hs.2.1]; show 512 + 1 * (y 0).val = _; omega
  · show k0_off7 L 2 + 1 * ((Shape.reshapeEquiv squeezes_S1x128x128_S128x128.numel_eq y) 2).val = (y 1).val
    rw [ho, hs.2.2]; show 0 + 1 * (y 1).val = _; omega

theorem oCh5_emb (L : grid0.Coords) (y : S128x128.Idx) :
    (((oCh5 L).view.emb y : S32x2048x128.Idx) 0).val = bOf L ∧ (((oCh5 L).view.emb y : S32x2048x128.Idx) 1).val = 640 + (y 0).val
      ∧ (((oCh5 L).view.emb y : S32x2048x128.Idx) 2).val = (y 1).val := by
  have hs := sq_128x128 squeezes_S1x128x128_S128x128.numel_eq y
  have ho := k0_off8_eq L
  refine ⟨?_, ?_, ?_⟩
  · show k0_off8 L 0 + 1 * ((Shape.reshapeEquiv squeezes_S1x128x128_S128x128.numel_eq y) 0).val = bOf L
    rw [ho, hs.1]; rfl
  · show k0_off8 L 1 + 1 * ((Shape.reshapeEquiv squeezes_S1x128x128_S128x128.numel_eq y) 1).val = 640 + (y 0).val
    rw [ho, hs.2.1]; show 640 + 1 * (y 0).val = _; omega
  · show k0_off8 L 2 + 1 * ((Shape.reshapeEquiv squeezes_S1x128x128_S128x128.numel_eq y) 2).val = (y 1).val
    rw [ho, hs.2.2]; show 0 + 1 * (y 1).val = _; omega

theorem oCh6_emb (L : grid0.Coords) (y : S128x128.Idx) :
    (((oCh6 L).view.emb y : S32x2048x128.Idx) 0).val = bOf L ∧ (((oCh6 L).view.emb y : S32x2048x128.Idx) 1).val = 768 + (y 0).val
      ∧ (((oCh6 L).view.emb y : S32x2048x128.Idx) 2).val = (y 1).val := by
  have hs := sq_128x128 squeezes_S1x128x128_S128x128.numel_eq y
  have ho := k0_off9_eq L
  refine ⟨?_, ?_, ?_⟩
  · show k0_off9 L 0 + 1 * ((Shape.reshapeEquiv squeezes_S1x128x128_S128x128.numel_eq y) 0).val = bOf L
    rw [ho, hs.1]; rfl
  · show k0_off9 L 1 + 1 * ((Shape.reshapeEquiv squeezes_S1x128x128_S128x128.numel_eq y) 1).val = 768 + (y 0).val
    rw [ho, hs.2.1]; show 768 + 1 * (y 0).val = _; omega
  · show k0_off9 L 2 + 1 * ((Shape.reshapeEquiv squeezes_S1x128x128_S128x128.numel_eq y) 2).val = (y 1).val
    rw [ho, hs.2.2]; show 0 + 1 * (y 1).val = _; omega

theorem oCh7_emb (L : grid0.Coords) (y : S128x128.Idx) :
    (((oCh7 L).view.emb y : S32x2048x128.Idx) 0).val = bOf L ∧ (((oCh7 L).view.emb y : S32x2048x128.Idx) 1).val = 896 + (y 0).val
      ∧ (((oCh7 L).view.emb y : S32x2048x128.Idx) 2).val = (y 1).val := by
  have hs := sq_128x128 squeezes_S1x128x128_S128x128.numel_eq y
  have ho := k0_off10_eq L
  refine ⟨?_, ?_, ?_⟩
  · show k0_off10 L 0 + 1 * ((Shape.reshapeEquiv squeezes_S1x128x128_S128x128.numel_eq y) 0).val = bOf L
    rw [ho, hs.1]; rfl
  · show k0_off10 L 1 + 1 * ((Shape.reshapeEquiv squeezes_S1x128x128_S128x128.numel_eq y) 1).val = 896 + (y 0).val
    rw [ho, hs.2.1]; show 896 + 1 * (y 0).val = _; omega
  · show k0_off10 L 2 + 1 * ((Shape.reshapeEquiv squeezes_S1x128x128_S128x128.numel_eq y) 2).val = (y 1).val
    rw [ho, hs.2.2]; show 0 + 1 * (y 1).val = _; omega

theorem oCh8_emb (L : grid0.Coords) (y : S128x128.Idx) :
    (((oCh8 L).view.emb y : S32x2048x128.Idx) 0).val = bOf L ∧ (((oCh8 L).view.emb y : S32x2048x128.Idx) 1).val = 1024 + (y 0).val
      ∧ (((oCh8 L).view.emb y : S32x2048x128.Idx) 2).val = (y 1).val := by
  have hs := sq_128x128 squeezes_S1x128x128_S128x128.numel_eq y
  have ho := k0_off11_eq L
  refine ⟨?_, ?_, ?_⟩
  · show k0_off11 L 0 + 1 * ((Shape.reshapeEquiv squeezes_S1x128x128_S128x128.numel_eq y) 0).val = bOf L
    rw [ho, hs.1]; rfl
  · show k0_off11 L 1 + 1 * ((Shape.reshapeEquiv squeezes_S1x128x128_S128x128.numel_eq y) 1).val = 1024 + (y 0).val
    rw [ho, hs.2.1]; show 1024 + 1 * (y 0).val = _; omega
  · show k0_off11 L 2 + 1 * ((Shape.reshapeEquiv squeezes_S1x128x128_S128x128.numel_eq y) 2).val = (y 1).val
    rw [ho, hs.2.2]; show 0 + 1 * (y 1).val = _; omega

theorem oCh9_emb (L : grid0.Coords) (y : S128x128.Idx) :
    (((oCh9 L).view.emb y : S32x2048x128.Idx) 0).val = bOf L ∧ (((oCh9 L).view.emb y : S32x2048x128.Idx) 1).val = 1152 + (y 0).val
      ∧ (((oCh9 L).view.emb y : S32x2048x128.Idx) 2).val = (y 1).val := by
  have hs := sq_128x128 squeezes_S1x128x128_S128x128.numel_eq y
  have ho := k0_off12_eq L
  refine ⟨?_, ?_, ?_⟩
  · show k0_off12 L 0 + 1 * ((Shape.reshapeEquiv squeezes_S1x128x128_S128x128.numel_eq y) 0).val = bOf L
    rw [ho, hs.1]; rfl
  · show k0_off12 L 1 + 1 * ((Shape.reshapeEquiv squeezes_S1x128x128_S128x128.numel_eq y) 1).val = 1152 + (y 0).val
    rw [ho, hs.2.1]; show 1152 + 1 * (y 0).val = _; omega
  · show k0_off12 L 2 + 1 * ((Shape.reshapeEquiv squeezes_S1x128x128_S128x128.numel_eq y) 2).val = (y 1).val
    rw [ho, hs.2.2]; show 0 + 1 * (y 1).val = _; omega

theorem oCh10_emb (L : grid0.Coords) (y : S128x128.Idx) :
    (((oCh10 L).view.emb y : S32x2048x128.Idx) 0).val = bOf L ∧ (((oCh10 L).view.emb y : S32x2048x128.Idx) 1).val = 1280 + (y 0).val
      ∧ (((oCh10 L).view.emb y : S32x2048x128.Idx) 2).val = (y 1).val := by
  have hs := sq_128x128 squeezes_S1x128x128_S128x128.numel_eq y
  have ho := k0_off13_eq L
  refine ⟨?_, ?_, ?_⟩
  · show k0_off13 L 0 + 1 * ((Shape.reshapeEquiv squeezes_S1x128x128_S128x128.numel_eq y) 0).val = bOf L
    rw [ho, hs.1]; rfl
  · show k0_off13 L 1 + 1 * ((Shape.reshapeEquiv squeezes_S1x128x128_S128x128.numel_eq y) 1).val = 1280 + (y 0).val
    rw [ho, hs.2.1]; show 1280 + 1 * (y 0).val = _; omega
  · show k0_off13 L 2 + 1 * ((Shape.reshapeEquiv squeezes_S1x128x128_S128x128.numel_eq y) 2).val = (y 1).val
    rw [ho, hs.2.2]; show 0 + 1 * (y 1).val = _; omega

theorem oCh11_emb (L : grid0.Coords) (y : S128x128.Idx) :
    (((oCh11 L).view.emb y : S32x2048x128.Idx) 0).val = bOf L ∧ (((oCh11 L).view.emb y : S32x2048x128.Idx) 1).val = 1408 + (y 0).val
      ∧ (((oCh11 L).view.emb y : S32x2048x128.Idx) 2).val = (y 1).val := by
  have hs := sq_128x128 squeezes_S1x128x128_S128x128.numel_eq y
  have ho := k0_off14_eq L
  refine ⟨?_, ?_, ?_⟩
  · show k0_off14 L 0 + 1 * ((Shape.reshapeEquiv squeezes_S1x128x128_S128x128.numel_eq y) 0).val = bOf L
    rw [ho, hs.1]; rfl
  · show k0_off14 L 1 + 1 * ((Shape.reshapeEquiv squeezes_S1x128x128_S128x128.numel_eq y) 1).val = 1408 + (y 0).val
    rw [ho, hs.2.1]; show 1408 + 1 * (y 0).val = _; omega
  · show k0_off14 L 2 + 1 * ((Shape.reshapeEquiv squeezes_S1x128x128_S128x128.numel_eq y) 2).val = (y 1).val
    rw [ho, hs.2.2]; show 0 + 1 * (y 1).val = _; omega

theorem oCh12_emb (L : grid0.Coords) (y : S128x128.Idx) :
    (((oCh12 L).view.emb y : S32x2048x128.Idx) 0).val = bOf L ∧ (((oCh12 L).view.emb y : S32x2048x128.Idx) 1).val = 1536 + (y 0).val
      ∧ (((oCh12 L).view.emb y : S32x2048x128.Idx) 2).val = (y 1).val := by
  have hs := sq_128x128 squeezes_S1x128x128_S128x128.numel_eq y
  have ho := k0_off15_eq L
  refine ⟨?_, ?_, ?_⟩
  · show k0_off15 L 0 + 1 * ((Shape.reshapeEquiv squeezes_S1x128x128_S128x128.numel_eq y) 0).val = bOf L
    rw [ho, hs.1]; rfl
  · show k0_off15 L 1 + 1 * ((Shape.reshapeEquiv squeezes_S1x128x128_S128x128.numel_eq y) 1).val = 1536 + (y 0).val
    rw [ho, hs.2.1]; show 1536 + 1 * (y 0).val = _; omega
  · show k0_off15 L 2 + 1 * ((Shape.reshapeEquiv squeezes_S1x128x128_S128x128.numel_eq y) 2).val = (y 1).val
    rw [ho, hs.2.2]; show 0 + 1 * (y 1).val = _; omega

theorem oCh13_emb (L : grid0.Coords) (y : S128x128.Idx) :
    (((oCh13 L).view.emb y : S32x2048x128.Idx) 0).val = bOf L ∧ (((oCh13 L).view.emb y : S32x2048x128.Idx) 1).val = 1664 + (y 0).val
      ∧ (((oCh13 L).view.emb y : S32x2048x128.Idx) 2).val = (y 1).val := by
  have hs := sq_128x128 squeezes_S1x128x128_S128x128.numel_eq y
  have ho := k0_off16_eq L
  refine ⟨?_, ?_, ?_⟩
  · show k0_off16 L 0 + 1 * ((Shape.reshapeEquiv squeezes_S1x128x128_S128x128.numel_eq y) 0).val = bOf L
    rw [ho, hs.1]; rfl
  · show k0_off16 L 1 + 1 * ((Shape.reshapeEquiv squeezes_S1x128x128_S128x128.numel_eq y) 1).val = 1664 + (y 0).val
    rw [ho, hs.2.1]; show 1664 + 1 * (y 0).val = _; omega
  · show k0_off16 L 2 + 1 * ((Shape.reshapeEquiv squeezes_S1x128x128_S128x128.numel_eq y) 2).val = (y 1).val
    rw [ho, hs.2.2]; show 0 + 1 * (y 1).val = _; omega

theorem oCh14_emb (L : grid0.Coords) (y : S128x128.Idx) :
    (((oCh14 L).view.emb y : S32x2048x128.Idx) 0).val = bOf L ∧ (((oCh14 L).view.emb y : S32x2048x128.Idx) 1).val = 1792 + (y 0).val
      ∧ (((oCh14 L).view.emb y : S32x2048x128.Idx) 2).val = (y 1).val := by
  have hs := sq_128x128 squeezes_S1x128x128_S128x128.numel_eq y
  have ho := k0_off17_eq L
  refine ⟨?_, ?_, ?_⟩
  · show k0_off17 L 0 + 1 * ((Shape.reshapeEquiv squeezes_S1x128x128_S128x128.numel_eq y) 0).val = bOf L
    rw [ho, hs.1]; rfl
  · show k0_off17 L 1 + 1 * ((Shape.reshapeEquiv squeezes_S1x128x128_S128x128.numel_eq y) 1).val = 1792 + (y 0).val
    rw [ho, hs.2.1]; show 1792 + 1 * (y 0).val = _; omega
  · show k0_off17 L 2 + 1 * ((Shape.reshapeEquiv squeezes_S1x128x128_S128x128.numel_eq y) 2).val = (y 1).val
    rw [ho, hs.2.2]; show 0 + 1 * (y 1).val = _; omega

theorem oCh15_emb (L : grid0.Coords) (y : S128x128.Idx) :
    (((oCh15 L).view.emb y : S32x2048x128.Idx) 0).val = bOf L ∧ (((oCh15 L).view.emb y : S32x2048x128.Idx) 1).val = 1920 + (y 0).val
      ∧ (((oCh15 L).view.emb y : S32x2048x128.Idx) 2).val = (y 1).val := by
  have hs := sq_128x128 squeezes_S1x128x128_S128x128.numel_eq y
  have ho := k0_off18_eq L
  refine ⟨?_, ?_, ?_⟩
  · show k0_off18 L 0 + 1 * ((Shape.reshapeEquiv squeezes_S1x128x128_S128x128.numel_eq y) 0).val = bOf L
    rw [ho, hs.1]; rfl
  · show k0_off18 L 1 + 1 * ((Shape.reshapeEquiv squeezes_S1x128x128_S128x128.numel_eq y) 1).val = 1920 + (y 0).val
    rw [ho, hs.2.1]; show 1920 + 1 * (y 0).val = _; omega
  · show k0_off18 L 2 + 1 * ((Shape.reshapeEquiv squeezes_S1x128x128_S128x128.numel_eq y) 2).val = (y 1).val
    rw [ho, hs.2.2]; show 0 + 1 * (y 1).val = _; omega

/-! ## Each view's elements, as a set of indices of its array -/

theorem set_iRow (L : grid0.Coords) : (iRow L).view.set = lead (s := S32x2048) (by decide) (bOf L) := by
  refine Finset.ext fun (i : S32x2048.Idx) => ?_
  rw [mem_lead]
  constructor
  · intro h
    obtain ⟨y, -, rfl⟩ := Finset.mem_map.mp h
    exact (iRow_emb L y).1
  · intro hb
    have hb' : (i 0).val = bOf L := hb
    have h1 : (i 1).val < 2048 := (i 1).isLt
    refine Finset.mem_map.mpr ⟨ix1 ⟨(i 1).val, h1⟩, Finset.mem_univ _, ?_⟩
    have e := iRow_emb L (ix1 ⟨(i 1).val, h1⟩)
    funext a
    match a with
    | ⟨0, _⟩ => exact Fin.ext (e.1.trans hb'.symm)
    | ⟨1, _⟩ => exact Fin.ext e.2

theorem set_xB (L : grid0.Coords) : (xB L).view.set = lead (s := S32x8192x128) (by decide) (bOf L) := by
  refine Finset.ext fun (i : S32x8192x128.Idx) => ?_
  rw [mem_lead]
  constructor
  · intro h
    obtain ⟨y, -, rfl⟩ := Finset.mem_map.mp h
    exact (xB_emb L y).1
  · intro hb
    have hb' : (i 0).val = bOf L := hb
    have h1 : (i 1).val < 8192 := (i 1).isLt
    have h2 : (i 2).val < 128 := (i 2).isLt
    refine Finset.mem_map.mpr ⟨ix2 ⟨(i 1).val, h1⟩ ⟨(i 2).val, h2⟩, Finset.mem_univ _, ?_⟩
    have e := xB_emb L (ix2 ⟨(i 1).val, h1⟩ ⟨(i 2).val, h2⟩)
    funext a
    match a with
    | ⟨0, _⟩ => exact Fin.ext (e.1.trans hb'.symm)
    | ⟨1, _⟩ => exact Fin.ext e.2.1
    | ⟨2, _⟩ => exact Fin.ext e.2.2

theorem set_oCh0 (L : grid0.Coords) : (oCh0 L).view.set = chunk (s := S32x2048x128) (by decide) (bOf L) 0 := by
  refine Finset.ext fun (i : S32x2048x128.Idx) => ?_
  rw [mem_chunk]
  constructor
  · intro h
    obtain ⟨y, -, rfl⟩ := Finset.mem_map.mp h
    have e := oCh0_emb L y
    have hy : (y 0).val < 128 := (y 0).isLt
    refine ⟨e.1, ?_⟩
    show (((oCh0 L).view.emb y : S32x2048x128.Idx) 1).val / 128 = 0
    rw [e.2.1]; omega
  · rintro ⟨hb, hk⟩
    have hb' : (i 0).val = bOf L := hb
    have hk' : (i 1).val / 128 = 0 := hk
    have h1 : (i 1).val < 2048 := (i 1).isLt
    have h2 : (i 2).val < 128 := (i 2).isLt
    have hlt : (i 1).val - 0 < 128 := by omega
    refine Finset.mem_map.mpr ⟨ix2 ⟨(i 1).val - 0, hlt⟩ ⟨(i 2).val, h2⟩, Finset.mem_univ _, ?_⟩
    have e := oCh0_emb L (ix2 ⟨(i 1).val - 0, hlt⟩ ⟨(i 2).val, h2⟩)
    funext a
    match a with
    | ⟨0, _⟩ => exact Fin.ext (e.1.trans hb'.symm)
    | ⟨1, _⟩ => exact Fin.ext (e.2.1.trans (show 0 + ((i 1).val - 0) = (i 1).val by omega))
    | ⟨2, _⟩ => exact Fin.ext e.2.2

theorem set_oCh1 (L : grid0.Coords) : (oCh1 L).view.set = chunk (s := S32x2048x128) (by decide) (bOf L) 1 := by
  refine Finset.ext fun (i : S32x2048x128.Idx) => ?_
  rw [mem_chunk]
  constructor
  · intro h
    obtain ⟨y, -, rfl⟩ := Finset.mem_map.mp h
    have e := oCh1_emb L y
    have hy : (y 0).val < 128 := (y 0).isLt
    refine ⟨e.1, ?_⟩
    show (((oCh1 L).view.emb y : S32x2048x128.Idx) 1).val / 128 = 1
    rw [e.2.1]; omega
  · rintro ⟨hb, hk⟩
    have hb' : (i 0).val = bOf L := hb
    have hk' : (i 1).val / 128 = 1 := hk
    have h1 : (i 1).val < 2048 := (i 1).isLt
    have h2 : (i 2).val < 128 := (i 2).isLt
    have hlt : (i 1).val - 128 < 128 := by omega
    refine Finset.mem_map.mpr ⟨ix2 ⟨(i 1).val - 128, hlt⟩ ⟨(i 2).val, h2⟩, Finset.mem_univ _, ?_⟩
    have e := oCh1_emb L (ix2 ⟨(i 1).val - 128, hlt⟩ ⟨(i 2).val, h2⟩)
    funext a
    match a with
    | ⟨0, _⟩ => exact Fin.ext (e.1.trans hb'.symm)
    | ⟨1, _⟩ => exact Fin.ext (e.2.1.trans (show 128 + ((i 1).val - 128) = (i 1).val by omega))
    | ⟨2, _⟩ => exact Fin.ext e.2.2

theorem set_oCh2 (L : grid0.Coords) : (oCh2 L).view.set = chunk (s := S32x2048x128) (by decide) (bOf L) 2 := by
  refine Finset.ext fun (i : S32x2048x128.Idx) => ?_
  rw [mem_chunk]
  constructor
  · intro h
    obtain ⟨y, -, rfl⟩ := Finset.mem_map.mp h
    have e := oCh2_emb L y
    have hy : (y 0).val < 128 := (y 0).isLt
    refine ⟨e.1, ?_⟩
    show (((oCh2 L).view.emb y : S32x2048x128.Idx) 1).val / 128 = 2
    rw [e.2.1]; omega
  · rintro ⟨hb, hk⟩
    have hb' : (i 0).val = bOf L := hb
    have hk' : (i 1).val / 128 = 2 := hk
    have h1 : (i 1).val < 2048 := (i 1).isLt
    have h2 : (i 2).val < 128 := (i 2).isLt
    have hlt : (i 1).val - 256 < 128 := by omega
    refine Finset.mem_map.mpr ⟨ix2 ⟨(i 1).val - 256, hlt⟩ ⟨(i 2).val, h2⟩, Finset.mem_univ _, ?_⟩
    have e := oCh2_emb L (ix2 ⟨(i 1).val - 256, hlt⟩ ⟨(i 2).val, h2⟩)
    funext a
    match a with
    | ⟨0, _⟩ => exact Fin.ext (e.1.trans hb'.symm)
    | ⟨1, _⟩ => exact Fin.ext (e.2.1.trans (show 256 + ((i 1).val - 256) = (i 1).val by omega))
    | ⟨2, _⟩ => exact Fin.ext e.2.2

theorem set_oCh3 (L : grid0.Coords) : (oCh3 L).view.set = chunk (s := S32x2048x128) (by decide) (bOf L) 3 := by
  refine Finset.ext fun (i : S32x2048x128.Idx) => ?_
  rw [mem_chunk]
  constructor
  · intro h
    obtain ⟨y, -, rfl⟩ := Finset.mem_map.mp h
    have e := oCh3_emb L y
    have hy : (y 0).val < 128 := (y 0).isLt
    refine ⟨e.1, ?_⟩
    show (((oCh3 L).view.emb y : S32x2048x128.Idx) 1).val / 128 = 3
    rw [e.2.1]; omega
  · rintro ⟨hb, hk⟩
    have hb' : (i 0).val = bOf L := hb
    have hk' : (i 1).val / 128 = 3 := hk
    have h1 : (i 1).val < 2048 := (i 1).isLt
    have h2 : (i 2).val < 128 := (i 2).isLt
    have hlt : (i 1).val - 384 < 128 := by omega
    refine Finset.mem_map.mpr ⟨ix2 ⟨(i 1).val - 384, hlt⟩ ⟨(i 2).val, h2⟩, Finset.mem_univ _, ?_⟩
    have e := oCh3_emb L (ix2 ⟨(i 1).val - 384, hlt⟩ ⟨(i 2).val, h2⟩)
    funext a
    match a with
    | ⟨0, _⟩ => exact Fin.ext (e.1.trans hb'.symm)
    | ⟨1, _⟩ => exact Fin.ext (e.2.1.trans (show 384 + ((i 1).val - 384) = (i 1).val by omega))
    | ⟨2, _⟩ => exact Fin.ext e.2.2

theorem set_oCh4 (L : grid0.Coords) : (oCh4 L).view.set = chunk (s := S32x2048x128) (by decide) (bOf L) 4 := by
  refine Finset.ext fun (i : S32x2048x128.Idx) => ?_
  rw [mem_chunk]
  constructor
  · intro h
    obtain ⟨y, -, rfl⟩ := Finset.mem_map.mp h
    have e := oCh4_emb L y
    have hy : (y 0).val < 128 := (y 0).isLt
    refine ⟨e.1, ?_⟩
    show (((oCh4 L).view.emb y : S32x2048x128.Idx) 1).val / 128 = 4
    rw [e.2.1]; omega
  · rintro ⟨hb, hk⟩
    have hb' : (i 0).val = bOf L := hb
    have hk' : (i 1).val / 128 = 4 := hk
    have h1 : (i 1).val < 2048 := (i 1).isLt
    have h2 : (i 2).val < 128 := (i 2).isLt
    have hlt : (i 1).val - 512 < 128 := by omega
    refine Finset.mem_map.mpr ⟨ix2 ⟨(i 1).val - 512, hlt⟩ ⟨(i 2).val, h2⟩, Finset.mem_univ _, ?_⟩
    have e := oCh4_emb L (ix2 ⟨(i 1).val - 512, hlt⟩ ⟨(i 2).val, h2⟩)
    funext a
    match a with
    | ⟨0, _⟩ => exact Fin.ext (e.1.trans hb'.symm)
    | ⟨1, _⟩ => exact Fin.ext (e.2.1.trans (show 512 + ((i 1).val - 512) = (i 1).val by omega))
    | ⟨2, _⟩ => exact Fin.ext e.2.2

theorem set_oCh5 (L : grid0.Coords) : (oCh5 L).view.set = chunk (s := S32x2048x128) (by decide) (bOf L) 5 := by
  refine Finset.ext fun (i : S32x2048x128.Idx) => ?_
  rw [mem_chunk]
  constructor
  · intro h
    obtain ⟨y, -, rfl⟩ := Finset.mem_map.mp h
    have e := oCh5_emb L y
    have hy : (y 0).val < 128 := (y 0).isLt
    refine ⟨e.1, ?_⟩
    show (((oCh5 L).view.emb y : S32x2048x128.Idx) 1).val / 128 = 5
    rw [e.2.1]; omega
  · rintro ⟨hb, hk⟩
    have hb' : (i 0).val = bOf L := hb
    have hk' : (i 1).val / 128 = 5 := hk
    have h1 : (i 1).val < 2048 := (i 1).isLt
    have h2 : (i 2).val < 128 := (i 2).isLt
    have hlt : (i 1).val - 640 < 128 := by omega
    refine Finset.mem_map.mpr ⟨ix2 ⟨(i 1).val - 640, hlt⟩ ⟨(i 2).val, h2⟩, Finset.mem_univ _, ?_⟩
    have e := oCh5_emb L (ix2 ⟨(i 1).val - 640, hlt⟩ ⟨(i 2).val, h2⟩)
    funext a
    match a with
    | ⟨0, _⟩ => exact Fin.ext (e.1.trans hb'.symm)
    | ⟨1, _⟩ => exact Fin.ext (e.2.1.trans (show 640 + ((i 1).val - 640) = (i 1).val by omega))
    | ⟨2, _⟩ => exact Fin.ext e.2.2

theorem set_oCh6 (L : grid0.Coords) : (oCh6 L).view.set = chunk (s := S32x2048x128) (by decide) (bOf L) 6 := by
  refine Finset.ext fun (i : S32x2048x128.Idx) => ?_
  rw [mem_chunk]
  constructor
  · intro h
    obtain ⟨y, -, rfl⟩ := Finset.mem_map.mp h
    have e := oCh6_emb L y
    have hy : (y 0).val < 128 := (y 0).isLt
    refine ⟨e.1, ?_⟩
    show (((oCh6 L).view.emb y : S32x2048x128.Idx) 1).val / 128 = 6
    rw [e.2.1]; omega
  · rintro ⟨hb, hk⟩
    have hb' : (i 0).val = bOf L := hb
    have hk' : (i 1).val / 128 = 6 := hk
    have h1 : (i 1).val < 2048 := (i 1).isLt
    have h2 : (i 2).val < 128 := (i 2).isLt
    have hlt : (i 1).val - 768 < 128 := by omega
    refine Finset.mem_map.mpr ⟨ix2 ⟨(i 1).val - 768, hlt⟩ ⟨(i 2).val, h2⟩, Finset.mem_univ _, ?_⟩
    have e := oCh6_emb L (ix2 ⟨(i 1).val - 768, hlt⟩ ⟨(i 2).val, h2⟩)
    funext a
    match a with
    | ⟨0, _⟩ => exact Fin.ext (e.1.trans hb'.symm)
    | ⟨1, _⟩ => exact Fin.ext (e.2.1.trans (show 768 + ((i 1).val - 768) = (i 1).val by omega))
    | ⟨2, _⟩ => exact Fin.ext e.2.2

theorem set_oCh7 (L : grid0.Coords) : (oCh7 L).view.set = chunk (s := S32x2048x128) (by decide) (bOf L) 7 := by
  refine Finset.ext fun (i : S32x2048x128.Idx) => ?_
  rw [mem_chunk]
  constructor
  · intro h
    obtain ⟨y, -, rfl⟩ := Finset.mem_map.mp h
    have e := oCh7_emb L y
    have hy : (y 0).val < 128 := (y 0).isLt
    refine ⟨e.1, ?_⟩
    show (((oCh7 L).view.emb y : S32x2048x128.Idx) 1).val / 128 = 7
    rw [e.2.1]; omega
  · rintro ⟨hb, hk⟩
    have hb' : (i 0).val = bOf L := hb
    have hk' : (i 1).val / 128 = 7 := hk
    have h1 : (i 1).val < 2048 := (i 1).isLt
    have h2 : (i 2).val < 128 := (i 2).isLt
    have hlt : (i 1).val - 896 < 128 := by omega
    refine Finset.mem_map.mpr ⟨ix2 ⟨(i 1).val - 896, hlt⟩ ⟨(i 2).val, h2⟩, Finset.mem_univ _, ?_⟩
    have e := oCh7_emb L (ix2 ⟨(i 1).val - 896, hlt⟩ ⟨(i 2).val, h2⟩)
    funext a
    match a with
    | ⟨0, _⟩ => exact Fin.ext (e.1.trans hb'.symm)
    | ⟨1, _⟩ => exact Fin.ext (e.2.1.trans (show 896 + ((i 1).val - 896) = (i 1).val by omega))
    | ⟨2, _⟩ => exact Fin.ext e.2.2

theorem set_oCh8 (L : grid0.Coords) : (oCh8 L).view.set = chunk (s := S32x2048x128) (by decide) (bOf L) 8 := by
  refine Finset.ext fun (i : S32x2048x128.Idx) => ?_
  rw [mem_chunk]
  constructor
  · intro h
    obtain ⟨y, -, rfl⟩ := Finset.mem_map.mp h
    have e := oCh8_emb L y
    have hy : (y 0).val < 128 := (y 0).isLt
    refine ⟨e.1, ?_⟩
    show (((oCh8 L).view.emb y : S32x2048x128.Idx) 1).val / 128 = 8
    rw [e.2.1]; omega
  · rintro ⟨hb, hk⟩
    have hb' : (i 0).val = bOf L := hb
    have hk' : (i 1).val / 128 = 8 := hk
    have h1 : (i 1).val < 2048 := (i 1).isLt
    have h2 : (i 2).val < 128 := (i 2).isLt
    have hlt : (i 1).val - 1024 < 128 := by omega
    refine Finset.mem_map.mpr ⟨ix2 ⟨(i 1).val - 1024, hlt⟩ ⟨(i 2).val, h2⟩, Finset.mem_univ _, ?_⟩
    have e := oCh8_emb L (ix2 ⟨(i 1).val - 1024, hlt⟩ ⟨(i 2).val, h2⟩)
    funext a
    match a with
    | ⟨0, _⟩ => exact Fin.ext (e.1.trans hb'.symm)
    | ⟨1, _⟩ => exact Fin.ext (e.2.1.trans (show 1024 + ((i 1).val - 1024) = (i 1).val by omega))
    | ⟨2, _⟩ => exact Fin.ext e.2.2

theorem set_oCh9 (L : grid0.Coords) : (oCh9 L).view.set = chunk (s := S32x2048x128) (by decide) (bOf L) 9 := by
  refine Finset.ext fun (i : S32x2048x128.Idx) => ?_
  rw [mem_chunk]
  constructor
  · intro h
    obtain ⟨y, -, rfl⟩ := Finset.mem_map.mp h
    have e := oCh9_emb L y
    have hy : (y 0).val < 128 := (y 0).isLt
    refine ⟨e.1, ?_⟩
    show (((oCh9 L).view.emb y : S32x2048x128.Idx) 1).val / 128 = 9
    rw [e.2.1]; omega
  · rintro ⟨hb, hk⟩
    have hb' : (i 0).val = bOf L := hb
    have hk' : (i 1).val / 128 = 9 := hk
    have h1 : (i 1).val < 2048 := (i 1).isLt
    have h2 : (i 2).val < 128 := (i 2).isLt
    have hlt : (i 1).val - 1152 < 128 := by omega
    refine Finset.mem_map.mpr ⟨ix2 ⟨(i 1).val - 1152, hlt⟩ ⟨(i 2).val, h2⟩, Finset.mem_univ _, ?_⟩
    have e := oCh9_emb L (ix2 ⟨(i 1).val - 1152, hlt⟩ ⟨(i 2).val, h2⟩)
    funext a
    match a with
    | ⟨0, _⟩ => exact Fin.ext (e.1.trans hb'.symm)
    | ⟨1, _⟩ => exact Fin.ext (e.2.1.trans (show 1152 + ((i 1).val - 1152) = (i 1).val by omega))
    | ⟨2, _⟩ => exact Fin.ext e.2.2

theorem set_oCh10 (L : grid0.Coords) : (oCh10 L).view.set = chunk (s := S32x2048x128) (by decide) (bOf L) 10 := by
  refine Finset.ext fun (i : S32x2048x128.Idx) => ?_
  rw [mem_chunk]
  constructor
  · intro h
    obtain ⟨y, -, rfl⟩ := Finset.mem_map.mp h
    have e := oCh10_emb L y
    have hy : (y 0).val < 128 := (y 0).isLt
    refine ⟨e.1, ?_⟩
    show (((oCh10 L).view.emb y : S32x2048x128.Idx) 1).val / 128 = 10
    rw [e.2.1]; omega
  · rintro ⟨hb, hk⟩
    have hb' : (i 0).val = bOf L := hb
    have hk' : (i 1).val / 128 = 10 := hk
    have h1 : (i 1).val < 2048 := (i 1).isLt
    have h2 : (i 2).val < 128 := (i 2).isLt
    have hlt : (i 1).val - 1280 < 128 := by omega
    refine Finset.mem_map.mpr ⟨ix2 ⟨(i 1).val - 1280, hlt⟩ ⟨(i 2).val, h2⟩, Finset.mem_univ _, ?_⟩
    have e := oCh10_emb L (ix2 ⟨(i 1).val - 1280, hlt⟩ ⟨(i 2).val, h2⟩)
    funext a
    match a with
    | ⟨0, _⟩ => exact Fin.ext (e.1.trans hb'.symm)
    | ⟨1, _⟩ => exact Fin.ext (e.2.1.trans (show 1280 + ((i 1).val - 1280) = (i 1).val by omega))
    | ⟨2, _⟩ => exact Fin.ext e.2.2

theorem set_oCh11 (L : grid0.Coords) : (oCh11 L).view.set = chunk (s := S32x2048x128) (by decide) (bOf L) 11 := by
  refine Finset.ext fun (i : S32x2048x128.Idx) => ?_
  rw [mem_chunk]
  constructor
  · intro h
    obtain ⟨y, -, rfl⟩ := Finset.mem_map.mp h
    have e := oCh11_emb L y
    have hy : (y 0).val < 128 := (y 0).isLt
    refine ⟨e.1, ?_⟩
    show (((oCh11 L).view.emb y : S32x2048x128.Idx) 1).val / 128 = 11
    rw [e.2.1]; omega
  · rintro ⟨hb, hk⟩
    have hb' : (i 0).val = bOf L := hb
    have hk' : (i 1).val / 128 = 11 := hk
    have h1 : (i 1).val < 2048 := (i 1).isLt
    have h2 : (i 2).val < 128 := (i 2).isLt
    have hlt : (i 1).val - 1408 < 128 := by omega
    refine Finset.mem_map.mpr ⟨ix2 ⟨(i 1).val - 1408, hlt⟩ ⟨(i 2).val, h2⟩, Finset.mem_univ _, ?_⟩
    have e := oCh11_emb L (ix2 ⟨(i 1).val - 1408, hlt⟩ ⟨(i 2).val, h2⟩)
    funext a
    match a with
    | ⟨0, _⟩ => exact Fin.ext (e.1.trans hb'.symm)
    | ⟨1, _⟩ => exact Fin.ext (e.2.1.trans (show 1408 + ((i 1).val - 1408) = (i 1).val by omega))
    | ⟨2, _⟩ => exact Fin.ext e.2.2

theorem set_oCh12 (L : grid0.Coords) : (oCh12 L).view.set = chunk (s := S32x2048x128) (by decide) (bOf L) 12 := by
  refine Finset.ext fun (i : S32x2048x128.Idx) => ?_
  rw [mem_chunk]
  constructor
  · intro h
    obtain ⟨y, -, rfl⟩ := Finset.mem_map.mp h
    have e := oCh12_emb L y
    have hy : (y 0).val < 128 := (y 0).isLt
    refine ⟨e.1, ?_⟩
    show (((oCh12 L).view.emb y : S32x2048x128.Idx) 1).val / 128 = 12
    rw [e.2.1]; omega
  · rintro ⟨hb, hk⟩
    have hb' : (i 0).val = bOf L := hb
    have hk' : (i 1).val / 128 = 12 := hk
    have h1 : (i 1).val < 2048 := (i 1).isLt
    have h2 : (i 2).val < 128 := (i 2).isLt
    have hlt : (i 1).val - 1536 < 128 := by omega
    refine Finset.mem_map.mpr ⟨ix2 ⟨(i 1).val - 1536, hlt⟩ ⟨(i 2).val, h2⟩, Finset.mem_univ _, ?_⟩
    have e := oCh12_emb L (ix2 ⟨(i 1).val - 1536, hlt⟩ ⟨(i 2).val, h2⟩)
    funext a
    match a with
    | ⟨0, _⟩ => exact Fin.ext (e.1.trans hb'.symm)
    | ⟨1, _⟩ => exact Fin.ext (e.2.1.trans (show 1536 + ((i 1).val - 1536) = (i 1).val by omega))
    | ⟨2, _⟩ => exact Fin.ext e.2.2

theorem set_oCh13 (L : grid0.Coords) : (oCh13 L).view.set = chunk (s := S32x2048x128) (by decide) (bOf L) 13 := by
  refine Finset.ext fun (i : S32x2048x128.Idx) => ?_
  rw [mem_chunk]
  constructor
  · intro h
    obtain ⟨y, -, rfl⟩ := Finset.mem_map.mp h
    have e := oCh13_emb L y
    have hy : (y 0).val < 128 := (y 0).isLt
    refine ⟨e.1, ?_⟩
    show (((oCh13 L).view.emb y : S32x2048x128.Idx) 1).val / 128 = 13
    rw [e.2.1]; omega
  · rintro ⟨hb, hk⟩
    have hb' : (i 0).val = bOf L := hb
    have hk' : (i 1).val / 128 = 13 := hk
    have h1 : (i 1).val < 2048 := (i 1).isLt
    have h2 : (i 2).val < 128 := (i 2).isLt
    have hlt : (i 1).val - 1664 < 128 := by omega
    refine Finset.mem_map.mpr ⟨ix2 ⟨(i 1).val - 1664, hlt⟩ ⟨(i 2).val, h2⟩, Finset.mem_univ _, ?_⟩
    have e := oCh13_emb L (ix2 ⟨(i 1).val - 1664, hlt⟩ ⟨(i 2).val, h2⟩)
    funext a
    match a with
    | ⟨0, _⟩ => exact Fin.ext (e.1.trans hb'.symm)
    | ⟨1, _⟩ => exact Fin.ext (e.2.1.trans (show 1664 + ((i 1).val - 1664) = (i 1).val by omega))
    | ⟨2, _⟩ => exact Fin.ext e.2.2

theorem set_oCh14 (L : grid0.Coords) : (oCh14 L).view.set = chunk (s := S32x2048x128) (by decide) (bOf L) 14 := by
  refine Finset.ext fun (i : S32x2048x128.Idx) => ?_
  rw [mem_chunk]
  constructor
  · intro h
    obtain ⟨y, -, rfl⟩ := Finset.mem_map.mp h
    have e := oCh14_emb L y
    have hy : (y 0).val < 128 := (y 0).isLt
    refine ⟨e.1, ?_⟩
    show (((oCh14 L).view.emb y : S32x2048x128.Idx) 1).val / 128 = 14
    rw [e.2.1]; omega
  · rintro ⟨hb, hk⟩
    have hb' : (i 0).val = bOf L := hb
    have hk' : (i 1).val / 128 = 14 := hk
    have h1 : (i 1).val < 2048 := (i 1).isLt
    have h2 : (i 2).val < 128 := (i 2).isLt
    have hlt : (i 1).val - 1792 < 128 := by omega
    refine Finset.mem_map.mpr ⟨ix2 ⟨(i 1).val - 1792, hlt⟩ ⟨(i 2).val, h2⟩, Finset.mem_univ _, ?_⟩
    have e := oCh14_emb L (ix2 ⟨(i 1).val - 1792, hlt⟩ ⟨(i 2).val, h2⟩)
    funext a
    match a with
    | ⟨0, _⟩ => exact Fin.ext (e.1.trans hb'.symm)
    | ⟨1, _⟩ => exact Fin.ext (e.2.1.trans (show 1792 + ((i 1).val - 1792) = (i 1).val by omega))
    | ⟨2, _⟩ => exact Fin.ext e.2.2

theorem set_oCh15 (L : grid0.Coords) : (oCh15 L).view.set = chunk (s := S32x2048x128) (by decide) (bOf L) 15 := by
  refine Finset.ext fun (i : S32x2048x128.Idx) => ?_
  rw [mem_chunk]
  constructor
  · intro h
    obtain ⟨y, -, rfl⟩ := Finset.mem_map.mp h
    have e := oCh15_emb L y
    have hy : (y 0).val < 128 := (y 0).isLt
    refine ⟨e.1, ?_⟩
    show (((oCh15 L).view.emb y : S32x2048x128.Idx) 1).val / 128 = 15
    rw [e.2.1]; omega
  · rintro ⟨hb, hk⟩
    have hb' : (i 0).val = bOf L := hb
    have hk' : (i 1).val / 128 = 15 := hk
    have h1 : (i 1).val < 2048 := (i 1).isLt
    have h2 : (i 2).val < 128 := (i 2).isLt
    have hlt : (i 1).val - 1920 < 128 := by omega
    refine Finset.mem_map.mpr ⟨ix2 ⟨(i 1).val - 1920, hlt⟩ ⟨(i 2).val, h2⟩, Finset.mem_univ _, ?_⟩
    have e := oCh15_emb L (ix2 ⟨(i 1).val - 1920, hlt⟩ ⟨(i 2).val, h2⟩)
    funext a
    match a with
    | ⟨0, _⟩ => exact Fin.ext (e.1.trans hb'.symm)
    | ⟨1, _⟩ => exact Fin.ext (e.2.1.trans (show 1920 + ((i 1).val - 1920) = (i 1).val by omega))
    | ⟨2, _⟩ => exact Fin.ext e.2.2

/-! ## A view written whole with what it reads of `g` holds `g` on its elements -/

theorem pts_fill {c : Thread nD τ} {sp : Space} {s : Shape} {e : EltTy} (v : View sig c.2.kind sp s e) (q : PosShare TreeShare)
    (fo g : Buf (Elt F) (v.loc c)) (pay : s.Idx → Elt F e) (h : ∀ y, pay y = v.read (Elt F) g y) :
    ((v.loc c ↦[v.set]{q} v.writes (Elt F) fo [⟨Rect.whole s, pay⟩] : sProp (MT nD τ sig (HIx 1) (Elt F) ℕ UU ℕ)))
      = (v.loc c ↦[v.set]{q} g) := by
  refine pointsTo_congr fun i hi => ?_
  obtain ⟨y, -, rfl⟩ := Finset.mem_map.mp hi
  have hw : v.writes (Elt F) fo [⟨Rect.whole s, pay⟩] = v.write (Elt F) fo pay Finset.univ :=
    (View.write_univ_eq_writes_whole (Val := Elt F) v fo [] pay).symm
  rw [hw, View.write_emb_of_mem _ _ (Finset.mem_univ y), h y, View.read_apply]
  simp

/-! ## The function both programs compute, and one gathered chunk as a piece of it -/

/-- Row `j` of batch `b` of the result is row `index[b, j]` of batch `b` of the table. -/
def G (fx : S32x8192x128.Idx → Elt F .f32) (fi : S32x2048.Idx → Elt F .i32) : S32x2048x128.Idx → Elt F .f32 :=
  fun i => fx (ix3 (i 0) ⟨(BitVec.toNat (fi (ix2 (i 0) (i 1)))) % 8192, Nat.mod_lt _ (by decide)⟩ (i 2))

/-- The `k`-th window of 128 entries of the fetched list. -/
abbrev listW (o : ℕ) (inb : ∀ a, (![o] : Fin 1 → ℕ) a + S128.size a ≤ S2048.size a) : Memref sig .scVector .vmem S128 .i32 :=
  (sI : Memref sig .scVector .vmem S2048 .i32).slice (Rect.unit (s := S2048) ![o] S128.size inb) (fun _ => rfl)

theorem gather_val (L : grid0.Coords) (fx : S32x8192x128.Idx → Elt F .f32) (fi : S32x2048.Idx → Elt F .i32) (fs : S2048.Idx → Elt F .i32)
    (o : ℕ) (inb : ∀ a, (![o] : Fin 1 → ℕ) a + S128.size a ≤ S2048.size a)
    (hn : S128.numel = S128x128.size gathers_S8192x128_S128x128.axis')
    (hr : ∀ x, BitVec.toNat (View.read (Elt F) (listW o inb).view
        (View.write (Elt F) (sI : Memref sig .scVector .vmem S2048 .i32).view fs (ReadAs.same.apply (View.read (Elt F) (iRow L).view fi)) Finset.univ) x)
          < S8192x128.size gathers_S8192x128_S128x128.axis)
    (y : S128x128.Idx) (i : S32x2048x128.Idx) (hi0 : (i 0).val = bOf L) (hi1 : (i 1).val = o + (y 0).val) (hi2 : (i 2).val = (y 1).val) :
    SparseCore.gatherPayload gathers_S8192x128_S128x128 (View.read (Elt F) (xB L).view fx)
        (SparseCore.rows (View.read (Elt F) (listW o inb).view
          (View.write (Elt F) (sI : Memref sig .scVector .vmem S2048 .i32).view fs (ReadAs.same.apply (View.read (Elt F) (iRow L).view fi)) Finset.univ)) hn hr) y
      = G fx fi i := by
  -- the list entry that names the row: entry `y 0` of the window, i.e. entry `o + y 0` of the fetched list
  let z : S128.Idx := S128.rowMajor.symm ((y gathers_S8192x128_S128x128.axis').cast hn.symm)
  have hz : (z 0).val = (y 0).val := by
    have e1 : (S128.rowMajor z).val = (z 0).val := Shape.rowMajor_val_one (d := ![128]) z
    have e2 : S128.rowMajor z = (y gathers_S8192x128_S128x128.axis').cast hn.symm := Equiv.apply_symm_apply _ _
    rw [e2] at e1
    exact e1.symm
  have hw : (((listW o inb).view.emb z : S2048.Idx) 0).val = o + (z 0).val := by
    show (![o] : Fin 1 → ℕ) 0 + 1 * (z 0).val = o + (z 0).val
    show o + 1 * (z 0).val = o + (z 0).val; omega
  have hI := iRow_emb L ((listW o inb).view.emb z)
  have hfill : View.write (Elt F) (sI : Memref sig .scVector .vmem S2048 .i32).view fs (ReadAs.same.apply (View.read (Elt F) (iRow L).view fi)) Finset.univ
      = View.read (Elt F) (iRow L).view fi := View.write_whole_univ _ _ _
  have hrow : (View.read (Elt F) (listW o inb).view
        (View.write (Elt F) (sI : Memref sig .scVector .vmem S2048 .i32).view fs (ReadAs.same.apply (View.read (Elt F) (iRow L).view fi)) Finset.univ) z)
      = fi (ix2 (i 0) (i 1)) := by
    rw [hfill]
    show fi ((iRow L).view.emb ((listW o inb).view.emb z)) = fi (ix2 (i 0) (i 1))
    congr 1
    funext a
    match a with
    | ⟨0, _⟩ => exact Fin.ext (hI.1.trans hi0.symm)
    | ⟨1, _⟩ => exact Fin.ext (hI.2.trans (by rw [hw, hz, hi1]))
  -- the source index of element `y`
  let r := SparseCore.rows (View.read (Elt F) (listW o inb).view
      (View.write (Elt F) (sI : Memref sig .scVector .vmem S2048 .i32).view fs (ReadAs.same.apply (View.read (Elt F) (iRow L).view fi)) Finset.univ)) hn hr
  let j : S8192x128.Idx := gathers_S8192x128_S128x128.idx r y
  have hj0 : (j 0).val = BitVec.toNat (fi (ix2 (i 0) (i 1))) := by
    have e := Shape.Gathers.idx_axis gathers_S8192x128_S128x128 r y
    have e' : (j 0).val = (r (y gathers_S8192x128_S128x128.axis')).val := congrArg Fin.val e
    rw [e']
    show BitVec.toNat (View.read (Elt F) (listW o inb).view _ z) = _
    rw [hrow]
  have hj1 : (j 1).val = (y 1).val :=
    Shape.Gathers.idx_of_ne gathers_S8192x128_S128x128 r y ⟨1, by decide⟩ (by decide)
  have hlt : (j 0).val < 8192 := (j 0).isLt
  have hE := xB_emb L j
  show fx ((xB L).view.emb j) = fx (ix3 (i 0) ⟨(BitVec.toNat (fi (ix2 (i 0) (i 1)))) % 8192, Nat.mod_lt _ (by decide)⟩ (i 2))
  congr 1
  funext a
  match a with
  | ⟨0, _⟩ => exact Fin.ext (hE.1.trans hi0.symm)
  | ⟨1, _⟩ =>
    refine Fin.ext (hE.2.1.trans ?_)
    show (j 0).val = (BitVec.toNat (fi (ix2 (i 0) (i 1)))) % 8192
    rw [← hj0, Nat.mod_eq_of_lt hlt]
  | ⟨2, _⟩ => exact Fin.ext (hE.2.2.trans (hj1.trans hi2.symm))

/-! ## Reading one slot of the row scratch through a write of another slot -/

/-- Slot `o` of the six 128×128 slots of the row scratch. -/
abbrev slotR (o : ℕ) (inb : ∀ a, (![o, 0, 0] : Fin 3 → ℕ) a + S1x128x128.size a ≤ S6x128x128.size a) : Memref sig .scVector .vmem S128x128 .f32 :=
  ((sR : Memref sig .scVector .vmem S6x128x128 .f32).slice (Rect.unit (s := S6x128x128) ![o, 0, 0] S1x128x128.size inb) (fun _ => rfl)).squeeze S128x128 squeezes_S1x128x128_S128x128

theorem slotR_emb (o : ℕ) (inb : ∀ a, (![o, 0, 0] : Fin 3 → ℕ) a + S1x128x128.size a ≤ S6x128x128.size a) (y : S128x128.Idx) :
    (((slotR o inb).view.emb y : S6x128x128.Idx) 0).val = o := by
  have hs := sq_128x128 squeezes_S1x128x128_S128x128.numel_eq y
  show (![o, 0, 0] : Fin 3 → ℕ) 0 + 1 * ((Shape.reshapeEquiv squeezes_S1x128x128_S128x128.numel_eq y) 0).val = o
  rw [hs.1]; show o + 1 * 0 = o; omega

/-- A write of slot `o'` does not change what slot `o ≠ o'` reads. -/
theorem read_slot_write_ne {o o' : ℕ} (inb : ∀ a, (![o, 0, 0] : Fin 3 → ℕ) a + S1x128x128.size a ≤ S6x128x128.size a)
    (inb' : ∀ a, (![o', 0, 0] : Fin 3 → ℕ) a + S1x128x128.size a ≤ S6x128x128.size a) (h : o ≠ o')
    (f : S6x128x128.Idx → Elt F .f32) (w : S128x128.Idx → Elt F .f32) :
    View.read (Elt F) (slotR o inb).view (View.write (Elt F) (slotR o' inb').view f w Finset.univ) = View.read (Elt F) (slotR o inb).view f := by
  funext y
  rw [View.read_apply, View.read_apply]
  congr 1
  refine View.write_of_not_mem _ _ _ fun hm => ?_
  obtain ⟨y', -, e⟩ := Finset.mem_map.mp hm
  have e0 : (((slotR o' inb').view.emb y' : S6x128x128.Idx) 0).val = (((slotR o inb).view.emb y : S6x128x128.Idx) 0).val :=
    congrArg (fun (t : S6x128x128.Idx) => (t 0).val) e
  rw [slotR_emb, slotR_emb] at e0
  exact h e0.symm

/-! ## Finite products of resources, spelt out -/

theorem bigSep_fin6 (Φ : Fin 6 → sProp (MT nD τ sig (HIx 1) (Elt F) ℕ UU ℕ)) :
    bigSep Finset.univ Φ = iprop(Φ 0 ∗ Φ 1 ∗ Φ 2 ∗ Φ 3 ∗ Φ 4 ∗ Φ 5) := by
  rw [show (Finset.univ : Finset (Fin 6)) = {0, 1, 2, 3, 4, 5} by decide]
  rw [SparseCore.bigSep_insert' (by decide), SparseCore.bigSep_insert' (by decide), SparseCore.bigSep_insert' (by decide), SparseCore.bigSep_insert' (by decide), SparseCore.bigSep_insert' (by decide), bigSep_singleton]

theorem bigSep_fin13 (Φ : Fin 13 → sProp (MT nD τ sig (HIx 1) (Elt F) ℕ UU ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := by
  rw [show (Finset.univ : Finset (Fin 13)) = {0, 1, 2, 3, 4, 5, 6, 7, 8, 9, 10, 11, 12} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem bigSep_fin16 (Φ : Fin 16 → sProp (MT nD τ sig (HIx 1) (Elt F) ℕ UU ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The arrays' parts: per SparseCore, per tile -/

abbrev xC (c : ℕ) : Finset S32x8192x128.Idx := leadPar (s := S32x8192x128) (by decide) c
abbrev xT (b : ℕ) : Finset S32x8192x128.Idx := lead (s := S32x8192x128) (by decide) b
abbrev iC (c : ℕ) : Finset S32x2048.Idx := leadPar (s := S32x2048) (by decide) c
abbrev iT (b : ℕ) : Finset S32x2048.Idx := lead (s := S32x2048) (by decide) b
abbrev oC (c : ℕ) : Finset S32x2048x128.Idx := leadPar (s := S32x2048x128) (by decide) c
abbrev oT (b : ℕ) : Finset S32x2048x128.Idx := lead (s := S32x2048x128) (by decide) b

end Cert.Proof.KB

end
-- ==== Proof.KBBody.lean ====
import proofs.«219751_g11407433138865_week1_w4_400_13_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.Proof.LeadSets Idealize.ShloMosaic.ValueIdx

local notation "𝕄" => MT nD τ sig (HIx 1) (Elt F) ℕ UU ℕ

variable (m : (ℓ : Loc nD τ sig) → Buf (Elt F) ℓ)

/-- Every entry of the index array names a row of the table. -/
def PreOK : Prop := ∀ (d : Dev nD) (j : S32x2048.Idx), BitVec.toNat (m (iLoc d) j) < 8192

/-- The result array the kernel leaves: the whole-array gather of the launch contents. -/
def Gm (d : Dev nD) : Buf (Elt F) (oLoc d) := G (m (xLoc d)) (m (iLoc d))

section Tile

variable (d : Dev nD) (L : grid0.Coords)

/-! ## A tile's own storage: two scratch buffers and thirteen DMA semaphores -/

theorem ownCells_V (c : Fin τ.nSC) (i : Fin τ.nSub) :
    (ownCells (V d c i) : Finset (GSem nD τ sig))
      = (Finset.univ : Finset (DmaSem sig)).map ⟨fun s => ((V d c i : Thread nD τ), SemLoc.dma s), fun a b e => SemLoc.dma.inj (Prod.mk.inj e).2⟩ := by
  have hreg : ∀ s : Sem sig, (SemLoc.reg s : SemLoc sig).isScoped .scVector = false := by decide
  have hdma : ∀ s : DmaSem sig, (SemLoc.dma s : SemLoc sig).isScoped .scVector = true := by decide
  ext g
  obtain ⟨t, sl⟩ := g
  rw [mem_ownCells, Finset.mem_map]
  constructor
  · rintro ⟨ht, hs⟩
    have ht' : t = V d c i := ht
    subst ht'
    cases sl with
    | reg s =>
      exfalso
      have hs' : (SemLoc.reg s : SemLoc sig).isScoped .scVector = true := hs
      rw [hreg s] at hs'
      exact Bool.false_ne_true hs'
    | dma s => exact ⟨s, Finset.mem_univ _, rfl⟩
  · rintro ⟨s, -, e⟩
    have e1 : (V d c i : Thread nD τ) = t := (Prod.mk.inj e).1
    have e2 : SemLoc.dma s = sl := (Prod.mk.inj e).2
    subst e1; subst e2
    exact ⟨rfl, hdma s⟩

theorem ownSems0_V :
    (ownSems0 (V d (cV L) (jV L)) : sProp 𝕄)
      = iprop(semVal ((V d (cV L) (jV L)), SemLoc.dma (0 : DmaSem sig)) 0
          ∗ semVal ((V d (cV L) (jV L)), SemLoc.dma (1 : DmaSem sig)) 0
          ∗ semVal ((V d (cV L) (jV L)), SemLoc.dma (2 : DmaSem sig)) 0
          ∗ semVal ((V d (cV L) (jV L)), SemLoc.dma (3 : DmaSem sig)) 0
          ∗ semVal ((V d (cV L) (jV L)), SemLoc.dma (4 : DmaSem sig)) 0
          ∗ semVal ((V d (cV L) (jV L)), SemLoc.dma (5 : DmaSem sig)) 0
          ∗ semVal ((V d (cV L) (jV L)), SemLoc.dma (6 : DmaSem sig)) 0
          ∗ semVal ((V d (cV L) (jV L)), SemLoc.dma (7 : DmaSem sig)) 0
          ∗ semVal ((V d (cV L) (jV L)), SemLoc.dma (8 : DmaSem sig)) 0
          ∗ semVal ((V d (cV L) (jV L)), SemLoc.dma (9 : DmaSem sig)) 0
          ∗ semVal ((V d (cV L) (jV L)), SemLoc.dma (10 : DmaSem sig)) 0
          ∗ semVal ((V d (cV L) (jV L)), SemLoc.dma (11 : DmaSem sig)) 0
          ∗ semVal ((V d (cV L) (jV L)), SemLoc.dma (12 : DmaSem sig)) 0) := by
  unfold SparseCore.Cfg.ownSems0
  rw [ownCells_V, BI.bigSep_map]
  exact bigSep_fin13 (F := F) (fun s : Fin 13 => semVal (((V d (cV L) (jV L)) : Thread nD τ), SemLoc.dma s) 0)

/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The tile's parts of the arrays, as its memrefs address them -/

theorem pts_xB (q : PosShare TreeShare) (f : Buf (Elt F) (xLoc d)) :
    ((xB L).view.loc (V d (cV L) (jV L)) ↦[(xB L).view.set]{q} f : sProp 𝕄) = (xLoc d ↦[xT (bOf L)]{q} f) := by
  rw [set_xB]
theorem pts_iRow (q : PosShare TreeShare) (f : Buf (Elt F) (iLoc d)) :
    ((iRow L).view.loc (V d (cV L) (jV L)) ↦[(iRow L).view.set]{q} f : sProp 𝕄) = (iLoc d ↦[iT (bOf L)]{q} f) := by
  rw [set_iRow]

/-- One read share of the table's batch per gather semaphore, and the remainder. -/
theorem toks6 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 6} f)
      ∗ (ℓ ↦[S]{Transfers.shareTok q 6 0} f) ∗ (ℓ ↦[S]{Transfers.shareTok q 6 1} f) ∗ (ℓ ↦[S]{Transfers.shareTok q 6 2} f) ∗ (ℓ ↦[S]{Transfers.shareTok q 6 3} f) ∗ (ℓ ↦[S]{Transfers.shareTok q 6 4} f) ∗ (ℓ ↦[S]{Transfers.shareTok q 6 5} f)) := by
  have h : (ℓ ↦[S]{q} f : sProp 𝕄) ⊣⊢ _ := Transfers.pointsTo_toks (ℓ := ℓ) (S := S) (f := f) q 6
  rw [bigSep_fin6 (F := F) (fun i : Fin 6 => (ℓ ↦[S]{Transfers.shareTok q 6 i} f : sProp 𝕄))] at h
  exact h

/-- The tile's rows of the result are its sixteen chunks. -/
theorem o_split (f : Buf (Elt F) (oLoc d)) :
    (oLoc d ↦[oT (bOf L)]{fullShare} f : sProp 𝕄)
      = iprop(((oCh0 L).view.loc (V d (cV L) (jV L)) ↦[(oCh0 L).view.set]{fullShare} f)
          ∗ ((oCh1 L).view.loc (V d (cV L) (jV L)) ↦[(oCh1 L).view.set]{fullShare} f)
          ∗ ((oCh2 L).view.loc (V d (cV L) (jV L)) ↦[(oCh2 L).view.set]{fullShare} f)
          ∗ ((oCh3 L).view.loc (V d (cV L) (jV L)) ↦[(oCh3 L).view.set]{fullShare} f)
          ∗ ((oCh4 L).view.loc (V d (cV L) (jV L)) ↦[(oCh4 L).view.set]{fullShare} f)
          ∗ ((oCh5 L).view.loc (V d (cV L) (jV L)) ↦[(oCh5 L).view.set]{fullShare} f)
          ∗ ((oCh6 L).view.loc (V d (cV L) (jV L)) ↦[(oCh6 L).view.set]{fullShare} f)
          ∗ ((oCh7 L).view.loc (V d (cV L) (jV L)) ↦[(oCh7 L).view.set]{fullShare} f)
          ∗ ((oCh8 L).view.loc (V d (cV L) (jV L)) ↦[(oCh8 L).view.set]{fullShare} f)
          ∗ ((oCh9 L).view.loc (V d (cV L) (jV L)) ↦[(oCh9 L).view.set]{fullShare} f)
          ∗ ((oCh10 L).view.loc (V d (cV L) (jV L)) ↦[(oCh10 L).view.set]{fullShare} f)
          ∗ ((oCh11 L).view.loc (V d (cV L) (jV L)) ↦[(oCh11 L).view.set]{fullShare} f)
          ∗ ((oCh12 L).view.loc (V d (cV L) (jV L)) ↦[(oCh12 L).view.set]{fullShare} f)
          ∗ ((oCh13 L).view.loc (V d (cV L) (jV L)) ↦[(oCh13 L).view.set]{fullShare} f)
          ∗ ((oCh14 L).view.loc (V d (cV L) (jV L)) ↦[(oCh14 L).view.set]{fullShare} f)
          ∗ ((oCh15 L).view.loc (V d (cV L) (jV L)) ↦[(oCh15 L).view.set]{fullShare} f)) := by
  rw [set_oCh0, set_oCh1, set_oCh2, set_oCh3, set_oCh4, set_oCh5, set_oCh6, set_oCh7, set_oCh8, set_oCh9, set_oCh10, set_oCh11, set_oCh12, set_oCh13, set_oCh14, set_oCh15]
  rw [show oT (bOf L) = (Finset.univ : Finset (Fin 16)).biUnion (fun k => chunk (s := S32x2048x128) (by decide) (bOf L) k.val) from
    (chunk_cover (s := S32x2048x128) (by decide) rfl (bOf L)).symm]
  rw [pointsTo_biUnion Finset.univ (ℓ := oLoc d) (fun k : Fin 16 => chunk (s := S32x2048x128) (by decide) (bOf L) k.val)
    (fun a _ b _ h => chunk_disjoint (s := S32x2048x128) (by decide) (bOf L) (fun e => h (Fin.ext e)))]
  rw [bigSep_fin16 (F := F)]
  rfl

/-- The waits a task records beyond those it found are at the kernels' index. -/
theorem wok_refl (W : Waits sig (HIx 1)) : ∀ p ∈ W, p ∈ W ∨ p.2 = none := fun _ h => .inl h
theorem wok_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

variable [FloatOps F]

/-! ## The task -/

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ ((xLoc d ↦[xT (bOf L)]{fullShare} m (xLoc d)) ∗ (iLoc d ↦[iT (bOf L)]{fullShare} m (iLoc d)) ∗ (oLoc d ↦[oT (bOf L)]{fullShare} m (oLoc d)))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0_run L xV (Memref.isWhole_whole _) iV (Memref.isWhole_whole _) oV (Memref.isWhole_whole _) sI (Memref.isWhole_whole _) sR (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scoped0)
          fun _ => iprop(((xLoc d ↦[xT (bOf L)]{fullShare} m (xLoc d)) ∗ (iLoc d ↦[iT (bOf L)]{fullShare} m (iLoc d)) ∗ (oLoc d ↦[oT (bOf L)]{fullShare} Gm m d))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V,
    o_split (F := F) d L (m (oLoc d)), o_split (F := F) d L (Gm m d)]
  iintro ⟨#Hlv, -, ⟨Hx, Hi, Ho0, Ho1, Ho2, Ho3, Ho4, Ho5, Ho6, Ho7, Ho8, Ho9, Ho10, Ho11, Ho12, Ho13, Ho14, Ho15⟩, ⟨⟨%fs, HsI⟩, ⟨%fr, HsR⟩, Hbufs⟩,
    ⟨Hm0, Hm1, Hm2, Hm3, Hm4, Hm5, Hm6, Hm7, Hm8, Hm9, Hm10, Hm11, Hm12⟩, HO⟩
  ihave Hmw := ((K (F := F)).mayWaits_none (thr := (V d (cV L) (jV L))) hO) $$ Hlv
  -- the table's batch, as the gathers address it, one read share per gather semaphore
  ihave Hx' := (Entails.of_eq (pts_xB (F := F) d L fullShare (m (xLoc d))).symm) $$ Hx
  ihave Hx'' := (toks6 (F := F) (ℓ := (xB L).view.loc (V d (cV L) (jV L))) (S := (xB L).view.set) (f := m (xLoc d)) fullShare).1 $$ Hx'
  icases Hx'' with ⟨Hxd, Hx0, Hx1, Hx2, Hx3, Hx4, Hx5⟩
  ihave Hi' := (Entails.of_eq (pts_iRow (F := F) d L fullShare (m (iLoc d))).symm) $$ Hi
  -- every entry of the fetched list names a row of the table
  have hin : ∀ (off : Fin 1 → ℕ) (inb : ∀ a, off a + S128.size a ≤ S2048.size a) (x : S128.Idx),
      BitVec.toNat (View.read (Elt F) ((sI : Memref sig .scVector .vmem S2048 .i32).slice (Rect.unit (s := S2048) off S128.size inb) (fun _ => rfl)).view
        (View.write (Elt F) (sI : Memref sig .scVector .vmem S2048 .i32).view fs (ReadAs.same.apply ((iRow L).view.read (Elt F) (m (iLoc d)))) Finset.univ) x) < 8192 := by
    intro off inb x
    rw [show View.write (Elt F) (sI : Memref sig .scVector .vmem S2048 .i32).view fs (ReadAs.same.apply ((iRow L).view.read (Elt F) (m (iLoc d)))) Finset.univ
        = ReadAs.same.apply ((iRow L).view.read (Elt F) (m (iLoc d))) from View.write_whole_univ _ _ _]
    exact hpre d _
  ihave HsI' := (Entails.of_eq (show ((V d (cV L) (jV L)).loc cc0_scratch0 ↦{fullShare} fs : sProp 𝕄)
      = ((sI : Memref sig .scVector .vmem S2048 .i32).view.loc (V d (cV L) (jV L)) ↦{fullShare} fs) from rfl)) $$ HsI
  ihave HsR' := (Entails.of_eq (show ((V d (cV L) (jV L)).loc cc0_scratch1 ↦{fullShare} fr : sProp 𝕄)
      = ((sR : Memref sig .scVector .vmem S6x128x128 .f32).view.loc (V d (cV L) (jV L)) ↦{fullShare} fr) from rfl)) $$ HsR
  sl_unfold [cc0_run]
  sl_exec
  sl_step
  -- what each chunk of the result was written with is that chunk of the whole-array gather
  have hv0 : ∀ y, tile_body.sl.dma0_1 m d L fs fr hin y
      = View.read (Elt F) (oCh0 L).view (Gm m d) y := by
    intro y
    have e := oCh0_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 0 _ _ _ y _ e.1 e.2.1 e.2.2
  have hv1 : ∀ y, tile_body.sl.dma0_2 m d L fs fr hin y
      = View.read (Elt F) (oCh1 L).view (Gm m d) y := by
    intro y
    have e := oCh1_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 128 _ _ _ y _ e.1 e.2.1 e.2.2
  have hv2 : ∀ y, tile_body.sl.dma0_3 m d L fs fr hin y
      = View.read (Elt F) (oCh2 L).view (Gm m d) y := by
    intro y
    have e := oCh2_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 256 _ _ _ y _ e.1 e.2.1 e.2.2
  have hv3 : ∀ y, tile_body.sl.dma0_4 m d L fs fr hin y
      = View.read (Elt F) (oCh3 L).view (Gm m d) y := by
    intro y
    have e := oCh3_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 384 _ _ _ y _ e.1 e.2.1 e.2.2
  have hv4 : ∀ y, tile_body.sl.dma0_5 m d L fs fr hin y
      = View.read (Elt F) (oCh4 L).view (Gm m d) y := by
    intro y
    have e := oCh4_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 512 _ _ _ y _ e.1 e.2.1 e.2.2
  have hv5 : ∀ y, tile_body.sl.dma0_6 m d L fs fr hin y
      = View.read (Elt F) (oCh5 L).view (Gm m d) y := by
    intro y
    have e := oCh5_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 640 _ _ _ y _ e.1 e.2.1 e.2.2
  have hv6 : ∀ y, tile_body.sl.dma0_7 m d L fs fr hin y
      = View.read (Elt F) (oCh6 L).view (Gm m d) y := by
    intro y
    have e := oCh6_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 768 _ _ _ y _ e.1 e.2.1 e.2.2
  have hv7 : ∀ y, tile_body.sl.dma0_8 m d L fs fr hin y
      = View.read (Elt F) (oCh7 L).view (Gm m d) y := by
    intro y
    have e := oCh7_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 896 _ _ _ y _ e.1 e.2.1 e.2.2
  have hv8 : ∀ y, tile_body.sl.dma0_9 m d L fs fr hin y
      = View.read (Elt F) (oCh8 L).view (Gm m d) y := by
    intro y
    have e := oCh8_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1024 _ _ _ y _ e.1 e.2.1 e.2.2
  have hv9 : ∀ y, tile_body.sl.dma0_10 m d L fs fr hin y
      = View.read (Elt F) (oCh9 L).view (Gm m d) y := by
    intro y
    have e := oCh9_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1152 _ _ _ y _ e.1 e.2.1 e.2.2
  have hv10 : ∀ y, tile_body.sl.dma0_11 m d L fs fr hin y
      = View.read (Elt F) (oCh10 L).view (Gm m d) y := by
    intro y
    have e := oCh10_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1280 _ _ _ y _ e.1 e.2.1 e.2.2
  have hv11 : ∀ y, tile_body.sl.dma0_12 m d L fs fr hin y
      = View.read (Elt F) (oCh11 L).view (Gm m d) y := by
    intro y
    have e := oCh11_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1408 _ _ _ y _ e.1 e.2.1 e.2.2
  have hv12 : ∀ y, tile_body.sl.dma0_13 m d L fs fr hin y
      = View.read (Elt F) (oCh12 L).view (Gm m d) y := by
    intro y
    have e := oCh12_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1536 _ _ _ y _ e.1 e.2.1 e.2.2
  have hv13 : ∀ y, tile_body.sl.dma0_14 m d L fs fr hin y
      = View.read (Elt F) (oCh13 L).view (Gm m d) y := by
    intro y
    have e := oCh13_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1664 _ _ _ y _ e.1 e.2.1 e.2.2
  have hv14 : ∀ y, tile_body.sl.dma0_15 m d L fs fr hin y
      = View.read (Elt F) (oCh14 L).view (Gm m d) y := by
    intro y
    have e := oCh14_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1792 _ _ _ y _ e.1 e.2.1 e.2.2
  have hv15 : ∀ y, tile_body.sl.dma0_16 m d L fs fr hin y
      = View.read (Elt F) (oCh15 L).view (Gm m d) y := by
    intro y
    have e := oCh15_emb L y
    sl_unfold_run_names
    simp only [View.read_write_univ,
      read_slot_write_ne _ _ (show (0 : ℕ) ≠ 1 by decide),
      read_slot_write_ne _ _ (show (0 : ℕ) ≠ 2 by decide),
      read_slot_write_ne _ _ (show (0 : ℕ) ≠ 3 by decide),
      read_slot_write_ne _ _ (show (0 : ℕ) ≠ 4 by decide),
      read_slot_write_ne _ _ (show (0 : ℕ) ≠ 5 by decide),
      read_slot_write_ne _ _ (show (1 : ℕ) ≠ 0 by decide),
      read_slot_write_ne _ _ (show (1 : ℕ) ≠ 2 by decide),
      read_slot_write_ne _ _ (show (1 : ℕ) ≠ 3 by decide),
      read_slot_write_ne _ _ (show (1 : ℕ) ≠ 4 by decide),
      read_slot_write_ne _ _ (show (1 : ℕ) ≠ 5 by decide),
      read_slot_write_ne _ _ (show (2 : ℕ) ≠ 0 by decide),
      read_slot_write_ne _ _ (show (2 : ℕ) ≠ 1 by decide),
      read_slot_write_ne _ _ (show (2 : ℕ) ≠ 3 by decide),
      read_slot_write_ne _ _ (show (2 : ℕ) ≠ 4 by decide),
      read_slot_write_ne _ _ (show (2 : ℕ) ≠ 5 by decide),
      read_slot_write_ne _ _ (show (3 : ℕ) ≠ 0 by decide),
      read_slot_write_ne _ _ (show (3 : ℕ) ≠ 1 by decide),
      read_slot_write_ne _ _ (show (3 : ℕ) ≠ 2 by decide),
      read_slot_write_ne _ _ (show (3 : ℕ) ≠ 4 by decide),
      read_slot_write_ne _ _ (show (3 : ℕ) ≠ 5 by decide),
      read_slot_write_ne _ _ (show (4 : ℕ) ≠ 0 by decide),
      read_slot_write_ne _ _ (show (4 : ℕ) ≠ 1 by decide),
      read_slot_write_ne _ _ (show (4 : ℕ) ≠ 2 by decide),
      read_slot_write_ne _ _ (show (4 : ℕ) ≠ 3 by decide),
      read_slot_write_ne _ _ (show (4 : ℕ) ≠ 5 by decide),
      read_slot_write_ne _ _ (show (5 : ℕ) ≠ 0 by decide),
      read_slot_write_ne _ _ (show (5 : ℕ) ≠ 1 by decide),
      read_slot_write_ne _ _ (show (5 : ℕ) ≠ 2 by decide),
      read_slot_write_ne _ _ (show (5 : ℕ) ≠ 3 by decide),
      read_slot_write_ne _ _ (show (5 : ℕ) ≠ 4 by decide)]
    exact gather_val L _ _ _ 1920 _ _ _ y _ e.1 e.2.1 e.2.2
  isplitl [Hxd Hx0 Hx1 Hx2 Hx3 Hx4 Hx5 Hi' Ho0 Ho1 Ho2 Ho3 Ho4 Ho5 Ho6 Ho7 Ho8 Ho9 Ho10 Ho11 Ho12 Ho13 Ho14 Ho15]
  · isplitl [Hxd Hx0 Hx1 Hx2 Hx3 Hx4 Hx5]
    · iapply (Entails.of_eq (pts_xB (F := F) d L fullShare (m (xLoc d))))
      iapply (toks6 (F := F) (ℓ := (xB L).view.loc (V d (cV L) (jV L))) (S := (xB L).view.set) (f := m (xLoc d)) fullShare).2
      isplitl [Hxd]; · iexact Hxd
      isplitl [Hx0]; · iexact Hx0
      isplitl [Hx1]; · iexact Hx1
      isplitl [Hx2]; · iexact Hx2
      isplitl [Hx3]; · iexact Hx3
      isplitl [Hx4]; · iexact Hx4
      iexact Hx5
    isplitl [Hi']
    · iapply (Entails.of_eq (pts_iRow (F := F) d L fullShare (m (iLoc d)))); iexact Hi'
    isplitl [Ho0]
    · iapply (Entails.of_eq (pts_fill (F := F) (c := (V d (cV L) (jV L))) (oCh0 L).view fullShare (m (oLoc d)) (Gm m d) _ hv0)); iexact Ho0
    isplitl [Ho1]
    · iapply (Entails.of_eq (pts_fill (F := F) (c := (V d (cV L) (jV L))) (oCh1 L).view fullShare (m (oLoc d)) (Gm m d) _ hv1)); iexact Ho1
    isplitl [Ho2]
    · iapply (Entails.of_eq (pts_fill (F := F) (c := (V d (cV L) (jV L))) (oCh2 L).view fullShare (m (oLoc d)) (Gm m d) _ hv2)); iexact Ho2
    isplitl [Ho3]
    · iapply (Entails.of_eq (pts_fill (F := F) (c := (V d (cV L) (jV L))) (oCh3 L).view fullShare (m (oLoc d)) (Gm m d) _ hv3)); iexact Ho3
    isplitl [Ho4]
    · iapply (Entails.of_eq (pts_fill (F := F) (c := (V d (cV L) (jV L))) (oCh4 L).view fullShare (m (oLoc d)) (Gm m d) _ hv4)); iexact Ho4
    isplitl [Ho5]
    · iapply (Entails.of_eq (pts_fill (F := F) (c := (V d (cV L) (jV L))) (oCh5 L).view fullShare (m (oLoc d)) (Gm m d) _ hv5)); iexact Ho5
    isplitl [Ho6]
    · iapply (Entails.of_eq (pts_fill (F := F) (c := (V d (cV L) (jV L))) (oCh6 L).view fullShare (m (oLoc d)) (Gm m d) _ hv6)); iexact Ho6
    isplitl [Ho7]
    · iapply (Entails.of_eq (pts_fill (F := F) (c := (V d (cV L) (jV L))) (oCh7 L).view fullShare (m (oLoc d)) (Gm m d) _ hv7)); iexact Ho7
    isplitl [Ho8]
    · iapply (Entails.of_eq (pts_fill (F := F) (c := (V d (cV L) (jV L))) (oCh8 L).view fullShare (m (oLoc d)) (Gm m d) _ hv8)); iexact Ho8
    isplitl [Ho9]
    · iapply (Entails.of_eq (pts_fill (F := F) (c := (V d (cV L) (jV L))) (oCh9 L).view fullShare (m (oLoc d)) (Gm m d) _ hv9)); iexact Ho9
    isplitl [Ho10]
    · iapply (Entails.of_eq (pts_fill (F := F) (c := (V d (cV L) (jV L))) (oCh10 L).view fullShare (m (oLoc d)) (Gm m d) _ hv10)); iexact Ho10
    isplitl [Ho11]
    · iapply (Entails.of_eq (pts_fill (F := F) (c := (V d (cV L) (jV L))) (oCh11 L).view fullShare (m (oLoc d)) (Gm m d) _ hv11)); iexact Ho11
    isplitl [Ho12]
    · iapply (Entails.of_eq (pts_fill (F := F) (c := (V d (cV L) (jV L))) (oCh12 L).view fullShare (m (oLoc d)) (Gm m d) _ hv12)); iexact Ho12
    isplitl [Ho13]
    · iapply (Entails.of_eq (pts_fill (F := F) (c := (V d (cV L) (jV L))) (oCh13 L).view fullShare (m (oLoc d)) (Gm m d) _ hv13)); iexact Ho13
    isplitl [Ho14]
    · iapply (Entails.of_eq (pts_fill (F := F) (c := (V d (cV L) (jV L))) (oCh14 L).view fullShare (m (oLoc d)) (Gm m d) _ hv14)); iexact Ho14
    iapply (Entails.of_eq (pts_fill (F := F) (c := (V d (cV L) (jV L))) (oCh15 L).view fullShare (m (oLoc d)) (Gm m d) _ hv15)); iexact Ho15
  isplitl [HsI' HsR' Hbufs]
  · isplitl [HsI']; · iexists _; iexact HsI'
    isplitl [HsR']; · iexists _; iexact HsR'
    iexact Hbufs
  isplitl [Hm0 Hm1 Hm2 Hm3 Hm4 Hm5 Hm6 Hm7 Hm8 Hm9 Hm10 Hm11 Hm12]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    iexact Hm12
  iexists _; isplitr
  swap
  · iexact HO
  · ipureintro
    repeat (first | exact wok_refl _ | apply wok_insert)

end Tile

end Cert.Proof.KB

end
-- ==== Proof.KBLaunch.lean ====
import proofs.«219751_g11407433138865_week1_w4_400_13_alg».proof.Proof.KBBody
import proofs.«219751_g11407433138865_week1_w4_400_13_alg».proof.Proof.Gen.Pre_input_domain
import Idealize.ShloMosaic.Lib.ReduceAll

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.Proof.LeadSets Idealize.ShloMosaic.ValueIdx
open Idealize.ShloMosaic.StableHlo (held held_split held_sdiff_result wp_hlo_within)

local notation "𝕄" => MT nD τ sig (HIx 1) (Elt F) ℕ UU ℕ

variable (m : (ℓ : Loc nD τ sig) → Buf (Elt F) ℓ) (ρ : Dev nD → PrngReg)

/-! ## What the handshakes carry: each SparseCore the batches of its parity, each tile its batch -/

def P : (K (F := F)).Pay (nD := nD) (Val := Elt F) (Name := ℕ) (U := UU) where
  st := fun q d c => match q with | 0 => iprop((xLoc d ↦[xC c.val]{fullShare} m (xLoc d)) ∗ (iLoc d ↦[iC c.val]{fullShare} m (iLoc d)) ∗ (oLoc d ↦[oC c.val]{fullShare} m (oLoc d)))
  dn := fun q d c => match q with | 0 => iprop((xLoc d ↦[xC c.val]{fullShare} m (xLoc d)) ∗ (iLoc d ↦[iC c.val]{fullShare} m (iLoc d)) ∗ (oLoc d ↦[oC c.val]{fullShare} Gm m d))
  go := fun q d c i => match q with | 0 => iprop((xLoc d ↦[xT (2 * i.val + c.val)]{fullShare} m (xLoc d)) ∗ (iLoc d ↦[iT (2 * i.val + c.val)]{fullShare} m (iLoc d)) ∗ (oLoc d ↦[oT (2 * i.val + c.val)]{fullShare} m (oLoc d)))
  td := fun q d c i => match q with | 0 => iprop((xLoc d ↦[xT (2 * i.val + c.val)]{fullShare} m (xLoc d)) ∗ (iLoc d ↦[iT (2 * i.val + c.val)]{fullShare} m (iLoc d)) ∗ (oLoc d ↦[oT (2 * i.val + c.val)]{fullShare} Gm m d))
  x := fun _ _ => iprop(emp)

instance P_storable : (P (F := F) m).IsStorable where
  st q d c := match q with | 0 => (inferInstance : BI.Storable (upEmb : UEmb _ 𝕄) iprop((xLoc d ↦[xC c.val]{fullShare} m (xLoc d)) ∗ (iLoc d ↦[iC c.val]{fullShare} m (iLoc d)) ∗ (oLoc d ↦[oC c.val]{fullShare} m (oLoc d))))
  dn q d c := match q with | 0 => (inferInstance : BI.Storable (upEmb : UEmb _ 𝕄) iprop((xLoc d ↦[xC c.val]{fullShare} m (xLoc d)) ∗ (iLoc d ↦[iC c.val]{fullShare} m (iLoc d)) ∗ (oLoc d ↦[oC c.val]{fullShare} Gm m d)))
  go q d c i := match q with | 0 => (inferInstance : BI.Storable (upEmb : UEmb _ 𝕄) iprop((xLoc d ↦[xT (2 * i.val + c.val)]{fullShare} m (xLoc d)) ∗ (iLoc d ↦[iT (2 * i.val + c.val)]{fullShare} m (iLoc d)) ∗ (oLoc d ↦[oT (2 * i.val + c.val)]{fullShare} m (oLoc d))))
  td q d c i := match q with | 0 => (inferInstance : BI.Storable (upEmb : UEmb _ 𝕄) iprop((xLoc d ↦[xT (2 * i.val + c.val)]{fullShare} m (xLoc d)) ∗ (iLoc d ↦[iT (2 * i.val + c.val)]{fullShare} m (iLoc d)) ∗ (oLoc d ↦[oT (2 * i.val + c.val)]{fullShare} Gm m d)))

/-! ## The arrays cut per SparseCore and per tile -/

theorem x_cores (d : Dev nD) (f : Buf (Elt F) (xLoc d)) :
    (xLoc d ↦{fullShare} f : sProp 𝕄) = bigSep Finset.univ fun c : Fin 2 => xLoc d ↦[xC c.val]{fullShare} f := by
  rw [← pointsTo_biUnion Finset.univ (ℓ := xLoc d) (fun c : Fin 2 => xC c.val)
    (fun a _ b _ h => leadPar_disjoint (s := S32x8192x128) (by decide) (fun e => h (Fin.ext e))), leadPar_cover]; try rfl
theorem x_tiles (d : Dev nD) (c : Fin 2) (f : Buf (Elt F) (xLoc d)) :
    (xLoc d ↦[xC c.val]{fullShare} f : sProp 𝕄) = bigSep Finset.univ fun i : Fin 16 => xLoc d ↦[xT (2 * i.val + c.val)]{fullShare} f := by
  rw [← pointsTo_biUnion Finset.univ (ℓ := xLoc d) (fun i : Fin 16 => xT (2 * i.val + c.val))
    (fun a _ b _ h => lead_disjoint (s := S32x8192x128) (by decide) (fun e => h (Fin.ext (by omega)))), lead_cover (s := S32x8192x128) (by decide) rfl c]
theorem i_cores (d : Dev nD) (f : Buf (Elt F) (iLoc d)) :
    (iLoc d ↦{fullShare} f : sProp 𝕄) = bigSep Finset.univ fun c : Fin 2 => iLoc d ↦[iC c.val]{fullShare} f := by
  rw [← pointsTo_biUnion Finset.univ (ℓ := iLoc d) (fun c : Fin 2 => iC c.val)
    (fun a _ b _ h => leadPar_disjoint (s := S32x2048) (by decide) (fun e => h (Fin.ext e))), leadPar_cover]; try rfl
theorem i_tiles (d : Dev nD) (c : Fin 2) (f : Buf (Elt F) (iLoc d)) :
    (iLoc d ↦[iC c.val]{fullShare} f : sProp 𝕄) = bigSep Finset.univ fun i : Fin 16 => iLoc d ↦[iT (2 * i.val + c.val)]{fullShare} f := by
  rw [← pointsTo_biUnion Finset.univ (ℓ := iLoc d) (fun i : Fin 16 => iT (2 * i.val + c.val))
    (fun a _ b _ h => lead_disjoint (s := S32x2048) (by decide) (fun e => h (Fin.ext (by omega)))), lead_cover (s := S32x2048) (by decide) rfl c]
theorem o_cores (d : Dev nD) (f : Buf (Elt F) (oLoc d)) :
    (oLoc d ↦{fullShare} f : sProp 𝕄) = bigSep Finset.univ fun c : Fin 2 => oLoc d ↦[oC c.val]{fullShare} f := by
  rw [← pointsTo_biUnion Finset.univ (ℓ := oLoc d) (fun c : Fin 2 => oC c.val)
    (fun a _ b _ h => leadPar_disjoint (s := S32x2048x128) (by decide) (fun e => h (Fin.ext e))), leadPar_cover]; try rfl
theorem o_tiles (d : Dev nD) (c : Fin 2) (f : Buf (Elt F) (oLoc d)) :
    (oLoc d ↦[oC c.val]{fullShare} f : sProp 𝕄) = bigSep Finset.univ fun i : Fin 16 => oLoc d ↦[oT (2 * i.val + c.val)]{fullShare} f := by
  rw [← pointsTo_biUnion Finset.univ (ℓ := oLoc d) (fun i : Fin 16 => oT (2 * i.val + c.val))
    (fun a _ b _ h => lead_disjoint (s := S32x2048x128) (by decide) (fun e => h (Fin.ext (by omega)))), lead_cover (s := S32x2048x128) (by decide) rfl c]

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_run (coordsV c s)
          xV (Memref.isWhole_whole _) iV (Memref.isWhole_whole _) oV (Memref.isWhole_whole _)
          sI (Memref.isWhole_whole _) sR (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

theorem vecSplit : (K (F := F)).VecSplit' (P m) 0 := by
  intro d c
  show iprop((xLoc d ↦[xC c.val]{fullShare} m (xLoc d)) ∗ (iLoc d ↦[iC c.val]{fullShare} m (iLoc d)) ∗ (oLoc d ↦[oC c.val]{fullShare} m (oLoc d))) ⊢ |={Set.univ}=> iprop(
      (bigSep Finset.univ fun i : Fin 16 => iprop((xLoc d ↦[xT (2 * i.val + c.val)]{fullShare} m (xLoc d)) ∗ (iLoc d ↦[iT (2 * i.val + c.val)]{fullShare} m (iLoc d)) ∗ (oLoc d ↦[oT (2 * i.val + c.val)]{fullShare} m (oLoc d))))
      ∗ ((bigSep Finset.univ fun i : Fin 16 => iprop((xLoc d ↦[xT (2 * i.val + c.val)]{fullShare} m (xLoc d)) ∗ (iLoc d ↦[iT (2 * i.val + c.val)]{fullShare} m (iLoc d)) ∗ (oLoc d ↦[oT (2 * i.val + c.val)]{fullShare} Gm m d))) -∗ iprop((xLoc d ↦[xC c.val]{fullShare} m (xLoc d)) ∗ (iLoc d ↦[iC c.val]{fullShare} m (iLoc d)) ∗ (oLoc d ↦[oC c.val]{fullShare} Gm m d))))
  rw [bigSep_sep', bigSep_sep', bigSep_sep', bigSep_sep']
  rw [x_tiles (F := F) d c, i_tiles (F := F) d c, o_tiles (F := F) d c (m (oLoc d)), o_tiles (F := F) d c (Gm m d)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = iprop((xLoc d ↦{fullShare} m (xLoc d)) ∗ (iLoc d ↦{fullShare} m (iLoc d)) ∗ (oLoc d ↦{fullShare} m (oLoc d))) := by
  show (bigSep (Finset.univ : Finset (Fin 2)) fun c => iprop((xLoc d ↦[xC c.val]{fullShare} m (xLoc d)) ∗ (iLoc d ↦[iC c.val]{fullShare} m (iLoc d)) ∗ (oLoc d ↦[oC c.val]{fullShare} m (oLoc d)))) = _
  rw [bigSep_sep', bigSep_sep', ← x_cores, ← i_cores, ← o_cores]
theorem dn0_eq (d : Dev nD) : (bigSep Finset.univ fun c : Fin ((K (F := F)).nCore 0) => (P m).dn 0 d c)
    = iprop((xLoc d ↦{fullShare} m (xLoc d)) ∗ (iLoc d ↦{fullShare} m (iLoc d)) ∗ (oLoc d ↦{fullShare} Gm m d)) := by
  show (bigSep (Finset.univ : Finset (Fin 2)) fun c => iprop((xLoc d ↦[xC c.val]{fullShare} m (xLoc d)) ∗ (iLoc d ↦[iC c.val]{fullShare} m (iLoc d)) ∗ (oLoc d ↦[oC c.val]{fullShare} Gm m d))) = _
  rw [bigSep_sep', bigSep_sep', ← x_cores, ← i_cores, ← o_cores]

/-- What @main leaves the claim: the arguments at their launch contents, the result at the gather of them. -/
abbrev FIN (d : Dev nD) : sProp 𝕄 := iprop((xLoc d ↦{fullShare} m (xLoc d)) ∗ (iLoc d ↦{fullShare} m (iLoc d)) ∗ (oLoc d ↦{fullShare} Gm m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hi, Ho⟩, -, -⟩, -⟩
  iapply ((K (F := F)).wp_run (D (F := F)) 𝒱 (EH := EH) (P := P m) κ d 0) $$ [Hst Hx Hi Ho]
  isplitr; · iexact Hctx
  isplitl [Hst]; · iexact Hst
  isplitl [Hx Hi Ho]
  · rw [st0_eq]
    isplitl [Hx]; · iexact Hx
    isplitl [Hi]; · iexact Hi
    iexact Ho
  iintro ⟨Hst, Hdn⟩
  ihave Hdn' := (Entails.of_eq (dn0_eq m d)) $$ Hdn
  icases Hdn' with ⟨Hx, Hi, Ho⟩
  imodintro
  isplitl [Hst]; · iexact Hst
  isplitl [Hx]; · iexact Hx
  isplitl [Hi]; · iexact Hi
  iexact Ho

def fq (d : Dev nD) (s' : Phys nD τ sig (Elt F)) : Prop :=
  s'.mem.mem (oLoc d) = Gm m d ∧ s'.mem.mem (xLoc d) = m (xLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := Gm m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Gm m c ∧ r.2.mem (xLoc c) = m (xLoc c) ∧ r.2.mem (iLoc c) = m (iLoc c)

/-- Every weakly fair execution of the device's threads ends, nothing faulting, the arguments unchanged and the result
    the gather of them. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The precondition gives the index range -/

instance : Subsingleton Cert.Pre_input_domain.S_.Idx := ⟨fun a b => funext fun d => d.elim0⟩

theorem idx_of_pre [Cert.Pre_input_domain.Facts] (fx : FVec F Cert.Pre_input_domain.S32x8192x128 .f32) (fi : IVec Cert.Pre_input_domain.S32x2048 32)
    (h : Cert.Pre_input_domain.fn (F := F) fx fi = fun _ => 1#1) (j : Cert.Pre_input_domain.S32x2048.Idx) : BitVec.toNat (fi j) < 8192 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .sle v 8191#32) = 1#1 → v.toNat < 8192 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h ix0
  dsimp only [Cert.Pre_input_domain.fn] at e
  have e2 := (IntOp.andi_eq_one.mp e).2
  have e3 := Host.reduce_andi_all _ _ _ _ _ e2 j
  simp only [andi, cmpi, broadcastInDim, constantI] at e3
  exact key _ e3

end Cert.Proof.KB

end
-- ==== Proof.RefValue.lean ====
import proofs.«219751_g11407433138865_week1_w4_400_13_alg».proof.Defs
import proofs.«219751_g11407433138865_week1_w4_400_13_alg».proof.Proof.Gen.ReferenceIdeal
import proofs.«219751_g11407433138865_week1_w4_400_13_alg».proof.Proof.RefReadP
import proofs.«219751_g11407433138865_week1_w4_400_13_alg».proof.Proof.KIValue
import Idealize.ShloMosaic.Lib.ValueIdx
import Idealize.ShloMosaic.Lib.ReduceAll

noncomputable section

namespace Cert.ReferenceIdeal.RefValue

open Cert.ReferenceIdeal Cert.ReferenceIdeal.Gen Cert.ReferenceIdeal.ReadP Idealize.ShloMosaic Idealize.ShloMosaic.ValueIdx

variable {F : FTy → Type} [FloatOps F]

/-! ## A word that names a row: non-negative as a signed word, at most 8191 -/

theorem word_toInt (w : BitVec 32) (h : w.toNat < 8192) : w.toInt = (w.toNat : Int) := by
  rw [BitVec.toInt_eq_toNat_cond]
  have : 2 * w.toNat < 2 ^ 32 := by omega
  rw [if_pos this]

/-- Normalising a negative index changes nothing. -/
theorem word_norm (w : BitVec 32) (h : w.toNat < 8192) :
    Scalar.select (IntOp.cmpi .slt w 0#32) (IntOp.addi w 8192#32) w = w := by
  have hs : w.slt 0#32 = false := by
    rw [BitVec.slt_eq_decide, word_toInt w h]
    simp
  unfold Scalar.select IntOp.cmpi
  rw [hs]
  simp

/-- The in-range mask is true. -/
theorem word_mask (w : BitVec 32) (h : w.toNat < 8192) :
    IntOp.andi (IntOp.cmpi .sge w 0#32) (IntOp.cmpi .sle w 8191#32) = 1#1 := by
  have h1 : (0#32 : BitVec 32).sle w = true := by
    rw [BitVec.sle_eq_decide, word_toInt w h]
    simp
  have h2 : w.sle 8191#32 = true := by
    rw [BitVec.sle_eq_decide, word_toInt w h]
    simp only [decide_eq_true_eq]
    show (w.toNat : Int) ≤ (8191#32 : BitVec 32).toInt
    rw [word_toInt 8191#32 (by decide)]
    show (w.toNat : Int) ≤ ((8191 : Nat) : Int)
    omega
  show IntOp.andi (BitVec.ofBool ((0#32 : BitVec 32).sle w)) (BitVec.ofBool (w.sle 8191#32)) = 1#1
  rw [h1, h2]
  decide

theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_all_one f hf l

/-! ## The reference's stages, read at an index, where every index word names a row -/

variable (x0 : S32x8192x128.Idx → Elt F .f32) (x1 : S32x2048.Idx → Elt F .i32) (hpre : ∀ j, BitVec.toNat (x1 j) < 8192)

theorem v1_eq (i : S32x2048x128.Idx) : val_main_v1 (F := F) x1 i = x1 (ix2 (i 0) (i 1)) := by
  rw [val_main_v1_apply, val_main_v0_apply]
  have h1 : (i 1).val < 2048 := (i 1).isLt
  congr 1
  funext a
  match a with
  | ⟨0, _⟩ =>
    apply Fin.ext
    show (((i 0).val * 2048 + (i 1).val) * 1 + 0) / 2048 = (i 0).val
    omega
  | ⟨1, _⟩ =>
    apply Fin.ext
    show (((i 0).val * 2048 + (i 1).val) * 1 + 0) % 2048 = (i 1).val
    omega

include hpre in
theorem v4_eq (i : S32x2048x128.Idx) : val_main_call0_v4 (F := F) x1 i = x1 (ix2 (i 0) (i 1)) := by
  rw [val_main_call0_v4_apply, val_main_call0_v1_apply, val_main_call0_v3_apply, v1_eq, val_main_call0_v0_apply,
    val_main_call0_c_apply, val_main_call0_v2_apply, val_main_call0_c_0_apply]
  exact word_norm _ (hpre _)

include hpre in
theorem v5_eq (k : S32x2048x128x1.Idx) : val_main_call0_v5 (F := F) x1 k = x1 (ix2 (k 0) (k 1)) := by
  rw [val_main_call0_v5_apply, v4_eq x1 hpre]
  have h1 : (k 1).val < 2048 := (k 1).isLt
  have h2 : (k 2).val < 128 := (k 2).isLt
  have h3 : (k 3).val < 1 := (k 3).isLt
  congr 1
  funext a
  match a with
  | ⟨0, _⟩ =>
    apply Fin.ext
    show ((((k 0).val * 2048 + (k 1).val) * 128 + (k 2).val) * 1 + (k 3).val) / 262144 = (k 0).val
    omega
  | ⟨1, _⟩ =>
    apply Fin.ext
    show ((((k 0).val * 2048 + (k 1).val) * 128 + (k 2).val) * 1 + (k 3).val) / 128 % 2048 = (k 1).val
    omega

include hpre in
theorem v11_one (k : S32x2048x128x1.Idx) : val_main_call0_v11 (F := F) x1 k = 1#1 := by
  rw [val_main_call0_v11_apply, val_main_call0_v7_apply, val_main_call0_v10_apply, v5_eq x1 hpre, val_main_call0_v6_apply,
    val_main_call0_c_2_apply, val_main_call0_v9_apply, val_main_call0_v8_apply, val_main_call0_c_1_apply]
  exact word_mask _ (hpre _)

include hpre in
theorem v12_one (i : S32x2048x128.Idx) : val_main_call0_v12 (F := F) x1 i = 1#1 := by
  unfold val_main_call0_v12
  rw [Host.reduce_eq_foldl]
  exact foldl_andi_all_one _ (v11_one x1 hpre) _

include hpre in
/-- The gather reads row `index[b, j]` of batch `b`. -/
theorem v13_eq (i : S32x2048x128.Idx) : val_main_call0_v13 (F := F) x0 x1 i = Cert.Proof.KI.G x0 x1 i := by
  have hb0 : (⟨0, by decide⟩ : Fin S32x8192x128.rank) ∈ (gather_S32x8192x128_S32x2048x128x1_S32x2048x128_n_1_02_02_1_3_111).operandBatchingDims := by decide
  have hb2 : (⟨2, by decide⟩ : Fin S32x8192x128.rank) ∈ (gather_S32x8192x128_S32x2048x128x1_S32x2048x128_n_1_02_02_1_3_111).operandBatchingDims := by decide
  have hb1 : (⟨1, by decide⟩ : Fin S32x8192x128.rank) ∉ (gather_S32x8192x128_S32x2048x128x1_S32x2048x128_n_1_02_02_1_3_111).operandBatchingDims := by decide
  have hk0 : (⟨0, by decide⟩ : Fin S32x8192x128.rank) ∉ (gather_S32x8192x128_S32x2048x128x1_S32x2048x128_n_1_02_02_1_3_111).sKept := by decide
  have hk1 : (⟨1, by decide⟩ : Fin S32x8192x128.rank) ∉ (gather_S32x8192x128_S32x2048x128x1_S32x2048x128_n_1_02_02_1_3_111).sKept := by decide
  have hk2 : (⟨2, by decide⟩ : Fin S32x8192x128.rank) ∉ (gather_S32x8192x128_S32x2048x128x1_S32x2048x128_n_1_02_02_1_3_111).sKept := by decide
  have hm1 : (⟨1, by decide⟩ : Fin S32x8192x128.rank) ∈ (gather_S32x8192x128_S32x2048x128x1_S32x2048x128_n_1_02_02_1_3_111).startIndexMap := by decide
  unfold val_main_call0_v13 Host.gather Cert.Proof.KI.G
  congr 1
  funext a
  refine Fin.ext ?_
  show (gather_S32x8192x128_S32x2048x128x1_S32x2048x128_n_1_02_02_1_3_111).start i (val_main_call0_v5 (F := F) x1) a + (gather_S32x8192x128_S32x2048x128x1_S32x2048x128_n_1_02_02_1_3_111).batchCoord i a + (gather_S32x8192x128_S32x2048x128x1_S32x2048x128_n_1_02_02_1_3_111).offCoord i a = _
  match a with
  | ⟨0, _⟩ =>
    rw [GatherDims.start_batching _ _ _ _ hb0, GatherDims.offCoord_eq_zero _ _ _ hk0]
    show 0 + (i 0).val + 0 = (i 0).val
    omega
  | ⟨1, _⟩ =>
    rw [GatherDims.batchCoord_eq_zero _ _ _ hb1, GatherDims.offCoord_eq_zero _ _ _ hk1]
    unfold GatherDims.start
    rw [dif_pos hm1, v5_eq x1 hpre]
    have hw := hpre (ix2 (i 0) (i 1))
    show min (x1 (ix2 (i 0) (i 1))).toInt.toNat (8192 - 1) + 0 + 0 = (BitVec.toNat (x1 (ix2 (i 0) (i 1)))) % 8192
    rw [word_toInt _ hw, Int.toNat_natCast, Nat.mod_eq_of_lt hw]
    omega
  | ⟨2, _⟩ =>
    rw [GatherDims.start_batching _ _ _ _ hb2, GatherDims.offCoord_eq_zero _ _ _ hk2]
    show 0 + (i 2).val + 0 = (i 2).val
    omega

include hpre in
/-- Where every index word names a row, the reference's result is the whole-array gather. -/
theorem ref_value : val_main_v2 (F := F) x0 x1 = Cert.Proof.KI.G x0 x1 := by
  funext i
  rw [val_main_v2_apply, v12_one x1 hpre, v13_eq x0 x1 hpre]
  rfl

end Cert.ReferenceIdeal.RefValue

end
-- ==== Proof.lean ====
/-
  Kernel: on each of the 32 vector subcores (2 SparseCores × 16 tiles) one batch `b = 2·tile + core`: the tile fetches row `b`
  of the index array into its list scratch, then for each of the sixteen chunks of 128 entries gathers the 128 rows of batch
  `b` of the table that the chunk names into one of six row-scratch slots (an indirect copy, one DMA semaphore per slot) and,
  three chunks later, writes the slot out to rows `128k … 128k+127` of batch `b` of the result (a plain copy, one semaphore
  per slot). No two copies are outstanding on one semaphore, and no slot is read or written between a copy's issue and its wait.
  Reference: `take_along_axis(x, broadcast(index), axis = 1)`: negative indices shifted by 8192, a gather, and a mask that
  replaces out-of-range rows by NaN. Under the precondition (every index word in `[0, 8191]`) the shift and the mask do nothing,
  and both programs leave `result[b, j, :] = x[b, index[b, j], :]`; nothing here is arithmetic on floats, so the equality
  holds at every instance and finiteness is never used.

  The three frames: the kernel's two are its launch run (every tile's task proved once at a symbolic tile; the arrays cut per
  SparseCore by the parity of the batch and per tile by the batch) with the values dropped; the reference's is its run read back.
  `preserves` is trivial (the idealization rewrote nothing). `algebraic`: both runs end at the same whole-array function `G`.
-/
import proofs.«219751_g11407433138865_week1_w4_400_13_alg».proof.Defs
import proofs.«219751_g11407433138865_week1_w4_400_13_alg».proof.Proof.Gen.Kernel
import proofs.«219751_g11407433138865_week1_w4_400_13_alg».proof.Proof.Gen.KernelIdeal
import proofs.«219751_g11407433138865_week1_w4_400_13_alg».proof.Proof.Gen.ReferenceIdeal
import proofs.«219751_g11407433138865_week1_w4_400_13_alg».proof.Proof.Gen.Pre_input_domain
import proofs.«219751_g11407433138865_week1_w4_400_13_alg».proof.Proof.KILaunch
import proofs.«219751_g11407433138865_week1_w4_400_13_alg».proof.Proof.KBLaunch
import proofs.«219751_g11407433138865_week1_w4_400_13_alg».proof.Proof.RefRunP
import proofs.«219751_g11407433138865_week1_w4_400_13_alg».proof.Proof.RefReadP
import proofs.«219751_g11407433138865_week1_w4_400_13_alg».proof.Proof.RefValue
import Idealize.ShloMosaic.Adequacy
import Idealize.ShloMosaic.Init

noncomputable section

namespace Cert.Proof

open Idealize.ShloMosaic Idealize.SL.Sem

/-- The precondition bounds every index word (the idealized kernel's arrays). -/
theorem preOK_ideal (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : KI.PreOK (F := Ideal) m :=
  fun d j => KI.idx_of_pre (F := Ideal) _ _ (h d) j

/-- The same of the kernel as printed. -/
theorem preOK_bits (m : (ℓ : Loc Cert.Kernel.nD Cert.Kernel.τ Cert.Kernel.sig) → Buf (Elt Bits) ℓ)
    (h : Cert.Pre_Kernel (hPre_input_domain := Cert.Pre_input_domain.Gen.facts) m) : KB.PreOK (F := Bits) m :=
  fun d j => KB.idx_of_pre (F := Bits) _ _ (h d) j

theorem frame_p : Cert.frame_Kernel (hKernel := Cert.Kernel.Gen.facts) (hPre_input_domain := Cert.Pre_input_domain.Gen.facts) :=
  fun m ρ hpre => (θ_run Cert.Kernel.defs _ _).mono (fun _ h c => (h c).2) (KB.run_main (F := Bits) m ρ (preOK_bits m hpre))

theorem frame_pi : Cert.frame_KernelIdeal (hKernelIdeal := Cert.KernelIdeal.Gen.facts) (hPre_input_domain := Cert.Pre_input_domain.Gen.facts) :=
  fun m ρ hpre => (θ_run Cert.KernelIdeal.defs _ _).mono (fun _ h c => (h c).2) (KI.run_main (F := Ideal) m ρ (preOK_ideal m hpre))

theorem frame_ri : Cert.frame_ReferenceIdeal (hReferenceIdeal := Cert.ReferenceIdeal.Gen.facts) (hPre_input_domain := Cert.Pre_input_domain.Gen.facts) :=
  fun m ρ _ => (θ_run Cert.ReferenceIdeal.defs _ _).mono (fun _ h c => (h c).2) (Cert.ReferenceIdeal.ValueP.run (F := Ideal) m ρ)

theorem preserves : Cert.preserves_Kernel_KernelIdeal := trivial

/-- Both idealized programs end at the whole-array gather of the (agreeing) arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => KI.Gm m c, KI.run_main (F := Ideal) m ρ (preOK_ideal m hpre), ?_⟩
  refine (θ_run Cert.ReferenceIdeal.defs _ _).mono (fun _ h c => ⟨?_, (h c).2⟩) (Cert.ReferenceIdeal.ValueP.run (F := Ideal) m' ρ')
  have ha := hagree c
  rw [(h c).1, Cert.ReferenceIdeal.ReadP.val_main_v2_eq, ha.1, ha.2]
  exact Cert.ReferenceIdeal.RefValue.ref_value _ _ (fun j => preOK_ideal m hpre c j)

theorem claim : Cert.Claim := ⟨Cert.Kernel.Gen.facts, Cert.KernelIdeal.Gen.facts, Cert.ReferenceIdeal.Gen.facts, Cert.Pre_input_domain.Gen.facts,
  frame_p, frame_pi, frame_ri, preserves, algebraic⟩

end Cert.Proof

end
